-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S_d0_1 : S4096x4096.ReducesTo [0, 1] S_

variable [Facts]

def fn {F : FTy → Type} [FloatOps F] (main_arg0 : FVec F S4096x256 .f32) (main_arg1 : IVec S4096 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : IVec S4096x1 32 := broadcastInDim S4096x1 ![0] bcast_S4096_S4096x1_0 main_arg1
  let main_v5 : IVec S1x4096 32 := broadcastInDim S1x4096 ![1] bcast_S4096_S1x4096_1 main_arg1
  let main_v6 : IVec S4096x4096 32 := broadcastInDim S4096x4096 ![0, 1] bcast_S4096x1_S4096x4096_0_1 main_v4
  let main_v7 : IVec S4096x4096 32 := broadcastInDim S4096x4096 ![0, 1] bcast_S1x4096_S4096x4096_0_1 main_v5
  let main_v8 : IVec S4096x4096 1 := cmpi .ne main_v6 main_v7
  let main_c_0 : IVec S_ 1 := constantI S_ 1 0#1
  let main_v9 : IVec S_ 1 := (fun x v => Host.reduce IntOp.ori x v reducesTo_S4096x4096_S_d0_1 h_S_) main_v8 main_c_0
  let main_v10 : IVec S_ 1 := andi main_v3 main_v9
  main_v10
-- ==== Kernel.lean ====
abbrev S4096x256 : Shape := ⟨2, ![4096, 256]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S128x256 : Shape := ⟨2, ![128, 256]⟩
abbrev S128x1 : Shape := ⟨2, ![128, 1]⟩
abbrev S256x4096 : Shape := ⟨2, ![256, 4096]⟩
abbrev S128x4096 : Shape := ⟨2, ![128, 4096]⟩
abbrev S128 : Shape := ⟨1, ![128]⟩

abbrev nBuf : Space → Nat
  | .hbm => 22
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .bf16⟩
  | .hbm, ⟨13, _⟩ => ⟨S4096x1, .i32⟩
  | .hbm, ⟨14, _⟩ => ⟨S1x4096, .i32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S128x256, .bf16⟩
  | .local _ .vmem, ⟨1, _⟩ => ⟨S128x256, .bf16⟩
  | .local _ .vmem, ⟨2, _⟩ => ⟨S4096x256, .bf16⟩
  | .local _ .vmem, ⟨3, _⟩ => ⟨S128x1, .i32⟩
  | .local _ .vmem, ⟨4, _⟩ => ⟨S128x1, .i32⟩
  | .local _ .vmem, ⟨5, _⟩ => ⟨S1x4096, .i32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bitsLt_bf16_f32 : FTy.bits .bf16 < FTy.bits .f32
  shapeCasts_S4096_S4096x1 : S4096.ShapeCasts S4096x1
  shapeCasts_S4096_S1x4096 : S4096.ShapeCasts S1x4096
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  transposes_S4096x256_p1_0_S256x4096 : S4096x256.Transposes [1, 0] S256x4096
  iota_S128x4096_d0_w32 : S128x4096.Iotas .tc 32 [0]
  iota_S128x4096_d1_w32 : S128x4096.Iotas .tc 32 [1]
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S128x1_S128x4096 : S128x1.Broadcasts S128x4096
  broadcasts_S1x4096_S128x4096 : S1x4096.Broadcasts S128x4096
  reduces_S128x4096_S128 : S128x4096.Reduces [1] S128
  shapeCasts_S128_S128x1 : S128.ShapeCasts S128x1
  reducesTo_S4096x1_S_d0_1 : S4096x1.ReducesTo [0, 1] S_
  dot_S128x256_S256x4096_S128x4096_1_0_0_1_n_n_wf : DotDims.WF S128x256 S256x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S4096x256.size a
  hwx0_0 : ∀ i : grid0.Coords, EltTy.bits .bf16 = 32 ∨ (Rect.block (s := S4096x256) S128x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .i32 = 32 ∨ (Rect.block (s := S4096x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .i32 = 32 ∨ (Rect.block (s := S1x4096) S1x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S4096x1.size a
  hwx0_4 : ∀ i : grid0.Coords, EltTy.bits .f32 = 32 ∨ (Rect.block (s := S4096x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S4096x1.size a
  hwx0_5 : ∀ i : grid0.Coords, EltTy.bits .f32 = 32 ∨ (Rect.block (s := S4096x1) S128x1.size (cc0_transform_5 i) (hinb0_5 i)).WholeWords (EltTy.packing .f32)

variable [Facts₀]

def dot_S128x256_S256x4096_S128x4096_1_0_0_1_n_n : DotDims S128x256 S256x4096 S128x4096 where
  lhsContracting := [1]
  rhsContracting := [0]
  lhsNonContracting := [0]
  rhsNonContracting := [1]
  lhsBatch := []
  rhsBatch := []
  wf := dot_S128x256_S256x4096_S128x4096_1_0_0_1_n_n_wf

abbrev win0_0 : Pipeline.Window sig grid0 :=
  Pipeline.Window.ofSpec (Memref.whole main_v5) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S128x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096 : Shape := ⟨1, ![4096]⟩
abbrev S_ : Shape := ⟨0, ![]⟩
abbrev S4096x1 : Shape := ⟨2, ![4096, 1]⟩
abbrev S256x4096 : Shape := ⟨2, ![256, 4096]⟩
abbrev S4096x4096 : Shape := ⟨2, ![4096, 4096]⟩
abbrev S1x4096 : Shape := ⟨2, ![1, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S256x4096, .f32⟩
  | .hbm, ⟨13, _⟩ => ⟨S4096x4096, .f32⟩
  | .hbm, ⟨14, _⟩ => ⟨S4096x1, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S4096x4096, .f32⟩
  | .hbm, ⟨20, _⟩ => ⟨S4096x4096, .i32⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .i1⟩
  | .hbm, ⟨53, _⟩ => ⟨S4096x4096, .i32⟩
  | .hbm, ⟨54, _⟩ => ⟨S_, .i32⟩
  | .hbm, ⟨55, _⟩ => ⟨S_, .i32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call1_cst : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_c : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  transposes_S4096x256_S256x4096_1_0 : S4096x256.Transposes [1, 0] S256x4096
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  natLt_1_32 : 1 < 32
  reducesTo_S4096x4096_S_d0_1 : S4096x4096.ReducesTo [0, 1] S_
  dot_S4096x256_S256x4096_S4096x4096_1_0_0_1_n_n_wf : DotDims.WF S4096x256 S256x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.BRegion.lean ====
/-
  The kernel's one region: what the region finds in its arrays, what each of its 32 grid points
  leaves in the two output blocks, and the obligation of the body at every point.

  The kernel reads the normalised table twice — a block of 128 rows at point `t` (window 0) and the whole table at every
  point (window 1) — so two windows stand on ONE array; the label column (window 2, 128 rows at a time) and the label
  row (window 3, whole) stand on two reshapes of the label vector.  The body loads the four input blocks, computes the
  128 row sums of the loss and the 128 row counts of its nonzero entries as pure functions of those blocks, and stores
  each over the whole of its output block (windows 4 and 5).  It keeps nothing between points, so what a point leaves
  in an output block is a function of that point's input blocks alone.
-/
import proofs.«127660_j48911087567313_2_alg».proof.Proof.Gen.Kernel.Launch
import proofs.«127660_j48911087567313_2_alg».proof.Proof.Gen.Kernel.Skeleton
import proofs.«127660_j48911087567313_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- A core's buffer contents when the region is entered: after the host operations that come before it (the row
    norms, the division, the two reshapes of the labels). -/
abbrev V0 (c : Dev nD) : Valuation τ sig (Elt F) := StableHlo.after (List.flatten [hostOps0, hostOps0_1]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (a window that is not
    fetched at a point has not moved since the point before): one statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rRows : Rect S128x256 := Rect.unit (s := S128x256) ![0, 0] S128x256.size inb_S128x256_S128x256_0_0
abbrev rTab : Rect S4096x256 := Rect.unit (s := S4096x256) ![0, 0] S4096x256.size inb_S4096x256_S4096x256_0_0
abbrev rCol : Rect S128x1 := Rect.unit (s := S128x1) ![0, 0] S128x1.size inb_S128x1_S128x1_0_0
abbrev rRow : Rect S1x4096 := Rect.unit (s := S1x4096) ![0, 0] S1x4096.size inb_S1x4096_S1x4096_0_0

/-! ## What the body leaves in each output block -/

/-- The row sums' block after the body, from the four input blocks: one store over the whole block. -/
def outSum (i : grid0.Coords) (x0 : Vec F S128x256 .bf16) (x1 : Vec F S4096x256 .bf16) (x2 : Vec F S128x1 .i32) (x3 : Vec F S1x4096 .i32) : Vec F S128x1 .f32 :=
  View.canon [⟨rCol, k0_pay3 i (View.ld x0 rRows) (View.ld x1 rTab) (View.ld x2 rCol) (View.ld x3 rRow)⟩]

/-- The row counts' block after the body. -/
def outCnt (i : grid0.Coords) (x0 : Vec F S128x256 .bf16) (x1 : Vec F S4096x256 .bf16) (x2 : Vec F S128x1 .i32) (x3 : Vec F S1x4096 .i32) : Vec F S128x1 .f32 :=
  View.canon [⟨rCol, k0_pay1 (k0_pay2 i (View.ld x0 rRows) (View.ld x1 rTab) (View.ld x2 rCol) (View.ld x3 rRow))⟩]

/-- The one store covers the block. -/
theorem cover_col (p0 : Vec F S128x1 .f32) (y : S128x1.Idx) :
    ∃ pc ∈ ([⟨rCol, p0⟩] : List (View.Piece (Elt F) S128x1 .f32)), y ∈ pc.1.set :=
  View.cover_of_tiled [⟨rCol, p0⟩] S128x1.size (by rfl) y

/-! ## The body's triple -/

set_option maxHeartbeats 4000000 in
/-- The body on whole staging buffers, the inputs' at read contents and the outputs' at anything, runs to its end
    holding the inputs' as they were and the outputs' at `outSum` and `outCnt` of the inputs'. -/
theorem sound_kernel (c : Dev nD) (E : Set ℕ) (i : grid0.Coords)
    (arg1 : Memref sig .tc .vmem S128x256 .bf16) (harg1 : arg1.IsWhole) (arg2 : Memref sig .tc .vmem S4096x256 .bf16) (harg2 : arg2.IsWhole)
    (arg3 : Memref sig .tc .vmem S128x1 .i32) (harg3 : arg3.IsWhole) (arg4 : Memref sig .tc .vmem S1x4096 .i32) (harg4 : arg4.IsWhole)
    (arg5 : Memref sig .tc .vmem S128x1 .f32) (harg5 : arg5.IsWhole) (arg6 : Memref sig .tc .vmem S128x1 .f32) (harg6 : arg6.IsWhole)
    (x0 : Vec F S128x256 .bf16) (x1 : Vec F S4096x256 .bf16) (x2 : Vec F S128x1 .i32) (x3 : Vec F S1x4096 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outSum i x0 x1 x2 x3) ∗ owns (c : Thread nD τ) arg6 fullShare (outCnt i x0 x1 x2 x3)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_col _)
  iexists _; isplitr
  swap; · iexact H5
  ipureintro
  exact View.read_writes_eq_canon _ _ _ (cover_col _)

end Cert.Kernel.Region

end
-- ==== Proof.LibSharedAround.lean ====
/-
  The frame run of a pipelined kernel with no semaphore of its own whose windows may SHARE AN ARRAY, when the program
  goes on with host operations AFTER the region.

  When the region is entered, the buffer behind each array is held once at the full share and dealt among the windows on
  it (`hsplit`).  When the region is left the windows hand their shares back: the buffers behind the arrays are whole
  again, at the contents `Vx` (`hjoin`), and together with the buffers the kernel never touched they are all the unscoped
  buffers of the core.  The host operations that follow run on those; they write no array of the pipeline (`hkeep`), so
  afterwards the buffers behind the arrays still hold `Vx` and can be dealt to the windows again (`hsplitN`), which is
  the form the launch theorem reads the final state in.  The conclusion: after every weakly fair execution each window's
  array holds what the proof data compute for it after the last point, and every other unscoped buffer holds what the
  host operations after the region leave in it, started from `Vx`.
-/
import Idealize.ShloMosaic.Lib.Pipeline.FrameSuffix

noncomputable section

namespace Cert.SharedFrame

open Idealize.ShloMosaic Idealize.ShloMosaic.Pipeline Idealize.ShloMosaic.Rounds
open Idealize.SL
open Idealize.SL.BI (sProp bigSep bigSep_map bigSep_congr)
open scoped Idealize.SL.BI
open Idealize.SL.BI.BIBase Idealize.SL.BI.Laws Idealize.SL.Sem Idealize.SL.ProofMode
open Idealize.SL.RA
open Idealize.ShloMosaic.TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

include hinj hw in
set_option backward.isDefEq.respectTransparency.types false in
/-- The frame run when windows may share an array and host operations `opss` follow the region. -/
theorem θ_run_frame_shared_around
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (hunscoped : ∀ w, (arrRef (cfgs p).spec w).isScoped = false)
    (V₀ Vx : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfgs p).spec c (fun b => V₀ c (Proc.devRef .tc b)) : sProp 𝕄) ⊢ (dats p c).arrays ((dats p c).arrAt · 0))
    (hjoin : ∀ c, (dats p c).arrays ((dats p c).arrAt · (cfgs p).N) ⊢ (arrBufs (cfgs p).spec c (fun b => Vx c (Proc.devRef .tc b)) : sProp 𝕄))
    (hsplitN : ∀ c, (arrBufs (cfgs p).spec c (fun b => Vx c (Proc.devRef .tc b)) : sProp 𝕄) ⊢ (dats p c).arrays ((dats p c).arrAt · (cfgs p).N))
    (hVx : ∀ c, ∀ b ∈ restRefs sig (cfgs p).spec, Vx c (Proc.devRef .tc b) = V₀ c (Proc.devRef .tc b))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g)
      (FramePost cfgs dats p (fun c b => StableHlo.after opss.flatten (Vx c) (Proc.devRef .tc b))) := by
  classical
  exact θ_run_region_noSem_pf_tail (fun p => (cfgs p).toPCfg) (fun p => (cfgs p).toPCfg_adm) dats () hinj p hw (PreFacts.none _) emb₁ defs₀ 𝒱₀
    m g main (fun _ => chain (opss.map StableHlo.seq)) hbody hne harr hstage howed
    (u₀ := initOf (cells cfgs hinj) (launchToks cfgs hinj)) (hu₀ := .rfl)
    (V := fun c b => V₀ c (Proc.devRef .tc b)) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfgs p).spec c (fun b => V₀ c (Proc.devRef .tc b)))
    (Z' := fun c => unscopedRest (Ix := Unit) (Name := ℕ) (U := UR sig nD τ) (Lvl := ℕ) (cfgs p).spec c
      (fun b => StableHlo.after opss.flatten (Vx c) (Proc.devRef .tc b)))
    (hX := fun c => by
      rw [unscopedRestP_none]
      iintro H
      isplitr; · iempintro
      iexact H)
    (hin := fun c => (show _ ⊢ (scopedRest (cfgs p).spec c : sProp 𝕄) from by iintro ⟨-, -, H⟩; iexact H).trans (hin c))
    (hout := fun c => (hout c).trans (by
      iintro H
      isplitr; · iempintro
      iexact H))
    (htail := fun c Q' => by
      have hZ : (unscopedRest (Ix := Unit) (Name := ℕ) (U := UR sig nD τ) (Lvl := ℕ) (cfgs p).spec c (fun b => V₀ c (Proc.devRef .tc b)) : sProp 𝕄)
          = unscopedRest (cfgs p).spec c (fun b => Vx c (Proc.devRef .tc b)) := by
        unfold unscopedRest
        exact bigSep_congr fun b hb => by dsimp only; rw [hVx c b hb]
      have hA' : (arrBufs (Ix := Unit) (Name := ℕ) (U := UR sig nD τ) (Lvl := ℕ) (cfgs p).spec c
            (fun b => StableHlo.after opss.flatten (Vx c) (Proc.devRef .tc b)) : sProp 𝕄)
          = arrBufs (cfgs p).spec c (fun b => Vx c (Proc.devRef .tc b)) := by
        unfold arrBufs
        exact bigSep_congr fun b hb => by
          obtain ⟨w, -, rfl⟩ := Finset.mem_image.mp hb
          dsimp only
          rw [StableHlo.after_of_forall_not_mem _ _ fun op hop => ?_]
          obtain ⟨ops, hops, hop'⟩ := List.mem_flatten.mp hop
          exact hkeep ops hops op hop' w
      have hW : ∀ W : Valuation τ sig Val, (StableHlo.held (c.tc : Thread nD τ) (ucRefs τ sig) W : sProp 𝕄)
          = iprop((arrBufs (cfgs p).spec c (fun b => W (Proc.devRef .tc b)) : sProp 𝕄) ∗ unscopedRest (cfgs p).spec c (fun b => W (Proc.devRef .tc b))) := fun W => by
        rw [← unscopedBufs_held (Ix := Unit) (Name := ℕ) (U := UR sig nD τ) (Lvl := ℕ) c W]
        exact unscopedBufs_split₀ cfgs p hunscoped c _
      rw [hZ, ← List.append_nil (opss.map StableHlo.seq)]
      iintro ⟨Hk, Hb, Harr, Hz⟩
      iapply (wp_seqs_then (fun q => Cfg.toPCfg (Val := Val) (cfgs q)) defs₀ 𝒱₀ c (ucRefs τ sig) [] opss
        (fun ops ho op h => sub_ucRefs op (hsub ops ho op h)) hfresh (Vx c)) $$ [Hb Harr Hz]
      · rw [hW]
        isplitl [Hb]; · iexact Hb
        isplitl [Harr]; · iapply (hjoin c); iexact Harr
        iexact Hz
      iintro Hb
      rw [chain_nil, wp_pure, hW, hA']
      imodintro
      iapply Hk
      icases Hb with ⟨-, Ha, Hr⟩
      isplitl [Ha]; · iapply (hsplitN c); iexact Ha
      iexact Hr)
    (QY := fun c s => ∀ b ∈ restRefs sig (cfgs p).spec, s.mem ((c.tc : Thread nD τ).loc b) = StableHlo.after opss.flatten (Vx c) (Proc.devRef .tc b))
    (hY := fun c s' => by
      iintro ⟨-, HU, HSI⟩
      unfold unscopedRest
      imodintro
      iapply (pointsTo_read_all (restRefs sig (cfgs p).spec) (fun b => (c.tc : Thread nD τ).loc b)
        (fun b => StableHlo.after opss.flatten (Vx c) (Proc.devRef .tc b)) s')
      isplitl [HU] <;> iassumption)
    (hQ := fun s h c => ⟨(h c).1, (h c).2.2⟩)

end Cert.SharedFrame

end
-- ==== Proof.BFrame.lean ====
/-
  The kernel's frame run: the proof data of its one region, the obligation of the body at every grid point,
  how the one array that two windows read is dealt between them when the region is entered and joined again when it
  is left, and the run of the whole program — the host operations, the region, the host operations after it.
-/
import proofs.«127660_j48911087567313_2_alg».proof.Proof.BRegion
import proofs.«127660_j48911087567313_2_alg».proof.Proof.LibSharedAround

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the region on core `c`: the arrays as the region finds them; after the body at point `t` each
    input's buffer at its block and each output's at the body's result on the input blocks; the invariant is the scoped
    buffers the region does not stage (there are none); nothing owed; the table's array is held half by the window of
    row blocks and half by the window of the whole table, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outSum (grid0.coords t) (iblk m c 0 t) (iblk m c 1 t) (iblk m c 2 t) (iblk m c 3 t)
    | ⟨5, _⟩ => outCnt (grid0.coords t) (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = outSum (grid0.coords t) (iblk m c 0 t) (iblk m c 1 t) (iblk m c 2 t) (iblk m c 3 t) := by dsimp only [dats]
theorem after0_5 (c : Dev nD) (t : Fin cfg0.N) : (dats m 0 c).after 5 t
    = outCnt (grid0.coords t) (iblk m c 0 t) (iblk m c 1 t) (iblk m c 2 t) (iblk m c 3 t) := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d
theorem before0_3 (c : Dev nD) (t : Fin cfg0.N) (d) : (dats m 0 c).before 3 t d = iblk m c 3 t :=
  before3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

end Cert.Kernel.Region

end
-- ==== Proof.BRun.lean ====
/-
  The run of the kernel's whole program.

  The table's array is read through two windows.  When the region is entered its buffer, held once at the full share, is
  dealt into a left half for the window of row blocks and a right half for the window of the whole table; when the
  region is left the two halves are joined again.  The label column, the label row and the two result arrays each stand
  behind one window and are held whole throughout.  The host operations after the region read the two result arrays and
  write five buffers of their own.
-/
import proofs.«127660_j48911087567313_2_alg».proof.Proof.BFrame

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers behind the arrays, and the arrays window by window -/

/-- The five distinct buffers behind the six windows' arrays, each whole at the full share. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v5) ↦{fullShare} W main_v5) ∗ (((c : Thread nD τ).loc main_v6) ↦{fullShare} W main_v6)
          ∗ (((c : Thread nD τ).loc main_v7) ↦{fullShare} W main_v7) ∗ (((c : Thread nD τ).loc main_v8_0) ↦{fullShare} W main_v8_0)
          ∗ (((c : Thread nD τ).loc main_v8_1) ↦{fullShare} W main_v8_1)) := by
  unfold Pipeline.arrBufs
  exact bigSep_eq_bigSepL_of_eq [main_v5, main_v6, main_v7, main_v8_0, main_v8_1] (by decide) (by decide) _

/-- The windows' arrays at contents `Fv`, one by one, each at its share. -/
theorem arrays_chain (c : Dev nD) (Fv : (w : Fin cfg0.W) → Buf (Elt F) ((cfg0.win w).arr.view.loc (c.tc : Thread nD τ))) :
    ((dats m 0 c).arrays Fv : sProp 𝕄)
      = iprop((((c : Thread nD τ).loc main_v5) ↦{fullShare.left} Fv 0) ∗ (((c : Thread nD τ).loc main_v5) ↦{fullShare.right} Fv 1)
          ∗ (((c : Thread nD τ).loc main_v6) ↦{fullShare} Fv 2) ∗ (((c : Thread nD τ).loc main_v7) ↦{fullShare} Fv 3)
          ∗ (((c : Thread nD τ).loc main_v8_0) ↦{fullShare} Fv 4) ∗ (((c : Thread nD τ).loc main_v8_1) ↦{fullShare} Fv 5)) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ]
  rfl

/-! ## The contents when the region is left -/

/-- A core's buffer contents when the region is left: the two result arrays at what the write-backs of all the points
    left in them, every other buffer as the region found it. -/
def Vx (c : Dev nD) : Valuation τ sig (Elt F) :=
  Function.update (Function.update (V0 m c) (Proc.devRef .tc main_v8_0) ((dats m 0 c).arrAt 4 cfg0.N))
    (Proc.devRef .tc main_v8_1) ((dats m 0 c).arrAt 5 cfg0.N)

theorem Vx_out0 (c : Dev nD) : Vx m c (Proc.devRef .tc main_v8_0) = (dats m 0 c).arrAt 4 cfg0.N := by
  unfold Vx
  rw [Function.update_of_ne (StableHlo.devRef_ne_of_ne (by decide)), Function.update_self]
theorem Vx_out1 (c : Dev nD) : Vx m c (Proc.devRef .tc main_v8_1) = (dats m 0 c).arrAt 5 cfg0.N := by
  unfold Vx
  rw [Function.update_self]
theorem Vx_other (c : Dev nD) (b : Ref sig .tc) (h0 : b ≠ main_v8_0) (h1 : b ≠ main_v8_1) :
    Vx m c (Proc.devRef .tc b) = V0 m c (Proc.devRef .tc b) := by
  unfold Vx
  rw [Function.update_of_ne (StableHlo.devRef_ne_of_ne h1), Function.update_of_ne (StableHlo.devRef_ne_of_ne h0)]

/-- Every array after the last point is the exit contents of the buffer behind it: an input array is never written. -/
theorem arrAtN_eq (c : Dev nD) : ∀ w : Fin cfg0.W, (dats m 0 c).arrAt w cfg0.N = Vx m c (Proc.devRef .tc (Pipeline.arrRef spec0 w))
  | ⟨0, _⟩ => ((dats m 0 c).arrAt_in 0 rfl cfg0.N).trans (Vx_other m c main_v5 (by decide) (by decide)).symm
  | ⟨1, _⟩ => ((dats m 0 c).arrAt_in 1 rfl cfg0.N).trans (Vx_other m c main_v5 (by decide) (by decide)).symm
  | ⟨2, _⟩ => ((dats m 0 c).arrAt_in 2 rfl cfg0.N).trans (Vx_other m c main_v6 (by decide) (by decide)).symm
  | ⟨3, _⟩ => ((dats m 0 c).arrAt_in 3 rfl cfg0.N).trans (Vx_other m c main_v7 (by decide) (by decide)).symm
  | ⟨4, _⟩ => (Vx_out0 m c).symm
  | ⟨5, _⟩ => (Vx_out1 m c).symm

/-! ## Dealing and joining the shares -/

theorem hsplit (c : Dev nD) :
    (Pipeline.arrBufs (Ix := Unit) (Name := ℕ) (U := UR sig nD τ) (Lvl := ℕ) spec0 c (fun b => V0 m c (Proc.devRef .tc b)) : sProp 𝕄)
      ⊢ (dats m 0 c).arrays ((dats m 0 c).arrAt · 0) := by
  rw [arrBufs_eq, arrays_chain]
  iintro ⟨H5, H6, H7, H8, H9⟩
  ihave H5 := (pointsTo_share (PosShare.mem_left_op_right fullShare)).1 $$ H5
  icases H5 with ⟨H5l, H5r⟩
  isplitl [H5l]; · iexact H5l
  isplitl [H5r]; · iexact H5r
  isplitl [H6]; · iexact H6
  isplitl [H7]; · iexact H7
  isplitl [H8]; · iexact H8
  iexact H9

theorem hjoin (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => Vx m c (Proc.devRef .tc b)) := by
  rw [arrBufs_eq, arrays_chain, arrAtN_eq m c 0, arrAtN_eq m c 1, arrAtN_eq m c 2, arrAtN_eq m c 3, arrAtN_eq m c 4, arrAtN_eq m c 5]
  iintro ⟨H5l, H5r, H6, H7, H8, H9⟩
  isplitl [H5l H5r]
  · iapply (pointsTo_share (PosShare.mem_left_op_right fullShare)).2
    isplitl [H5l]; · iexact H5l
    iexact H5r
  isplitl [H6]; · iexact H6
  isplitl [H7]; · iexact H7
  isplitl [H8]; · iexact H8
  iexact H9

theorem hsplitN (c : Dev nD) :
    (Pipeline.arrBufs (Ix := Unit) (Name := ℕ) (U := UR sig nD τ) (Lvl := ℕ) spec0 c (fun b => Vx m c (Proc.devRef .tc b)) : sProp 𝕄)
      ⊢ (dats m 0 c).arrays ((dats m 0 c).arrAt · cfg0.N) := by
  rw [arrBufs_eq, arrays_chain, arrAtN_eq m c 0, arrAtN_eq m c 1, arrAtN_eq m c 2, arrAtN_eq m c 3, arrAtN_eq m c 4, arrAtN_eq m c 5]
  iintro ⟨H5, H6, H7, H8, H9⟩
  ihave H5 := (pointsTo_share (PosShare.mem_left_op_right fullShare)).1 $$ H5
  icases H5 with ⟨H5l, H5r⟩
  isplitl [H5l]; · iexact H5l
  isplitl [H5r]; · iexact H5r
  isplitl [H6]; · iexact H6
  isplitl [H7]; · iexact H7
  isplitl [H8]; · iexact H8
  iexact H9

/-- A buffer that is no window's array leaves the region as it entered it. -/
theorem hVx (c : Dev nD) : ∀ b ∈ Pipeline.restRefs sig spec0, Vx m c (Proc.devRef .tc b) = V0 m c (Proc.devRef .tc b) := fun b hb => by
  have hn : ∀ w, Pipeline.arrRef spec0 w ≠ b := fun w e =>
    (Finset.mem_sdiff.mp hb).2 (Finset.mem_image.mpr ⟨w, Finset.mem_univ _, e⟩)
  exact Vx_other m c b (fun e => hn 4 e.symm) (fun e => hn 5 e.symm)

/-! ## The host operations after the region -/

theorem tail_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- They write no array of the pipeline: each writes only its own result buffer. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals intro w; fin_cases w <;> simp only [StableHlo.nullary_writes, StableHlo.unary_writes, StableHlo.binary_writes, Finset.mem_singleton] <;> exact StableHlo.devRef_ne_of_ne (by decide)

/-! ## The run -/

/-- What a core's buffers hold when the program ends: the host operations after the region, from the exit contents. -/
abbrev Vend (c : Dev nD) (b : Ref sig .tc) : Buf (Elt F) ((c : Thread nD τ).loc b) :=
  StableHlo.after (List.flatten [hostOps1]) (Vx m c) (Proc.devRef .tc b)

set_option backward.isDefEq.respectTransparency.types false in
/-- Every weakly fair execution of the program terminates, with every array of the region at what the proof data
    compute for it after the last point and every other unscoped buffer at `Vend`. -/
theorem run_main : θ_run defs (onTc (τ := τ) (main (F := F))) (s₀ m ρ) (Pipeline.FramePost cfgs (dats m) 0 (Vend m)) :=
  Cert.SharedFrame.θ_run_frame_shared_around cfgs (dats m) (0 : Fin 1) cellOf_inj winFacts₀0 defs₀ Variants.none m ρ main
    (hbody := fun c => (body_obligation m c).loose) (hne := block_pos0) (harr := arr_whole0) (hstage := stage_whole0)
    (howed := fun _ _ => rfl) (hunscoped := by decide) (V₀ := V0 m) (Vx := Vx m) (opss := [hostOps1])
    (hsub := tail_sub) (hfresh := tail_fresh) (hkeep := tail_keeps) (hmain := hmain m Variants.none)
    (hsplit := hsplit m) (hjoin := hjoin m) (hsplitN := hsplitN m) (hVx := hVx m)
    (hin := fun c => .rfl) (hout := fun c => .rfl)

end Cert.Kernel.Region

end
-- ==== Proof.BKept.lean ====
/-
  The argument arrays of the kernel's program end as they were launched: no host operation before or after
  the region writes them and the region stages neither, so the run's post gives the frame claim.
-/
import proofs.«127660_j48911087567313_2_alg».proof.Proof.BRun

set_option maxRecDepth 16384

noncomputable section

namespace Cert.Kernel.Region

open Cert.Kernel Cert.Kernel.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- A buffer no host operation before the region writes is found by the region as it was launched. -/
theorem V_of_not_written (c : Dev nD) (b : Ref sig .tc)
    (h : ∀ op ∈ List.flatten [(hostOps0 : List (HloOp τ sig (Elt F))), hostOps0_1], Proc.devRef .tc b ∉ op.writes) :
    V m c b = m ((c : Thread nD τ).loc b) :=
  StableHlo.after_of_forall_not_mem (b := Proc.devRef .tc b) _ _ h

theorem prefix_keeps (b : Ref sig .tc) (h0 : b ≠ main_call0_v0) (h1 : b ≠ main_call0_cst) (h2 : b ≠ main_call0_v1) (h3 : b ≠ main_call0_v2)
    (h4 : b ≠ main_v0) (h5 : b ≠ main_cst) (h6 : b ≠ main_v1) (h7 : b ≠ main_v2) (h8 : b ≠ main_v3) (h9 : b ≠ main_v4)
    (h10 : b ≠ main_v5) (h11 : b ≠ main_v6) (h12 : b ≠ main_v7) :
    ∀ op ∈ List.flatten [(hostOps0 : List (HloOp τ sig (Elt F))), hostOps0_1], Proc.devRef .tc b ∉ op.writes :=
  List.forall_iff_forall_mem.mp (by
    simp only [hostOps0, hostOps0_1, List.flatten_cons, List.flatten_nil, List.append_nil, List.cons_append,
      List.nil_append, List.Forall, StableHlo.nullary_writes, StableHlo.unary_writes, StableHlo.binary_writes,
      StableHlo.reshape_writes, Finset.mem_singleton]
    repeat' apply And.intro
    all_goals exact StableHlo.devRef_ne_of_ne (by assumption))

theorem tail_keeps_ref (b : Ref sig .tc) (h0 : b ≠ main_cst_0) (h1 : b ≠ main_v9) (h2 : b ≠ main_cst_1) (h3 : b ≠ main_v10) (h4 : b ≠ main_v11) :
    ∀ op ∈ List.flatten [(hostOps1 : List (HloOp τ sig (Elt F)))], Proc.devRef .tc b ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes,
      StableHlo.reshape_writes, Finset.mem_singleton]
    repeat' apply And.intro
    all_goals exact StableHlo.devRef_ne_of_ne (by assumption))

theorem V_main_arg0 (c : Dev nD) : V m c main_arg0 = m ((c : Thread nD τ).loc main_arg0) :=
  V_of_not_written m c main_arg0 (prefix_keeps main_arg0 (by decide) (by decide) (by decide) (by decide) (by decide) (by decide)
    (by decide) (by decide) (by decide) (by decide) (by decide) (by decide) (by decide))
theorem V_main_arg1 (c : Dev nD) : V m c main_arg1 = m ((c : Thread nD τ).loc main_arg1) :=
  V_of_not_written m c main_arg1 (prefix_keeps main_arg1 (by decide) (by decide) (by decide) (by decide) (by decide) (by decide)
    (by decide) (by decide) (by decide) (by decide) (by decide) (by decide) (by decide))

theorem Vend_main_arg0 (c : Dev nD) : Vend m c main_arg0 = m ((c : Thread nD τ).loc main_arg0) := by
  unfold Vend
  rw [StableHlo.after_of_forall_not_mem (b := Proc.devRef .tc main_arg0) _ _
      (tail_keeps_ref main_arg0 (by decide) (by decide) (by decide) (by decide) (by decide)),
    Vx_other m c main_arg0 (by decide) (by decide)]
  exact V_main_arg0 m c
theorem Vend_main_arg1 (c : Dev nD) : Vend m c main_arg1 = m ((c : Thread nD τ).loc main_arg1) := by
  unfold Vend
  rw [StableHlo.after_of_forall_not_mem (b := Proc.devRef .tc main_arg1) _ _
      (tail_keeps_ref main_arg1 (by decide) (by decide) (by decide) (by decide) (by decide)),
    Vx_other m c main_arg1 (by decide) (by decide)]
  exact V_main_arg1 m c

/-- What the run's post says of a buffer that is no window's array. -/
theorem post_rest (r : PUnit × MemSt nD τ sig (Elt F)) (h : Pipeline.FramePost cfgs (dats m) 0 (Vend m) r) (c : Dev nD) (b : Ref sig .tc)
    (hs : b.isScoped = false) (ha : ∀ w, (spec0 w).arr.view.ref ≠ b) : r.2.mem ((c : Thread nD τ).loc b) = Vend m c b :=
  (h c).2 b (Pipeline.mem_restRefs_of b hs ha)

/-- THE FRAME: every weakly fair execution terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(post_rest m r h c main_arg0 (by decide) (by decide)).trans (Vend_main_arg0 m c),
     (post_rest m r h c main_arg1 (by decide) (by decide)).trans (Vend_main_arg1 m c)⟩) (run_main m ρ)

end Cert.Kernel.Region

end
-- ==== Proof.KRegion.lean ====
/-
  The idealized kernel's one region: what the region finds in its arrays, what each of its 32 grid points
  leaves in the two output blocks, and the obligation of the body at every point.

  The kernel reads the normalised table twice — a block of 128 rows at point `t` (window 0) and the whole table at every
  point (window 1) — so two windows stand on ONE array; the label column (window 2, 128 rows at a time) and the label
  row (window 3, whole) stand on two reshapes of the label vector.  The body loads the four input blocks, computes the
  128 row sums of the loss and the 128 row counts of its nonzero entries as pure functions of those blocks, and stores
  each over the whole of its output block (windows 4 and 5).  It keeps nothing between points, so what a point leaves
  in an output block is a function of that point's input blocks alone.
-/
import proofs.«127660_j48911087567313_2_alg».proof.Proof.Gen.KernelIdeal.Launch
import proofs.«127660_j48911087567313_2_alg».proof.Proof.Gen.KernelIdeal.Skeleton
import proofs.«127660_j48911087567313_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- A core's buffer contents when the region is entered: after the host operations that come before it (the row
    norms, the division, the two reshapes of the labels). -/
abbrev V0 (c : Dev nD) : Valuation τ sig (Elt F) := StableHlo.after (List.flatten [hostOps0, hostOps0_1]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (a window that is not
    fetched at a point has not moved since the point before): one statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rRows : Rect S128x256 := Rect.unit (s := S128x256) ![0, 0] S128x256.size inb_S128x256_S128x256_0_0
abbrev rTab : Rect S4096x256 := Rect.unit (s := S4096x256) ![0, 0] S4096x256.size inb_S4096x256_S4096x256_0_0
abbrev rCol : Rect S128x1 := Rect.unit (s := S128x1) ![0, 0] S128x1.size inb_S128x1_S128x1_0_0
abbrev rRow : Rect S1x4096 := Rect.unit (s := S1x4096) ![0, 0] S1x4096.size inb_S1x4096_S1x4096_0_0

/-! ## What the body leaves in each output block -/

/-- The row sums' block after the body, from the four input blocks: one store over the whole block. -/
def outSum (i : grid0.Coords) (x0 : Vec F S128x256 .bf16) (x1 : Vec F S4096x256 .bf16) (x2 : Vec F S128x1 .i32) (x3 : Vec F S1x4096 .i32) : Vec F S128x1 .f32 :=
  View.canon [⟨rCol, k0_pay3 i (View.ld x0 rRows) (View.ld x1 rTab) (View.ld x2 rCol) (View.ld x3 rRow)⟩]

/-- The row counts' block after the body. -/
def outCnt (i : grid0.Coords) (x0 : Vec F S128x256 .bf16) (x1 : Vec F S4096x256 .bf16) (x2 : Vec F S128x1 .i32) (x3 : Vec F S1x4096 .i32) : Vec F S128x1 .f32 :=
  View.canon [⟨rCol, k0_pay1 (k0_pay2 i (View.ld x0 rRows) (View.ld x1 rTab) (View.ld x2 rCol) (View.ld x3 rRow))⟩]

/-- The one store covers the block. -/
theorem cover_col (p0 : Vec F S128x1 .f32) (y : S128x1.Idx) :
    ∃ pc ∈ ([⟨rCol, p0⟩] : List (View.Piece (Elt F) S128x1 .f32)), y ∈ pc.1.set :=
  View.cover_of_tiled [⟨rCol, p0⟩] S128x1.size (by rfl) y

/-! ## The body's triple -/

set_option maxHeartbeats 4000000 in
/-- The body on whole staging buffers, the inputs' at read contents and the outputs' at anything, runs to its end
    holding the inputs' as they were and the outputs' at `outSum` and `outCnt` of the inputs'. -/
theorem sound_kernel (c : Dev nD) (E : Set ℕ) (i : grid0.Coords)
    (arg1 : Memref sig .tc .vmem S128x256 .bf16) (harg1 : arg1.IsWhole) (arg2 : Memref sig .tc .vmem S4096x256 .bf16) (harg2 : arg2.IsWhole)
    (arg3 : Memref sig .tc .vmem S128x1 .i32) (harg3 : arg3.IsWhole) (arg4 : Memref sig .tc .vmem S1x4096 .i32) (harg4 : arg4.IsWhole)
    (arg5 : Memref sig .tc .vmem S128x1 .f32) (harg5 : arg5.IsWhole) (arg6 : Memref sig .tc .vmem S128x1 .f32) (harg6 : arg6.IsWhole)
    (x0 : Vec F S128x256 .bf16) (x1 : Vec F S4096x256 .bf16) (x2 : Vec F S128x1 .i32) (x3 : Vec F S1x4096 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outSum i x0 x1 x2 x3) ∗ owns (c : Thread nD τ) arg6 fullShare (outCnt i x0 x1 x2 x3)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_col _)
  iexists _; isplitr
  swap; · iexact H5
  ipureintro
  exact View.read_writes_eq_canon _ _ _ (cover_col _)

end Cert.KernelIdeal.Region

end
-- ==== Proof.KFrame.lean ====
/-
  The idealized kernel's frame run: the proof data of its one region, the obligation of the body at every grid point,
  how the one array that two windows read is dealt between them when the region is entered and joined again when it
  is left, and the run of the whole program — the host operations, the region, the host operations after it.
-/
import proofs.«127660_j48911087567313_2_alg».proof.Proof.KRegion
import proofs.«127660_j48911087567313_2_alg».proof.Proof.LibSharedAround

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the region on core `c`: the arrays as the region finds them; after the body at point `t` each
    input's buffer at its block and each output's at the body's result on the input blocks; the invariant is the scoped
    buffers the region does not stage (there are none); nothing owed; the table's array is held half by the window of
    row blocks and half by the window of the whole table, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outSum (grid0.coords t) (iblk m c 0 t) (iblk m c 1 t) (iblk m c 2 t) (iblk m c 3 t)
    | ⟨5, _⟩ => outCnt (grid0.coords t) (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = outSum (grid0.coords t) (iblk m c 0 t) (iblk m c 1 t) (iblk m c 2 t) (iblk m c 3 t) := by dsimp only [dats]
theorem after0_5 (c : Dev nD) (t : Fin cfg0.N) : (dats m 0 c).after 5 t
    = outCnt (grid0.coords t) (iblk m c 0 t) (iblk m c 1 t) (iblk m c 2 t) (iblk m c 3 t) := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d
theorem before0_3 (c : Dev nD) (t : Fin cfg0.N) (d) : (dats m 0 c).before 3 t d = iblk m c 3 t :=
  before3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

end Cert.KernelIdeal.Region

end
-- ==== Proof.KRun.lean ====
/-
  The run of the idealized kernel's whole program.

  The table's array is read through two windows.  When the region is entered its buffer, held once at the full share, is
  dealt into a left half for the window of row blocks and a right half for the window of the whole table; when the
  region is left the two halves are joined again.  The label column, the label row and the two result arrays each stand
  behind one window and are held whole throughout.  The host operations after the region read the two result arrays and
  write five buffers of their own.
-/
import proofs.«127660_j48911087567313_2_alg».proof.Proof.KFrame

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers behind the arrays, and the arrays window by window -/

/-- The five distinct buffers behind the six windows' arrays, each whole at the full share. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v5) ↦{fullShare} W main_v5) ∗ (((c : Thread nD τ).loc main_v6) ↦{fullShare} W main_v6)
          ∗ (((c : Thread nD τ).loc main_v7) ↦{fullShare} W main_v7) ∗ (((c : Thread nD τ).loc main_v8_0) ↦{fullShare} W main_v8_0)
          ∗ (((c : Thread nD τ).loc main_v8_1) ↦{fullShare} W main_v8_1)) := by
  unfold Pipeline.arrBufs
  exact bigSep_eq_bigSepL_of_eq [main_v5, main_v6, main_v7, main_v8_0, main_v8_1] (by decide) (by decide) _

/-- The windows' arrays at contents `Fv`, one by one, each at its share. -/
theorem arrays_chain (c : Dev nD) (Fv : (w : Fin cfg0.W) → Buf (Elt F) ((cfg0.win w).arr.view.loc (c.tc : Thread nD τ))) :
    ((dats m 0 c).arrays Fv : sProp 𝕄)
      = iprop((((c : Thread nD τ).loc main_v5) ↦{fullShare.left} Fv 0) ∗ (((c : Thread nD τ).loc main_v5) ↦{fullShare.right} Fv 1)
          ∗ (((c : Thread nD τ).loc main_v6) ↦{fullShare} Fv 2) ∗ (((c : Thread nD τ).loc main_v7) ↦{fullShare} Fv 3)
          ∗ (((c : Thread nD τ).loc main_v8_0) ↦{fullShare} Fv 4) ∗ (((c : Thread nD τ).loc main_v8_1) ↦{fullShare} Fv 5)) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ]
  rfl

/-! ## The contents when the region is left -/

/-- A core's buffer contents when the region is left: the two result arrays at what the write-backs of all the points
    left in them, every other buffer as the region found it. -/
def Vx (c : Dev nD) : Valuation τ sig (Elt F) :=
  Function.update (Function.update (V0 m c) (Proc.devRef .tc main_v8_0) ((dats m 0 c).arrAt 4 cfg0.N))
    (Proc.devRef .tc main_v8_1) ((dats m 0 c).arrAt 5 cfg0.N)

theorem Vx_out0 (c : Dev nD) : Vx m c (Proc.devRef .tc main_v8_0) = (dats m 0 c).arrAt 4 cfg0.N := by
  unfold Vx
  rw [Function.update_of_ne (StableHlo.devRef_ne_of_ne (by decide)), Function.update_self]
theorem Vx_out1 (c : Dev nD) : Vx m c (Proc.devRef .tc main_v8_1) = (dats m 0 c).arrAt 5 cfg0.N := by
  unfold Vx
  rw [Function.update_self]
theorem Vx_other (c : Dev nD) (b : Ref sig .tc) (h0 : b ≠ main_v8_0) (h1 : b ≠ main_v8_1) :
    Vx m c (Proc.devRef .tc b) = V0 m c (Proc.devRef .tc b) := by
  unfold Vx
  rw [Function.update_of_ne (StableHlo.devRef_ne_of_ne h1), Function.update_of_ne (StableHlo.devRef_ne_of_ne h0)]

/-- Every array after the last point is the exit contents of the buffer behind it: an input array is never written. -/
theorem arrAtN_eq (c : Dev nD) : ∀ w : Fin cfg0.W, (dats m 0 c).arrAt w cfg0.N = Vx m c (Proc.devRef .tc (Pipeline.arrRef spec0 w))
  | ⟨0, _⟩ => ((dats m 0 c).arrAt_in 0 rfl cfg0.N).trans (Vx_other m c main_v5 (by decide) (by decide)).symm
  | ⟨1, _⟩ => ((dats m 0 c).arrAt_in 1 rfl cfg0.N).trans (Vx_other m c main_v5 (by decide) (by decide)).symm
  | ⟨2, _⟩ => ((dats m 0 c).arrAt_in 2 rfl cfg0.N).trans (Vx_other m c main_v6 (by decide) (by decide)).symm
  | ⟨3, _⟩ => ((dats m 0 c).arrAt_in 3 rfl cfg0.N).trans (Vx_other m c main_v7 (by decide) (by decide)).symm
  | ⟨4, _⟩ => (Vx_out0 m c).symm
  | ⟨5, _⟩ => (Vx_out1 m c).symm

/-! ## Dealing and joining the shares -/

theorem hsplit (c : Dev nD) :
    (Pipeline.arrBufs (Ix := Unit) (Name := ℕ) (U := UR sig nD τ) (Lvl := ℕ) spec0 c (fun b => V0 m c (Proc.devRef .tc b)) : sProp 𝕄)
      ⊢ (dats m 0 c).arrays ((dats m 0 c).arrAt · 0) := by
  rw [arrBufs_eq, arrays_chain]
  iintro ⟨H5, H6, H7, H8, H9⟩
  ihave H5 := (pointsTo_share (PosShare.mem_left_op_right fullShare)).1 $$ H5
  icases H5 with ⟨H5l, H5r⟩
  isplitl [H5l]; · iexact H5l
  isplitl [H5r]; · iexact H5r
  isplitl [H6]; · iexact H6
  isplitl [H7]; · iexact H7
  isplitl [H8]; · iexact H8
  iexact H9

theorem hjoin (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => Vx m c (Proc.devRef .tc b)) := by
  rw [arrBufs_eq, arrays_chain, arrAtN_eq m c 0, arrAtN_eq m c 1, arrAtN_eq m c 2, arrAtN_eq m c 3, arrAtN_eq m c 4, arrAtN_eq m c 5]
  iintro ⟨H5l, H5r, H6, H7, H8, H9⟩
  isplitl [H5l H5r]
  · iapply (pointsTo_share (PosShare.mem_left_op_right fullShare)).2
    isplitl [H5l]; · iexact H5l
    iexact H5r
  isplitl [H6]; · iexact H6
  isplitl [H7]; · iexact H7
  isplitl [H8]; · iexact H8
  iexact H9

theorem hsplitN (c : Dev nD) :
    (Pipeline.arrBufs (Ix := Unit) (Name := ℕ) (U := UR sig nD τ) (Lvl := ℕ) spec0 c (fun b => Vx m c (Proc.devRef .tc b)) : sProp 𝕄)
      ⊢ (dats m 0 c).arrays ((dats m 0 c).arrAt · cfg0.N) := by
  rw [arrBufs_eq, arrays_chain, arrAtN_eq m c 0, arrAtN_eq m c 1, arrAtN_eq m c 2, arrAtN_eq m c 3, arrAtN_eq m c 4, arrAtN_eq m c 5]
  iintro ⟨H5, H6, H7, H8, H9⟩
  ihave H5 := (pointsTo_share (PosShare.mem_left_op_right fullShare)).1 $$ H5
  icases H5 with ⟨H5l, H5r⟩
  isplitl [H5l]; · iexact H5l
  isplitl [H5r]; · iexact H5r
  isplitl [H6]; · iexact H6
  isplitl [H7]; · iexact H7
  isplitl [H8]; · iexact H8
  iexact H9

/-- A buffer that is no window's array leaves the region as it entered it. -/
theorem hVx (c : Dev nD) : ∀ b ∈ Pipeline.restRefs sig spec0, Vx m c (Proc.devRef .tc b) = V0 m c (Proc.devRef .tc b) := fun b hb => by
  have hn : ∀ w, Pipeline.arrRef spec0 w ≠ b := fun w e =>
    (Finset.mem_sdiff.mp hb).2 (Finset.mem_image.mpr ⟨w, Finset.mem_univ _, e⟩)
  exact Vx_other m c b (fun e => hn 4 e.symm) (fun e => hn 5 e.symm)

/-! ## The host operations after the region -/

theorem tail_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- They write no array of the pipeline: each writes only its own result buffer. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals intro w; fin_cases w <;> simp only [StableHlo.nullary_writes, StableHlo.unary_writes, StableHlo.binary_writes, Finset.mem_singleton] <;> exact StableHlo.devRef_ne_of_ne (by decide)

/-! ## The run -/

/-- What a core's buffers hold when the program ends: the host operations after the region, from the exit contents. -/
abbrev Vend (c : Dev nD) (b : Ref sig .tc) : Buf (Elt F) ((c : Thread nD τ).loc b) :=
  StableHlo.after (List.flatten [hostOps1]) (Vx m c) (Proc.devRef .tc b)

set_option backward.isDefEq.respectTransparency.types false in
/-- Every weakly fair execution of the program terminates, with every array of the region at what the proof data
    compute for it after the last point and every other unscoped buffer at `Vend`. -/
theorem run_main : θ_run defs (onTc (τ := τ) (main (F := F))) (s₀ m ρ) (Pipeline.FramePost cfgs (dats m) 0 (Vend m)) :=
  Cert.SharedFrame.θ_run_frame_shared_around cfgs (dats m) (0 : Fin 1) cellOf_inj winFacts₀0 defs₀ Variants.none m ρ main
    (hbody := fun c => (body_obligation m c).loose) (hne := block_pos0) (harr := arr_whole0) (hstage := stage_whole0)
    (howed := fun _ _ => rfl) (hunscoped := by decide) (V₀ := V0 m) (Vx := Vx m) (opss := [hostOps1])
    (hsub := tail_sub) (hfresh := tail_fresh) (hkeep := tail_keeps) (hmain := hmain m Variants.none)
    (hsplit := hsplit m) (hjoin := hjoin m) (hsplitN := hsplitN m) (hVx := hVx m)
    (hin := fun c => .rfl) (hout := fun c => .rfl)

end Cert.KernelIdeal.Region

end
-- ==== Proof.LibColumnOfVector.lean ====
/-
  A vector laid out as one column.

  An array of shape `[a]` reshaped to `[a, 1]` keeps its entries in order: the entry at `(p, z)` (the unit coordinate
  `z` is `0`) is the vector's entry at `p`.
-/
import Idealize.ShloMosaic.Lib.Pipeline.Value
import Idealize.ShloMosaic.Lib.ValueIdx
import Idealize.ShloMosaic.Lib.ValueLayout

noncomputable section

namespace Idealize.ShloMosaic.ColumnOfVector

open Idealize.ShloMosaic Idealize.ShloMosaic.ValueIdx

/-- An `[a]` array cast to `[a, 1]` reads, at `(p, z)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Idealize.ShloMosaic.ColumnOfVector

end
-- ==== Proof.KEntry.lean ====
/-
  What the region of the idealized kernel finds in its three input arrays, as functions of the program's arguments:
  the table array holds the host's row normalisation of the embeddings (each row divided by the larger of its norm and
  the floor, narrowed to a shorter float format, which at the extended reals changes nothing), and the label column
  and the label row are the two reshapes of the label vector.
-/
import proofs.«127660_j48911087567313_2_alg».proof.Proof.KRun
import proofs.«127660_j48911087567313_2_alg».proof.Proof.LibColumnOfVector
import Idealize.ShloMosaic.Lib.StableHlo.Run
import Idealize.ShloMosaic.Lib.ValueLayout
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ)

/-- The host's row normalisation of an embedding table, as the program's operations spell it. -/
def hostNormed (x : FVec Ideal S4096x256 .f32) : FVec Ideal S4096x256 .f32 :=
  Host.divf x (broadcastInDim S4096x256 ![0, 1] bcast_S4096x1_S4096x256_0_1
    (maximumf (Host.sqrt (broadcastInDim S4096x1 ![0] bcast_S4096_S4096x1_0
        (Host.reduceAdd (mulf x x) (constant S_ .f32 0x00000000#32) reducesTo_S4096x256_S4096_d1 h_S_)))
      (broadcastInDim S4096x1 ![] bcast_S_S4096x1 (constant S_ .f32 0x2B8CBCCC#32))))

/-- The table array, as the region finds it: the normalised table narrowed. -/
theorem entry_table (c : Dev nD) :
    (V m c main_v5 : S4096x256.Idx → EReal) = truncf .bf16 (hostNormed (m ((c : Thread nD τ).loc main_arg0))) bitsLt_bf16_f32 := by
  dsimp only [V, V0]
  simp only [hostOps0, hostOps0_1, List.flatten_cons, List.flatten_nil, List.append_nil, List.cons_append, List.nil_append]
  after_results
  rfl

/-- The label column, as the region finds it. -/
theorem entry_col (c : Dev nD) :
    (V m c main_v6 : S4096x1.Idx → BitVec 32) = shapeCast S4096x1 (m ((c : Thread nD τ).loc main_arg1)) shapeCasts_S4096_S4096x1 := by
  dsimp only [V, V0]
  simp only [hostOps0, hostOps0_1, List.flatten_cons, List.flatten_nil, List.append_nil, List.cons_append, List.nil_append]
  after_results
  rfl

/-- The label row, as the region finds it. -/
theorem entry_row (c : Dev nD) :
    (V m c main_v7 : S1x4096.Idx → BitVec 32) = shapeCast S1x4096 (m ((c : Thread nD τ).loc main_arg1)) shapeCasts_S4096_S1x4096 := by
  dsimp only [V, V0]
  simp only [hostOps0, hostOps0_1, List.flatten_cons, List.flatten_nil, List.append_nil, List.cons_append, List.nil_append]
  after_results
  rfl

/-- Row `r` of the label column is label `r`. -/
theorem entry_col_apply (c : Dev nD) (r : Fin 4096) (z : Fin 1) :
    (V m c main_v6 : S4096x1.Idx → BitVec 32) (ix2 r z) = m ((c : Thread nD τ).loc main_arg1) (ix1 r) := by
  rw [entry_col]
  exact ColumnOfVector.shapeCast_a_a1_apply _ _ r z

/-- Column `j` of the label row is label `j`. -/
theorem entry_row_apply (c : Dev nD) (u : Fin 1) (j : Fin 4096) :
    (V m c main_v7 : S1x4096.Idx → BitVec 32) (ix2 u j) = m ((c : Thread nD τ).loc main_arg1) (ix1 j) := by
  rw [entry_row]
  exact shapeCast_a_1a_apply _ _ u j

end Cert.KernelIdeal.Region

end
-- ==== Proof.KKept.lean ====
/-
  The argument arrays of the idealized kernel's program end as they were launched: no host operation before or after
  the region writes them and the region stages neither, so the run's post gives the frame claim.
-/
import proofs.«127660_j48911087567313_2_alg».proof.Proof.KRun

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- A buffer no host operation before the region writes is found by the region as it was launched. -/
theorem V_of_not_written (c : Dev nD) (b : Ref sig .tc)
    (h : ∀ op ∈ List.flatten [(hostOps0 : List (HloOp τ sig (Elt F))), hostOps0_1], Proc.devRef .tc b ∉ op.writes) :
    V m c b = m ((c : Thread nD τ).loc b) :=
  StableHlo.after_of_forall_not_mem (b := Proc.devRef .tc b) _ _ h

theorem prefix_keeps (b : Ref sig .tc) (h0 : b ≠ main_call0_v0) (h1 : b ≠ main_call0_cst) (h2 : b ≠ main_call0_v1) (h3 : b ≠ main_call0_v2)
    (h4 : b ≠ main_v0) (h5 : b ≠ main_cst) (h6 : b ≠ main_v1) (h7 : b ≠ main_v2) (h8 : b ≠ main_v3) (h9 : b ≠ main_v4)
    (h10 : b ≠ main_v5) (h11 : b ≠ main_v6) (h12 : b ≠ main_v7) :
    ∀ op ∈ List.flatten [(hostOps0 : List (HloOp τ sig (Elt F))), hostOps0_1], Proc.devRef .tc b ∉ op.writes :=
  List.forall_iff_forall_mem.mp (by
    simp only [hostOps0, hostOps0_1, List.flatten_cons, List.flatten_nil, List.append_nil, List.cons_append,
      List.nil_append, List.Forall, StableHlo.nullary_writes, StableHlo.unary_writes, StableHlo.binary_writes,
      StableHlo.reshape_writes, Finset.mem_singleton]
    repeat' apply And.intro
    all_goals exact StableHlo.devRef_ne_of_ne (by assumption))

theorem tail_keeps_ref (b : Ref sig .tc) (h0 : b ≠ main_cst_0) (h1 : b ≠ main_v9) (h2 : b ≠ main_cst_1) (h3 : b ≠ main_v10) (h4 : b ≠ main_v11) :
    ∀ op ∈ List.flatten [(hostOps1 : List (HloOp τ sig (Elt F)))], Proc.devRef .tc b ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes,
      StableHlo.reshape_writes, Finset.mem_singleton]
    repeat' apply And.intro
    all_goals exact StableHlo.devRef_ne_of_ne (by assumption))

theorem V_main_arg0 (c : Dev nD) : V m c main_arg0 = m ((c : Thread nD τ).loc main_arg0) :=
  V_of_not_written m c main_arg0 (prefix_keeps main_arg0 (by decide) (by decide) (by decide) (by decide) (by decide) (by decide)
    (by decide) (by decide) (by decide) (by decide) (by decide) (by decide) (by decide))
theorem V_main_arg1 (c : Dev nD) : V m c main_arg1 = m ((c : Thread nD τ).loc main_arg1) :=
  V_of_not_written m c main_arg1 (prefix_keeps main_arg1 (by decide) (by decide) (by decide) (by decide) (by decide) (by decide)
    (by decide) (by decide) (by decide) (by decide) (by decide) (by decide) (by decide))

theorem Vend_main_arg0 (c : Dev nD) : Vend m c main_arg0 = m ((c : Thread nD τ).loc main_arg0) := by
  unfold Vend
  rw [StableHlo.after_of_forall_not_mem (b := Proc.devRef .tc main_arg0) _ _
      (tail_keeps_ref main_arg0 (by decide) (by decide) (by decide) (by decide) (by decide)),
    Vx_other m c main_arg0 (by decide) (by decide)]
  exact V_main_arg0 m c
theorem Vend_main_arg1 (c : Dev nD) : Vend m c main_arg1 = m ((c : Thread nD τ).loc main_arg1) := by
  unfold Vend
  rw [StableHlo.after_of_forall_not_mem (b := Proc.devRef .tc main_arg1) _ _
      (tail_keeps_ref main_arg1 (by decide) (by decide) (by decide) (by decide) (by decide)),
    Vx_other m c main_arg1 (by decide) (by decide)]
  exact V_main_arg1 m c

/-- What the run's post says of a buffer that is no window's array. -/
theorem post_rest (r : PUnit × MemSt nD τ sig (Elt F)) (h : Pipeline.FramePost cfgs (dats m) 0 (Vend m) r) (c : Dev nD) (b : Ref sig .tc)
    (hs : b.isScoped = false) (ha : ∀ w, (spec0 w).arr.view.ref ≠ b) : r.2.mem ((c : Thread nD τ).loc b) = Vend m c b :=
  (h c).2 b (Pipeline.mem_restRefs_of b hs ha)

/-- THE FRAME: every weakly fair execution terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(post_rest m r h c main_arg0 (by decide) (by decide)).trans (Vend_main_arg0 m c),
     (post_rest m r h c main_arg1 (by decide) (by decide)).trans (Vend_main_arg1 m c)⟩) (run_main m ρ)

end Cert.KernelIdeal.Region

end
-- ==== Proof.KBlocks.lean ====
/-
  The geometry of the idealized kernel's region: which rows of its arrays each grid point's blocks are, that the 32
  output blocks of 128 rows cover the 4096 rows of each result array, and what the host operations after the region
  compute from the two result arrays.

  Grid point `t` reads rows `128 t … 128 t + 127` of the table and of the label column, the whole table and the whole
  label row, and writes rows `128 t … 128 t + 127` of each result array.
-/
import proofs.«127660_j48911087567313_2_alg».proof.Proof.KEntry
import proofs.«127660_j48911087567313_2_alg».proof.Proof.KKept
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The printed index maps, decided over the grid: the row-block windows are at block `t`, the whole-array windows at
    block `0`, and the grid's one coordinate at point `t` is `t`. -/
theorem idx_facts : ∀ t : Fin cfg0.N,
    ((grid0.coords t) 0).val = t.val
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The global row of row `p` of grid point `t`'s blocks. -/
def rowAt (t : Fin cfg0.N) (p : Fin 128) : Fin 4096 := ⟨128 * t.val + p.val, by have := t.isLt; have := p.isLt; have h : cfg0.N = 32 := N_0; omega⟩

/-! ## The input blocks read at an index -/

theorem blk_rows_apply (c : Dev nD) (t : Fin cfg0.N) (p : Fin 128) (k : Fin 256) :
    (iblk m c 0 t : S128x256.Idx → EReal) (ix2 p k) = (V m c main_v5 : S4096x256.Idx → EReal) (ix2 (rowAt t p) k) := by
  show (V m c main_v5 : S4096x256.Idx → EReal) (((cfg0.win 0).blk t).view.emb (ix2 p k)) = _
  refine congrArg _ ?_
  obtain ⟨e, e00, e01, -⟩ := idx_facts t
  funext a; apply Fin.ext
  match a with
  | ⟨0, _⟩ => show win0_0.index t (0 : Fin 2) * 128 + 1 * p.val = 128 * t.val + p.val; omega
  | ⟨1, _⟩ => show win0_0.index t (1 : Fin 2) * 256 + 1 * k.val = k.val; omega

theorem blk_table_apply (c : Dev nD) (t : Fin cfg0.N) (j : Fin 4096) (k : Fin 256) :
    (iblk m c 1 t : S4096x256.Idx → EReal) (ix2 j k) = (V m c main_v5 : S4096x256.Idx → EReal) (ix2 j k) := by
  show (V m c main_v5 : S4096x256.Idx → EReal) (((cfg0.win 1).blk t).view.emb (ix2 j k)) = _
  refine congrArg _ ?_
  obtain ⟨e, e00, e01, e10, e11, -⟩ := idx_facts t
  funext a; apply Fin.ext
  match a with
  | ⟨0, _⟩ => show win0_1.index t (0 : Fin 2) * 4096 + 1 * j.val = j.val; omega
  | ⟨1, _⟩ => show win0_1.index t (1 : Fin 2) * 256 + 1 * k.val = k.val; omega

theorem blk_col_apply (c : Dev nD) (t : Fin cfg0.N) (p : Fin 128) (z : Fin 1) :
    (iblk m c 2 t : S128x1.Idx → BitVec 32) (ix2 p z) = (V m c main_v6 : S4096x1.Idx → BitVec 32) (ix2 (rowAt t p) z) := by
  show (V m c main_v6 : S4096x1.Idx → BitVec 32) (((cfg0.win 2).blk t).view.emb (ix2 p z)) = _
  refine congrArg _ ?_
  obtain ⟨e, e00, e01, e10, e11, e20, e21, -⟩ := idx_facts t
  funext a; apply Fin.ext
  match a with
  | ⟨0, _⟩ => show win0_2.index t (0 : Fin 2) * 128 + 1 * p.val = 128 * t.val + p.val; omega
  | ⟨1, _⟩ => show win0_2.index t (1 : Fin 2) * 1 + 1 * z.val = z.val; omega

theorem blk_row_apply (c : Dev nD) (t : Fin cfg0.N) (u : Fin 1) (j : Fin 4096) :
    (iblk m c 3 t : S1x4096.Idx → BitVec 32) (ix2 u j) = (V m c main_v7 : S1x4096.Idx → BitVec 32) (ix2 u j) := by
  show (V m c main_v7 : S1x4096.Idx → BitVec 32) (((cfg0.win 3).blk t).view.emb (ix2 u j)) = _
  refine congrArg _ ?_
  obtain ⟨e, e00, e01, e10, e11, e20, e21, e30, e31, -⟩ := idx_facts t
  funext a; apply Fin.ext
  match a with
  | ⟨0, _⟩ => show win0_3.index t (0 : Fin 2) * 1 + 1 * u.val = u.val; omega
  | ⟨1, _⟩ => show win0_3.index t (1 : Fin 2) * 4096 + 1 * j.val = j.val; omega

/-! ## The output blocks cover the result arrays -/

theorem mem_blk_sum (t : Fin cfg0.N) (i : S4096x1.Idx) :
    i ∈ ((cfg0.win 4).blk t).view.set ↔ ∀ a : Fin 2, win0_4.index t a * S128x1.size a ≤ (i a).val ∧ (i a).val < win0_4.index t a * S128x1.size a + S128x1.size a := by
  show i ∈ ((View.whole main_v8_0).slice (win0_4.rect t)).set ↔ _
  rw [View.set_slice_whole, Rect.mem_set_unit]
  exact Iff.rfl

theorem mem_blk_cnt (t : Fin cfg0.N) (i : S4096x1.Idx) :
    i ∈ ((cfg0.win 5).blk t).view.set ↔ ∀ a : Fin 2, win0_5.index t a * S128x1.size a ≤ (i a).val ∧ (i a).val < win0_5.index t a * S128x1.size a + S128x1.size a := by
  show i ∈ ((View.whole main_v8_1).slice (win0_5.rect t)).set ↔ _
  rw [View.set_slice_whole, Rect.mem_set_unit]
  exact Iff.rfl

/-- The point whose blocks hold row `r`. -/
def pointOf (i : S4096x1.Idx) : Fin cfg0.N := ⟨(i 0).val / 128, by have := (i 0).isLt; have h : cfg0.N = 32 := N_0; rw [h]; show (i 0).val / 128 < 32; have h2 : (i 0).val < 4096 := (i 0).isLt; omega⟩

theorem cover_sum (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  obtain ⟨e, -, -, -, -, -, -, -, -, e40, e41, -⟩ := idx_facts (pointOf i)
  have ht : (pointOf i).val = (i 0).val / 128 := rfl
  refine ⟨pointOf i, flush0_4 _, ?_⟩
  rw [mem_blk_sum]
  intro a
  match a with
  | ⟨0, _⟩ => show win0_4.index (pointOf i) (0 : Fin 2) * 128 ≤ (i 0).val ∧ (i 0).val < win0_4.index (pointOf i) (0 : Fin 2) * 128 + 128; omega
  | ⟨1, _⟩ => show win0_4.index (pointOf i) (1 : Fin 2) * 1 ≤ (i 1).val ∧ (i 1).val < win0_4.index (pointOf i) (1 : Fin 2) * 1 + 1; omega

theorem cover_cnt (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  obtain ⟨e, -, -, -, -, -, -, -, -, -, -, e50, e51⟩ := idx_facts (pointOf i)
  have ht : (pointOf i).val = (i 0).val / 128 := rfl
  refine ⟨pointOf i, flush0_5 _, ?_⟩
  rw [mem_blk_cnt]
  intro a
  match a with
  | ⟨0, _⟩ => show win0_5.index (pointOf i) (0 : Fin 2) * 128 ≤ (i 0).val ∧ (i 0).val < win0_5.index (pointOf i) (0 : Fin 2) * 128 + 128; omega
  | ⟨1, _⟩ => show win0_5.index (pointOf i) (1 : Fin 2) * 1 ≤ (i 1).val ∧ (i 1).val < win0_5.index (pointOf i) (1 : Fin 2) * 1 + 1; omega

/-- The row of an index inside point `t`'s output block. -/
theorem emb_sum_row (t : Fin cfg0.N) (p : Fin 128) (z : Fin 1) : (((cfg0.win 4).blk t).view.emb (ix2 p z)) 0 = rowAt t p := by
  obtain ⟨e, -, -, -, -, -, -, -, -, e40, e41, -⟩ := idx_facts t
  apply Fin.ext
  show win0_4.index t (0 : Fin 2) * 128 + 1 * p.val = 128 * t.val + p.val
  omega
theorem emb_cnt_row (t : Fin cfg0.N) (p : Fin 128) (z : Fin 1) : (((cfg0.win 5).blk t).view.emb (ix2 p z)) 0 = rowAt t p := by
  obtain ⟨e, -, -, -, -, -, -, -, -, -, -, e50, e51⟩ := idx_facts t
  apply Fin.ext
  show win0_5.index t (0 : Fin 2) * 128 + 1 * p.val = 128 * t.val + p.val
  omega

/-! ## The host operations after the region -/

/-- The program's result: the total of the first result array over the total of the second. -/
theorem result_term (c : Dev nD) :
    (Vend m c main_v11 : S_.Idx → EReal)
      = (Host.divf (F := Ideal) (Host.reduceAdd (F := Ideal) ((dats m 0 c).arrAt 4 cfg0.N : FVec Ideal S4096x1 .f32) (constant (F := Ideal) S_ .f32 0x00000000#32) reducesTo_S4096x1_S_d0_1 h_S_)
          (Host.reduceAdd (F := Ideal) ((dats m 0 c).arrAt 5 cfg0.N : FVec Ideal S4096x1 .f32) (constant (F := Ideal) S_ .f32 0x00000000#32) reducesTo_S4096x1_S_d0_1 h_S_) : FVec Ideal S_ .f32) := by
  rw [← Vx_out0 m c, ← Vx_out1 m c]
  dsimp only [Vend]
  simp only [hostOps1, List.flatten_cons, List.flatten_nil, List.append_nil, List.cons_append, List.nil_append]
  after_results

end Cert.KernelIdeal.Region

end
-- ==== Proof.Spec.lean ====
/-
  The mathematics of the pairwise contrastive loss, entry by entry, over the extended reals.

  `X` is a table of 4096 rows of 256 numbers (the row-normalised embeddings) and `L` the 4096 integer labels.
  `sim X r j` is the inner product of rows `r` and `j`.  Two spellings of one loss are stated here:

  * the TILE spelling: the diagonal of `e^(2·sim)` is zeroed by a choice, the positive pairs (same label, off the
    diagonal) are chosen by a mask, the negatives' sum of a row is the whole row's sum minus the positives' sum, and the
    entry of a positive pair is `log (e + neg) - 2·sim`; every other entry is `0`.  A row's entries are summed, and its
    nonzero entries counted by a sum of ones; the loss is the total of the row sums over the total of the row counts.
  * the MATRIX spelling: the diagonal is zeroed by the product with `1 - eye`, the positives are the product with the
    0/1 label mask, the negatives' sum is the row sum of `e - pos`, and every entry is
    `-log ((1 - mask) + pos / (pos + neg) + eye)`; the loss is the sum of all entries over the number of nonzero ones.

  The two agree whenever the table holds real numbers and the labels are not all equal (each row then has a negative,
  so no quotient is `0 / 0`); that is proved elsewhere.  Nothing here mentions a program.
-/
import Idealize.ShloMosaic.PureOps.Ideal
import Idealize.ShloMosaic.Lib.ValueIdx

noncomputable section

open scoped BigOperators

namespace Cert.PairLoss

open Idealize.ShloMosaic Idealize.ShloMosaic.ValueIdx

/-- The shape of the table of rows and of the label vector. -/
abbrev STab : Shape := ⟨2, ![4096, 256]⟩
abbrev SLab : Shape := ⟨1, ![4096]⟩

variable (X : STab.Idx → EReal) (L : SLab.Idx → BitVec 32)

/-- The inner product of rows `r` and `j`. -/
def sim (r j : Fin 4096) : EReal := ∑ k : Fin 256, X (ix2 r k) * X (ix2 j k)

/-- `2` and `1/2` as extended reals (the temperature is `1/2`). -/
def two : EReal := ((2 : ℝ) : EReal)
def half : EReal := ((1 / 2 : ℝ) : EReal)

/-! ## The tile spelling -/

/-- `e^(2·sim)` with the diagonal zeroed by a choice. -/
def expT (r j : Fin 4096) : EReal := if r = j then 0 else Ideal.exp (sim X r j * two)

/-- A positive pair: same label, off the diagonal. -/
def IsPos (r j : Fin 4096) : Prop := L (ix1 r) = L (ix1 j) ∧ r ≠ j

instance (r j : Fin 4096) : Decidable (IsPos L r j) := by unfold IsPos; infer_instance

/-- The negatives' sum of row `r`: the row's sum minus the positives' sum. -/
def negT (r : Fin 4096) : EReal :=
  (∑ j : Fin 4096, expT X r j) - (∑ j : Fin 4096, if IsPos L r j then expT X r j else 0)

/-- The loss entry of the tile spelling. -/
def lossT (r j : Fin 4096) : EReal :=
  if IsPos L r j then Ideal.log (expT X r j + negT X L r) - sim X r j * two else 0

/-- A row's sum of entries, and its count of nonzero entries as a sum of ones. -/
def rowSum (r : Fin 4096) : EReal := ∑ j : Fin 4096, lossT X L r j
def rowCnt (r : Fin 4096) : EReal := ∑ j : Fin 4096, if lossT X L r j ≠ 0 then (1 : EReal) else 0

/-- The loss of the tile spelling. -/
def lossTile : EReal := Ideal.div (∑ r : Fin 4096, rowSum X L r) (∑ r : Fin 4096, rowCnt X L r)

/-! ## The matrix spelling -/

def eye (r j : Fin 4096) : EReal := if r = j then 1 else 0
def mask (r j : Fin 4096) : EReal := if L (ix1 r) = L (ix1 j) then 1 else 0

/-- `e^(sim / (1/2))` with the diagonal zeroed by a product. -/
def expM (r j : Fin 4096) : EReal := Ideal.exp (Ideal.div (sim X r j) half) * (1 - eye r j)
def posM (r j : Fin 4096) : EReal := mask L r j * expM X r j
def negM (r : Fin 4096) : EReal := ∑ j : Fin 4096, (expM X r j - posM X L r j)

/-- The loss entry of the matrix spelling. -/
def lossM (r j : Fin 4096) : EReal :=
  - Ideal.log (((1 - mask L r j) + Ideal.div (posM X L r j) (posM X L r j + negM X L r)) + eye r j)

/-- The number of nonzero entries, as a real number. -/
def cntM : EReal :=
  (((Finset.univ.filter fun p : Fin 4096 × Fin 4096 => lossM X L p.1 p.2 ≠ 0).card : ℝ) : EReal)

/-- The loss of the matrix spelling. -/
def lossMatrix : EReal := Ideal.div (∑ r : Fin 4096, ∑ j : Fin 4096, lossM X L r j) (cntM X L)

/-! ## The row normalisation both programs start with -/

/-- The floor under a row's norm: the f32 nearest `1e-12`, read exactly. -/
def eps : EReal := Ideal.ofBits .f32 0x2B8CBCCC#32

/-- The Euclidean norm of row `r` of a table `x`. -/
def rowNorm (x : STab.Idx → EReal) (r : Fin 4096) : EReal := Ideal.sqrt (∑ k : Fin 256, x (ix2 r k) * x (ix2 r k))

/-- Each row divided by the larger of its norm and the floor. -/
def normed (x : STab.Idx → EReal) : STab.Idx → EReal := fun i => Ideal.div (x i) (max (rowNorm x (i 0)) eps)

/-! ## The hypotheses under which the two agree -/

/-- Every entry of the table is a real number. -/
def RealTable : Prop := ∀ i, ∃ x : ℝ, X i = (x : EReal)
/-- The labels are not all equal: every row has a row of another label. -/
def NotAllEqual : Prop := ∀ r : Fin 4096, ∃ j : Fin 4096, L (ix1 j) ≠ L (ix1 r)

end Cert.PairLoss

end
-- ==== Proof.KPayload1.lean ====
/-
  The operations of the kernel body that are not pointwise, each read at an index of a rank-2 array: a column
  broadcast along the rows, a vector seen as a column, a row's sum, the product with the transposed table, the test
  "global row number = column number" on 32-bit words, and the bit of a positive pair.
-/
import proofs.«127660_j48911087567313_2_alg».proof.Proof.Gen.KernelIdeal.Skeleton
import proofs.«127660_j48911087567313_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Idealize.ShloMosaic Idealize.SL.Sem Idealize.ShloMosaic.ValueIdx

/-- The global row number of row `p` of the block at grid point `t`. -/
def gRow (t : Fin 32) (p : Fin 128) : Fin 4096 := ⟨128 * t.val + p.val, by omega⟩

/-! ## Layout -/

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` seen as an `[a, 1]` column reads, at `(p, 0)`, the vector at `p`. -/
theorem shapeCast_a_a1_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- The sum of a `[128, 4096]` array over its columns, read at row `p`. -/
theorem rowReduce_apply (src : FVec Ideal S128x4096 .f32) (h : S128x4096.Reduces [1] S128) (hφ : FKind.Formats .f32)
    (hacc : (0x00000000#32 : BitVec 32) = FKind.add.neutral .f32 hφ) (p : Fin 128) :
    multiReduction (F := Ideal) .add [1] S128 src 0x00000000#32 h hφ hacc (ix1 p) = ∑ j : Fin 4096, src (ix2 p j) := by
  refine (Ideal.multiReduction_add_single src 0x00000000#32 h hφ hacc (ix1 p)).trans ?_
  refine Finset.sum_congr rfl fun j _ => congrArg src ?_
  funext ax
  match ax with
  | ⟨0, _⟩ => rfl
  | ⟨1, _⟩ => rfl

/-- The same sum seen as a `[128, 1]` column, read at `(p, 0)`. -/
theorem rowReduce_col_apply (src : FVec Ideal S128x4096 .f32) (h : S128x4096.Reduces [1] S128) (hφ : FKind.Formats .f32)
    (hacc : (0x00000000#32 : BitVec 32) = FKind.add.neutral .f32 hφ) (hc : S128.ShapeCasts S128x1) (p : Fin 128) :
    shapeCast S128x1 (multiReduction (F := Ideal) .add [1] S128 src 0x00000000#32 h hφ hacc) hc (ix2 p (0 : Fin 1))
      = ∑ j : Fin 4096, src (ix2 p j) :=
  (shapeCast_a_a1_apply _ hc p).trans (rowReduce_apply src h hφ hacc p)

/-! ## Words and bits -/

/-- Equality of two 32-bit words as a bit. -/
theorem cmpi_eq (x y : BitVec 32) : IntOp.cmpi .eq x y = if x = y then 1#1 else 0#1 := by
  by_cases h : x = y
  · subst h; simp [IntOp.cmpi]
  · rw [if_neg h]
    show BitVec.ofBool (x == y) = 0#1
    rw [beq_eq_false_iff_ne.mpr h]
    rfl

/-- `128 · t + p` as a 32-bit word, from the words of `t` and `p`. -/
theorem word_row (t p : ℕ) :
    IntOp.addi (Scalar.muli (BitVec.ofNat 32 t) 128#32) (BitVec.ofNat 32 p) = BitVec.ofNat 32 (128 * t + p) := by
  apply BitVec.eq_of_toNat_eq
  simp [IntOp.addi, Scalar.muli, IntOp.muli, BitVec.toNat_add, BitVec.toNat_mul]
  omega

/-- Two numbers below `2^32` have equal words exactly when they are equal. -/
theorem ofNat_inj (a b : ℕ) (ha : a < 2 ^ 32) (hb : b < 2 ^ 32) : BitVec.ofNat 32 a = BitVec.ofNat 32 b ↔ a = b := by
  constructor
  · intro e
    have := congrArg BitVec.toNat e
    simp only [BitVec.toNat_ofNat] at this
    rw [Nat.mod_eq_of_lt ha, Nat.mod_eq_of_lt hb] at this
    exact this
  · intro e; rw [e]

end Cert.KernelIdeal.Payload

end
-- ==== Proof.KPayload2.lean ====
/-
  The stages of the kernel body's loss block, each as a definition over the loaded blocks and read at an index
  `(p, j)`: the product with the transposed table, the diagonal test, the label test, `e^(2·sim)` with the diagonal
  zeroed, the bit of a positive pair, and the negatives' sum of a row.
-/
import proofs.«127660_j48911087567313_2_alg».proof.Proof.KPayload1

noncomputable section

open scoped BigOperators

namespace Cert.KernelIdeal.Payload

open Idealize.ShloMosaic Idealize.SL.Sem Idealize.ShloMosaic.ValueIdx

/-- The dimension numbers of the body's one matrix product. -/
abbrev D : DotDims S128x256 S256x4096 S128x4096 := dot_S128x256_S256x4096_S128x4096_1_0_0_1_n_n

theorem D_lhs0 (i : S128x4096.Idx) (q : D.contr.Idx) : (D.lhsIdx i q 0).val = (i 0).val := by
  unfold DotDims.lhsIdx
  rw [dif_neg (show ¬(0 : Fin S128x256.rank) ∈ D.lhsBatch by decide),
    dif_pos (show (0 : Fin S128x256.rank) ∈ D.lhsNonContracting by decide)]
  rfl
theorem D_lhs1 (i : S128x4096.Idx) (q : D.contr.Idx) : (D.lhsIdx i q 1).val = (q ⟨0, by decide⟩).val :=
  D.lhsIdx_val_of_single rfl i q
theorem D_rhs0 (i : S128x4096.Idx) (q : D.contr.Idx) : (D.rhsIdx i q 0).val = (q ⟨0, by decide⟩).val :=
  D.rhsIdx_val_of_single rfl i q
theorem D_rhs1 (i : S128x4096.Idx) (q : D.contr.Idx) : (D.rhsIdx i q 1).val = (i 1).val := by
  unfold DotDims.rhsIdx
  rw [dif_neg (show ¬(1 : Fin S256x4096.rank) ∈ D.rhsBatch by decide),
    dif_pos (show (1 : Fin S256x4096.rank) ∈ D.rhsNonContracting by decide)]
  rfl

/-! ## The stages -/

/-- The block times the transposed table, into the zero accumulator. -/
def dotV (v0 : FVec Ideal S128x256 .bf16) (v2 : FVec Ideal S4096x256 .bf16) : FVec Ideal S128x4096 .f32 :=
  matmul D none (shapeCast S128x256 v0 Gen.shapeCasts_S128x256_S128x256)
    (transpose S256x4096 [1, 0] (shapeCast S4096x256 v2 Gen.shapeCasts_S4096x256_S4096x256)
      Gen.transposes_S4096x256_p1_0_S256x4096)
    (constant S128x4096 .f32 0x00000000#32)

/-- The bit "global row number = column number". -/
def diagV (i : grid0.Coords) : IVec S128x4096 1 :=
  cmpi .eq (addi (broadcast S128x4096 (Scalar.muli (BitVec.ofNat 32 (i 0).val) 128#32))
      (iota .tc S128x4096 32 [0] Gen.iota_S128x4096_d0_w32))
    (iota .tc S128x4096 32 [1] Gen.iota_S128x4096_d1_w32)

/-- The bit "the row's label = the column's label". -/
def sameV (v12 : IVec S128x1 32) (v14 : IVec S1x4096 32) : IVec S128x4096 1 :=
  cmpi .eq (broadcastTo S128x4096 (shapeCast S128x1 v12 Gen.shapeCasts_S128x1_S128x1) Gen.broadcasts_S128x1_S128x4096)
    (broadcastTo S128x4096 (shapeCast S1x4096 v14 Gen.shapeCasts_S1x4096_S1x4096) Gen.broadcasts_S1x4096_S128x4096)

/-- Twice the inner products. -/
def twoSimV (v0 : FVec Ideal S128x256 .bf16) (v2 : FVec Ideal S4096x256 .bf16) : FVec Ideal S128x4096 .f32 :=
  mulf (dotV v0 v2) (broadcast S128x4096 (Scalar.ofBits (F := Ideal) .f32 0x40000000#32))

/-- `e^(2·sim)` with the diagonal zeroed. -/
def expV (i : grid0.Coords) (v0 : FVec Ideal S128x256 .bf16) (v2 : FVec Ideal S4096x256 .bf16) :
    FVec Ideal S128x4096 .f32 :=
  select (diagV i) (broadcast S128x4096 (Scalar.ofBits (F := Ideal) .f32 0x00000000#32)) (exp (twoSimV v0 v2))

/-- The bit of a positive pair: same label and off the diagonal. -/
def posV (i : grid0.Coords) (v12 : IVec S128x1 32) (v14 : IVec S1x4096 32) : IVec S128x4096 1 :=
  andi (sameV v12 v14) (xori (diagV i) (constantI S128x4096 1 1#1))

/-- The negatives' sum of each row, as a column: the row's sum minus the positives' sum. -/
def negV (i : grid0.Coords) (v0 : FVec Ideal S128x256 .bf16) (v2 : FVec Ideal S4096x256 .bf16)
    (v12 : IVec S128x1 32) (v14 : IVec S1x4096 32) : FVec Ideal S128x1 .f32 :=
  subf
    (shapeCast S128x1 (multiReduction (F := Ideal) .add [1] S128 (expV i v0 v2) 0x00000000#32
      Gen.reduces_S128x4096_S128 (.inl rfl) rfl) Gen.shapeCasts_S128_S128x1)
    (shapeCast S128x1 (multiReduction (F := Ideal) .add [1] S128
      (select (posV i v12 v14) (expV i v0 v2) (broadcast S128x4096 (Scalar.ofBits (F := Ideal) .f32 0x00000000#32)))
      0x00000000#32 Gen.reduces_S128x4096_S128 (.inl rfl) rfl) Gen.shapeCasts_S128_S128x1)

/-- The loss block is the stages put together. -/
theorem pay2_eq (i : grid0.Coords) (v0 : Vec Ideal S128x256 .bf16) (v2 : Vec Ideal S4096x256 .bf16)
    (v12 : Vec Ideal S128x1 .i32) (v14 : Vec Ideal S1x4096 .i32) :
    Gen.k0_pay2 (F := Ideal) i v0 v2 v12 v14
      = select (posV i v12 v14)
          (subf (log (addf (expV i v0 v2)
            (broadcastTo S128x4096 (negV i v0 v2 v12 v14) Gen.broadcasts_S128x1_S128x4096))) (twoSimV v0 v2))
          (broadcast S128x4096 (Scalar.ofBits (F := Ideal) .f32 0x00000000#32)) := rfl

/-! ## The constants -/

theorem two_eq : Ideal.ofBits .f32 0x40000000#32 = Cert.PairLoss.two := by
  simp [Ideal.ofBits, Ideal.ieee, Cert.PairLoss.two]
  rw [← EReal.coe_mul]
  exact congrArg _ (by norm_num)

theorem one_eq : Ideal.ofBits .f32 0x3F800000#32 = 1 := by
  simp [Ideal.ofBits, Ideal.ieee]
  rw [← EReal.coe_mul, ← EReal.coe_one]
  exact congrArg _ (by norm_num)

/-! ## The stages at an index -/

theorem dotV_apply (v0 : FVec Ideal S128x256 .bf16) (v2 : FVec Ideal S4096x256 .bf16) (p : Fin 128) (j : Fin 4096) :
    dotV v0 v2 (ix2 p j) = ∑ k : Fin 256, v0 (ix2 p k) * v2 (ix2 j k) := by
  unfold dotV
  rw [shapeCast_self, shapeCast_self]
  refine (Ideal.matmul_constant_zero_apply D none _ _ (ix2 p j)).trans ?_
  rw [← Equiv.sum_comp (contrEquiv1 D 256 rfl rfl).symm]
  refine Finset.sum_congr rfl fun k _ => ?_
  have hk := contrEquiv1_symm_val D 256 rfl rfl k
  have el : D.lhsIdx (ix2 p j) ((contrEquiv1 D 256 rfl rfl).symm k) = ix2 p k := funext fun a => Fin.ext (by
    match a with
    | ⟨0, _⟩ => exact D_lhs0 _ _
    | ⟨1, _⟩ => exact (D_lhs1 _ _).trans hk)
  have er : D.rhsIdx (ix2 p j) ((contrEquiv1 D 256 rfl rfl).symm k) = ix2 k j := funext fun a => Fin.ext (by
    match a with
    | ⟨0, _⟩ => exact (D_rhs0 _ _).trans hk
    | ⟨1, _⟩ => exact D_rhs1 _ _)
  rw [el, er, transpose_ix2_apply]

theorem diagV_apply (i : grid0.Coords) (p : Fin 128) (j : Fin 4096) :
    diagV i (ix2 p j) = if gRow (i 0) p = j then 1#1 else 0#1 := by
  have hi : (i 0).val < 32 := (i 0).isLt
  show IntOp.cmpi .eq (IntOp.addi (Scalar.muli (BitVec.ofNat 32 (i 0).val) 128#32)
      (iota .tc S128x4096 32 [0] Gen.iota_S128x4096_d0_w32 (ix2 p j)))
    (iota .tc S128x4096 32 [1] Gen.iota_S128x4096_d1_w32 (ix2 p j)) = _
  rw [iota_single_apply, iota_single_apply]
  show IntOp.cmpi .eq (IntOp.addi (Scalar.muli (BitVec.ofNat 32 (i 0).val) 128#32) (BitVec.ofNat 32 p.val))
    (BitVec.ofNat 32 j.val) = _
  rw [word_row, cmpi_eq]
  have hj : j.val < 4096 := j.isLt
  have hp : p.val < 128 := p.isLt
  by_cases h : gRow (i 0) p = j
  · rw [if_pos h, if_pos]
    rw [← h]; rfl
  · rw [if_neg h, if_neg]
    intro e
    apply h
    apply Fin.ext
    exact (ofNat_inj _ _ (by omega) (by omega)).mp e

theorem sameV_apply (v12 : IVec S128x1 32) (v14 : IVec S1x4096 32) (p : Fin 128) (j : Fin 4096) :
    sameV v12 v14 (ix2 p j) = if v12 (ix2 p (0 : Fin 1)) = v14 (ix2 (0 : Fin 1) j) then 1#1 else 0#1 := by
  show IntOp.cmpi .eq
    (broadcastTo S128x4096 (shapeCast S128x1 v12 Gen.shapeCasts_S128x1_S128x1) Gen.broadcasts_S128x1_S128x4096 (ix2 p j))
    (broadcastTo S128x4096 (shapeCast S1x4096 v14 Gen.shapeCasts_S1x4096_S1x4096) Gen.broadcasts_S1x4096_S128x4096 (ix2 p j)) = _
  rw [shapeCast_self, shapeCast_self, broadcastTo_a1_ab_apply, broadcastTo_1b_ab_apply, cmpi_eq]

theorem posV_apply (i : grid0.Coords) (v12 : IVec S128x1 32) (v14 : IVec S1x4096 32) (p : Fin 128) (j : Fin 4096) :
    posV i v12 v14 (ix2 p j)
      = if (v12 (ix2 p (0 : Fin 1)) = v14 (ix2 (0 : Fin 1) j) ∧ gRow (i 0) p ≠ j) then 1#1 else 0#1 := by
  show IntOp.andi (sameV v12 v14 (ix2 p j)) (IntOp.xori (diagV i (ix2 p j)) 1#1) = _
  rw [sameV_apply, diagV_apply]
  by_cases h1 : v12 (ix2 p (0 : Fin 1)) = v14 (ix2 (0 : Fin 1) j)
  · by_cases h2 : gRow (i 0) p = j
    · rw [if_pos h1, if_pos h2, if_neg (fun h => h.2 h2)]; rfl
    · rw [if_pos h1, if_neg h2, if_pos ⟨h1, h2⟩]; rfl
  · by_cases h2 : gRow (i 0) p = j
    · rw [if_neg h1, if_pos h2, if_neg (fun h => h1 h.1)]; rfl
    · rw [if_neg h1, if_neg h2, if_neg (fun h => h1 h.1)]; rfl

theorem twoSimV_apply (v0 : FVec Ideal S128x256 .bf16) (v2 : FVec Ideal S4096x256 .bf16) (p : Fin 128) (j : Fin 4096) :
    twoSimV v0 v2 (ix2 p j) = (∑ k : Fin 256, v0 (ix2 p k) * v2 (ix2 j k)) * Cert.PairLoss.two := by
  show dotV v0 v2 (ix2 p j) * Ideal.ofBits .f32 0x40000000#32 = _
  rw [dotV_apply, two_eq]

theorem expV_apply (i : grid0.Coords) (v0 : FVec Ideal S128x256 .bf16) (v2 : FVec Ideal S4096x256 .bf16)
    (p : Fin 128) (j : Fin 4096) :
    expV i v0 v2 (ix2 p j)
      = if gRow (i 0) p = j then 0 else Ideal.exp ((∑ k : Fin 256, v0 (ix2 p k) * v2 (ix2 j k)) * Cert.PairLoss.two) := by
  show Scalar.select (diagV i (ix2 p j)) (Ideal.ofBits .f32 0x00000000#32) (Ideal.exp (twoSimV v0 v2 (ix2 p j))) = _
  rw [diagV_apply, twoSimV_apply, Ideal.ofBits_zero_f32]
  by_cases h : gRow (i 0) p = j
  · rw [if_pos h, if_pos h, select_one]
  · rw [if_neg h, if_neg h, select_zero]

end Cert.KernelIdeal.Payload

end
-- ==== Proof.KPayload.lean ====
/-
  The kernel body's three payloads read at an index, against the tile spelling of the pairwise loss: when the loaded
  blocks hold the rows `128·t + p` of the table `X`, the whole table, those rows' labels and all labels `L`, the loss
  block's entry `(p, j)` is `lossT X L (128·t + p) j`, its row sums are `rowSum` and its row counts are `rowCnt`.
-/
import proofs.«127660_j48911087567313_2_alg».proof.Proof.KPayload2

noncomputable section

open scoped BigOperators

namespace Cert.KernelIdeal.Payload

open Idealize.ShloMosaic Idealize.SL.Sem Idealize.ShloMosaic.ValueIdx

section Stages

variable (i : grid0.Coords) (v0 : Vec Ideal S128x256 .bf16) (v2 : Vec Ideal S4096x256 .bf16)
  (v12 : Vec Ideal S128x1 .i32) (v14 : Vec Ideal S1x4096 .i32)
  (X : Cert.PairLoss.STab.Idx → EReal) (L : Cert.PairLoss.SLab.Idx → BitVec 32)

theorem twoSimV_eq (h0 : ∀ (p : Fin 128) (k : Fin 256), v0 (ix2 p k) = X (ix2 (gRow (i 0) p) k))
    (h2 : ∀ (j : Fin 4096) (k : Fin 256), v2 (ix2 j k) = X (ix2 j k)) (p : Fin 128) (j : Fin 4096) :
    twoSimV v0 v2 (ix2 p j) = Cert.PairLoss.sim X (gRow (i 0) p) j * Cert.PairLoss.two := by
  rw [twoSimV_apply]
  unfold Cert.PairLoss.sim
  exact congrArg (· * Cert.PairLoss.two) (Finset.sum_congr rfl fun k _ => by rw [h0, h2])

theorem expV_eq (h0 : ∀ (p : Fin 128) (k : Fin 256), v0 (ix2 p k) = X (ix2 (gRow (i 0) p) k))
    (h2 : ∀ (j : Fin 4096) (k : Fin 256), v2 (ix2 j k) = X (ix2 j k)) (p : Fin 128) (j : Fin 4096) :
    expV i v0 v2 (ix2 p j) = Cert.PairLoss.expT X (gRow (i 0) p) j := by
  rw [expV_apply]
  unfold Cert.PairLoss.expT Cert.PairLoss.sim
  have hs : (∑ k : Fin 256, v0 (ix2 p k) * v2 (ix2 j k)) = ∑ k : Fin 256, X (ix2 (gRow (i 0) p) k) * X (ix2 j k) :=
    Finset.sum_congr rfl fun k _ => by rw [h0, h2]
  rw [hs]

theorem posV_eq (h12 : ∀ p : Fin 128, v12 (ix2 p (0 : Fin 1)) = L (ix1 (gRow (i 0) p)))
    (h14 : ∀ j : Fin 4096, v14 (ix2 (0 : Fin 1) j) = L (ix1 j)) (p : Fin 128) (j : Fin 4096) :
    posV i v12 v14 (ix2 p j) = if Cert.PairLoss.IsPos L (gRow (i 0) p) j then 1#1 else 0#1 := by
  rw [posV_apply, h12, h14]
  by_cases hp : Cert.PairLoss.IsPos L (gRow (i 0) p) j
  · rw [if_pos hp, if_pos (show L (ix1 (gRow (i 0) p)) = L (ix1 j) ∧ gRow (i 0) p ≠ j from hp)]
  · rw [if_neg hp, if_neg (show ¬(L (ix1 (gRow (i 0) p)) = L (ix1 j) ∧ gRow (i 0) p ≠ j) from hp)]

theorem negV_eq (h0 : ∀ (p : Fin 128) (k : Fin 256), v0 (ix2 p k) = X (ix2 (gRow (i 0) p) k))
    (h2 : ∀ (j : Fin 4096) (k : Fin 256), v2 (ix2 j k) = X (ix2 j k))
    (h12 : ∀ p : Fin 128, v12 (ix2 p (0 : Fin 1)) = L (ix1 (gRow (i 0) p)))
    (h14 : ∀ j : Fin 4096, v14 (ix2 (0 : Fin 1) j) = L (ix1 j)) (p : Fin 128) :
    negV i v0 v2 v12 v14 (ix2 p (0 : Fin 1)) = Cert.PairLoss.negT X L (gRow (i 0) p) := by
  unfold Cert.PairLoss.negT
  refine congrArg₂ (· - ·) ?_ ?_
  · exact (rowReduce_col_apply _ _ _ _ _ p).trans (Finset.sum_congr rfl fun j _ => expV_eq i v0 v2 X h0 h2 p j)
  · refine (rowReduce_col_apply _ _ _ _ _ p).trans (Finset.sum_congr rfl fun j _ => ?_)
    show Scalar.select (posV i v12 v14 (ix2 p j)) (expV i v0 v2 (ix2 p j)) (Ideal.ofBits .f32 0x00000000#32) = _
    rw [posV_eq i v12 v14 L h12 h14, expV_eq i v0 v2 X h0 h2, Ideal.ofBits_zero_f32]
    by_cases hp : Cert.PairLoss.IsPos L (gRow (i 0) p) j
    · rw [if_pos hp, if_pos hp, select_one]
    · rw [if_neg hp, if_neg hp, select_zero]

end Stages

/-- The loss block's entry `(p, j)` is the tile spelling's entry of global row `128·t + p` and column `j`. -/
theorem pay_loss_apply (i : grid0.Coords) (v0 : Vec Ideal S128x256 .bf16) (v2 : Vec Ideal S4096x256 .bf16)
    (v12 : Vec Ideal S128x1 .i32) (v14 : Vec Ideal S1x4096 .i32)
    (X : Cert.PairLoss.STab.Idx → EReal) (L : Cert.PairLoss.SLab.Idx → BitVec 32)
    (h0 : ∀ (p : Fin 128) (k : Fin 256), v0 (ix2 p k) = X (ix2 (gRow (i 0) p) k))
    (h2 : ∀ (j : Fin 4096) (k : Fin 256), v2 (ix2 j k) = X (ix2 j k))
    (h12 : ∀ p : Fin 128, v12 (ix2 p (0 : Fin 1)) = L (ix1 (gRow (i 0) p)))
    (h14 : ∀ j : Fin 4096, v14 (ix2 (0 : Fin 1) j) = L (ix1 j)) (p : Fin 128) (j : Fin 4096) :
    Gen.k0_pay2 (F := Ideal) i v0 v2 v12 v14 (ix2 p j) = Cert.PairLoss.lossT X L (gRow (i 0) p) j := by
  rw [pay2_eq]
  show Scalar.select (posV i v12 v14 (ix2 p j))
    (Ideal.log (expV i v0 v2 (ix2 p j)
      + broadcastTo S128x4096 (negV i v0 v2 v12 v14) Gen.broadcasts_S128x1_S128x4096 (ix2 p j))
      - twoSimV v0 v2 (ix2 p j)) (Ideal.ofBits .f32 0x00000000#32) = _
  rw [broadcastTo_a1_ab_apply, posV_eq i v12 v14 L h12 h14, expV_eq i v0 v2 X h0 h2,
    negV_eq i v0 v2 v12 v14 X L h0 h2 h12 h14, twoSimV_eq i v0 v2 X h0 h2, Ideal.ofBits_zero_f32]
  unfold Cert.PairLoss.lossT
  by_cases hp : Cert.PairLoss.IsPos L (gRow (i 0) p) j
  · rw [if_pos hp, if_pos hp, select_one]
  · rw [if_neg hp, if_neg hp, select_zero]

/-- The row sums of the loss block are the tile spelling's row sums. -/
theorem pay_sum_apply (i : grid0.Coords) (v0 : Vec Ideal S128x256 .bf16) (v2 : Vec Ideal S4096x256 .bf16)
    (v12 : Vec Ideal S128x1 .i32) (v14 : Vec Ideal S1x4096 .i32)
    (X : Cert.PairLoss.STab.Idx → EReal) (L : Cert.PairLoss.SLab.Idx → BitVec 32)
    (h0 : ∀ (p : Fin 128) (k : Fin 256), v0 (ix2 p k) = X (ix2 (gRow (i 0) p) k))
    (h2 : ∀ (j : Fin 4096) (k : Fin 256), v2 (ix2 j k) = X (ix2 j k))
    (h12 : ∀ p : Fin 128, v12 (ix2 p (0 : Fin 1)) = L (ix1 (gRow (i 0) p)))
    (h14 : ∀ j : Fin 4096, v14 (ix2 (0 : Fin 1) j) = L (ix1 j)) (p : Fin 128) :
    Gen.k0_pay3 (F := Ideal) i v0 v2 v12 v14 (ix2 p (0 : Fin 1)) = Cert.PairLoss.rowSum X L (gRow (i 0) p) := by
  unfold Cert.PairLoss.rowSum
  exact (rowReduce_col_apply _ _ _ _ _ p).trans
    (Finset.sum_congr rfl fun j _ => pay_loss_apply i v0 v2 v12 v14 X L h0 h2 h12 h14 p j)

/-- The count column of a block: at row `p`, the sum over the columns of the indicator of a nonzero entry. -/
theorem pay1_apply (v38 : FVec Ideal S128x4096 .f32) (p : Fin 128) :
    Gen.k0_pay1 (F := Ideal) v38 (ix2 p (0 : Fin 1))
      = ∑ j : Fin 4096, if v38 (ix2 p j) ≠ 0 then (1 : EReal) else 0 := by
  refine (rowReduce_col_apply _ _ _ _ _ p).trans (Finset.sum_congr rfl fun j _ => ?_)
  show Scalar.select (Ideal.cmp .one (v38 (ix2 p j)) (Ideal.ofBits .f32 0x00000000#32))
    (Ideal.ofBits .f32 0x3F800000#32) (Ideal.ofBits .f32 0x00000000#32) = _
  rw [Ideal.ofBits_zero_f32, one_eq]
  by_cases h : v38 (ix2 p j) ≠ 0
  · have hc : Ideal.cmp .one (v38 (ix2 p j)) 0 = 1#1 := by simp [Ideal.cmp, h]
    rw [if_pos h, hc, select_one]
  · have hc : Ideal.cmp .one (v38 (ix2 p j)) 0 = 0#1 := by simp [Ideal.cmp, not_not.mp h]
    rw [if_neg h, hc, select_zero]

/-- The row counts of the loss block are the tile spelling's row counts. -/
theorem pay_cnt_apply (i : grid0.Coords) (v0 : Vec Ideal S128x256 .bf16) (v2 : Vec Ideal S4096x256 .bf16)
    (v12 : Vec Ideal S128x1 .i32) (v14 : Vec Ideal S1x4096 .i32)
    (X : Cert.PairLoss.STab.Idx → EReal) (L : Cert.PairLoss.SLab.Idx → BitVec 32)
    (h0 : ∀ (p : Fin 128) (k : Fin 256), v0 (ix2 p k) = X (ix2 (gRow (i 0) p) k))
    (h2 : ∀ (j : Fin 4096) (k : Fin 256), v2 (ix2 j k) = X (ix2 j k))
    (h12 : ∀ p : Fin 128, v12 (ix2 p (0 : Fin 1)) = L (ix1 (gRow (i 0) p)))
    (h14 : ∀ j : Fin 4096, v14 (ix2 (0 : Fin 1) j) = L (ix1 j)) (p : Fin 128) :
    Gen.k0_pay1 (F := Ideal) (Gen.k0_pay2 (F := Ideal) i v0 v2 v12 v14) (ix2 p (0 : Fin 1))
      = Cert.PairLoss.rowCnt X L (gRow (i 0) p) := by
  rw [pay1_apply]
  unfold Cert.PairLoss.rowCnt
  exact Finset.sum_congr rfl fun j _ => by rw [pay_loss_apply i v0 v2 v12 v14 X L h0 h2 h12 h14 p j]

end Cert.KernelIdeal.Payload

end
-- ==== Proof.Algebra1.lean ====
/-
  Real-number facts under the extended-real spelling of the pairwise loss: the coercion of a finite sum and of a
  maximum, the floor under a row's norm as a positive real, and the row normalisation of a real table as a real table.
-/
import proofs.«127660_j48911087567313_2_alg».proof.Proof.Spec

noncomputable section

open scoped BigOperators

namespace Cert.PairLoss

open Idealize.ShloMosaic Idealize.ShloMosaic.ValueIdx

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with a maximum. -/
theorem coe_max' (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The floor is the real number `9223372 / 2^63`. -/
theorem eps_eq : eps = ((9223372 * ((2 : ℝ) ^ 63)⁻¹ : ℝ) : EReal) := by
  simp [eps, Ideal.ofBits, Ideal.ieee]

/-- The floor is a positive real number. -/
theorem eps_pos_real : ∃ q : ℝ, 0 < q ∧ eps = (q : EReal) :=
  ⟨9223372 * ((2 : ℝ) ^ 63)⁻¹, by positivity, eps_eq⟩

/-- The norm of a row of real numbers is the real square root of the sum of its squares. -/
theorem rowNorm_coe (x' : STab.Idx → ℝ) (r : Fin 4096) :
    rowNorm (fun i => (x' i : EReal)) r = ((Real.sqrt (∑ k : Fin 256, x' (ix2 r k) * x' (ix2 r k)) : ℝ) : EReal) := by
  have h0 : (0 : ℝ) ≤ ∑ k : Fin 256, x' (ix2 r k) * x' (ix2 r k) :=
    Finset.sum_nonneg fun k _ => mul_self_nonneg _
  have h1 : (∑ k : Fin 256, (x' (ix2 r k) : EReal) * (x' (ix2 r k) : EReal))
      = ((∑ k : Fin 256, x' (ix2 r k) * x' (ix2 r k) : ℝ) : EReal) := by
    rw [coe_sum]; exact Finset.sum_congr rfl fun k _ => (EReal.coe_mul _ _).symm
  unfold rowNorm
  rw [h1, Ideal.sqrt_coe, if_neg (not_lt.mpr h0)]

/-- The rows of a real table, each divided by the larger of its norm and the floor, form a real table. -/
theorem normed_real (x : STab.Idx → EReal) (hx : ∀ i, ∃ r : ℝ, x i = (r : EReal)) : RealTable (normed x) := by
  choose x' hx' using hx
  have hxe : x = fun i => (x' i : EReal) := funext hx'
  obtain ⟨q, hq, hqe⟩ := eps_pos_real
  intro i
  obtain ⟨a, b, rfl⟩ : ∃ (a : Fin 4096) (b : Fin 256), i = ix2 a b := ⟨i 0, i 1, eq_ix2 i⟩
  subst hxe
  have hm : (0 : ℝ) < max (Real.sqrt (∑ k : Fin 256, x' (ix2 a k) * x' (ix2 a k))) q :=
    lt_of_lt_of_le hq (le_max_right _ _)
  refine ⟨x' (ix2 a b) * (1 / max (Real.sqrt (∑ k : Fin 256, x' (ix2 a k) * x' (ix2 a k))) q), ?_⟩
  show Ideal.div ((x' (ix2 a b) : ℝ) : EReal) (max (rowNorm (fun i => (x' i : EReal)) a) eps) = _
  rw [rowNorm_coe, hqe, ← coe_max', Ideal.div_coe (ne_of_gt hm), ← EReal.coe_mul]

end Cert.PairLoss

end
-- ==== Proof.HostPrefix.lean ====
/-
  The row normalisation as the host spells it — the squares summed along each row, the square root, the maximum with
  the floor broadcast over the rows, and the quotient by that column broadcast over the table — is `normed`.
-/
import proofs.«127660_j48911087567313_2_alg».proof.Proof.Spec
import proofs.«127660_j48911087567313_2_alg».proof.Proof.Algebra1
import Idealize.ShloMosaic.Lib.ValueIdx
import Idealize.ShloMosaic.Lib.Pipeline.Value
import Idealize.ShloMosaic.PureOps.Ideal.Laws

noncomputable section

open scoped BigOperators

namespace Cert.PairLoss

open Idealize.ShloMosaic Idealize.ShloMosaic.ValueIdx

/-- The host's row normalisation of a table is `normed`. -/
theorem prefix_eq (x : FVec Ideal STab .f32) (hr : STab.ReducesTo [1] SLab) (hS : 0 < (⟨0, ![]⟩ : Shape).numel)
    (hb1 : SLab.BroadcastsInDim (⟨2, ![4096, 1]⟩ : Shape) (![0] : Fin 1 → Fin 2))
    (hb0 : (⟨0, ![]⟩ : Shape).BroadcastsInDim (⟨2, ![4096, 1]⟩ : Shape) (![] : Fin 0 → Fin 2))
    (hb2 : (⟨2, ![4096, 1]⟩ : Shape).BroadcastsInDim STab (![0, 1] : Fin 2 → Fin 2)) :
    Host.divf (F := Ideal) x
      (broadcastInDim STab ![0, 1] hb2
        (maximumf (F := Ideal)
          (Host.sqrt (F := Ideal) (broadcastInDim (⟨2, ![4096, 1]⟩ : Shape) ![0] hb1
            (Host.reduceAdd (F := Ideal) (mulf (F := Ideal) x x) (constant (F := Ideal) (⟨0, ![]⟩ : Shape) .f32 0x00000000#32) hr hS)))
          (broadcastInDim (⟨2, ![4096, 1]⟩ : Shape) ![] hb0 (constant (F := Ideal) (⟨0, ![]⟩ : Shape) .f32 0x2B8CBCCC#32))))
      = normed x := by
  have hR : STab.Reduces [1] SLab := by decide
  funext i
  obtain ⟨a, b, rfl⟩ : ∃ (a : Fin 4096) (b : Fin 256), i = ix2 a b := ⟨i 0, i 1, eq_ix2 i⟩
  show Ideal.div (x (ix2 a b)) _ = Ideal.div (x (ix2 a b)) (max (rowNorm x a) eps)
  refine congrArg (Ideal.div (x (ix2 a b))) ?_
  refine (broadcastInDim_apply _ hb2 _ (ix2 a b) (ix2 a (0 : Fin 1)) (fun c => match c with
    | ⟨0, _⟩ => by show a.val = if (4096 : Nat) = 1 then 0 else a.val; rw [if_neg (by decide)]
    | ⟨1, _⟩ => by show 0 = if (1 : Nat) = 1 then 0 else b.val; rw [if_pos rfl])).trans ?_
  show max (Ideal.sqrt _) eps = max (rowNorm x a) eps
  refine congrArg (fun y => max y eps) ?_
  unfold rowNorm
  refine congrArg Ideal.sqrt ?_
  refine (broadcastInDim_apply _ hb1 _ (ix2 a (0 : Fin 1)) (ix1 a) (fun c => match c with
    | ⟨0, _⟩ => by show a.val = if (4096 : Nat) = 1 then 0 else a.val; rw [if_neg (by decide)])).trans ?_
  show Ideal.hostReduceAdd hr (mulf (F := Ideal) x x) (Ideal.ofBits .f32 0x00000000#32) (ix1 a) = _
  rw [Ideal.hostReduceAdd_single hr hR, Ideal.ofBits_zero_f32, zero_add]
  refine Finset.sum_congr rfl fun k _ => ?_
  have hl : hR.lift (ix1 a) k = ix2 a k := funext fun c => match c with
    | ⟨0, _⟩ => rfl
    | ⟨1, _⟩ => rfl
  show x (hR.lift (ix1 a) k) * x (hR.lift (ix1 a) k) = _
  rw [hl]
  rfl

end Cert.PairLoss

end
-- ==== Proof.HostTail.lean ====
/-
  The host's closing quotient: the total of a `[4096, 1]` column over the total of another is the quotient of the
  two sums over the rows.
-/
import proofs.«127660_j48911087567313_2_alg».proof.Proof.Spec
import Idealize.ShloMosaic.Lib.ValueIdx
import Idealize.ShloMosaic.PureOps.Ideal.Laws

noncomputable section

open scoped BigOperators

namespace Cert.PairLoss

open Idealize.ShloMosaic Idealize.ShloMosaic.ValueIdx

/-- The total of a `[4096, 1]` column from the zero initial value is the sum over its rows. -/
theorem total_col (S : FVec Ideal (⟨2, ![4096, 1]⟩ : Shape) .f32)
    (hr : (⟨2, ![4096, 1]⟩ : Shape).ReducesTo [0, 1] (⟨0, ![]⟩ : Shape)) (hS : 0 < (⟨0, ![]⟩ : Shape).numel)
    (j : (⟨0, ![]⟩ : Shape).Idx) :
    Host.reduceAdd (F := Ideal) S (constant (F := Ideal) (⟨0, ![]⟩ : Shape) .f32 0x00000000#32) hr hS j
      = ∑ r : Fin 4096, S (ix2 r (0 : Fin 1)) := by
  show Ideal.hostReduceAdd hr S (Ideal.ofBits .f32 0x00000000#32) j = _
  rw [Ideal.hostReduceAdd_total hr (fun b => b.elim0), Ideal.ofBits_zero_f32, zero_add, sum_idx2]
  refine Finset.sum_congr rfl fun r _ => ?_
  rw [Fin.sum_univ_one]

/-- The host's closing quotient of two totals. -/
theorem tail_eq (S C : FVec Ideal (⟨2, ![4096, 1]⟩ : Shape) .f32)
    (hr : (⟨2, ![4096, 1]⟩ : Shape).ReducesTo [0, 1] (⟨0, ![]⟩ : Shape)) (hS : 0 < (⟨0, ![]⟩ : Shape).numel) :
    Host.divf (F := Ideal)
      (Host.reduceAdd (F := Ideal) S (constant (F := Ideal) (⟨0, ![]⟩ : Shape) .f32 0x00000000#32) hr hS)
      (Host.reduceAdd (F := Ideal) C (constant (F := Ideal) (⟨0, ![]⟩ : Shape) .f32 0x00000000#32) hr hS)
      = fun _ => Ideal.div (∑ r : Fin 4096, S (ix2 r (0 : Fin 1))) (∑ r : Fin 4096, C (ix2 r (0 : Fin 1))) := by
  funext j
  show Ideal.div (Host.reduceAdd (F := Ideal) S _ hr hS j) (Host.reduceAdd (F := Ideal) C _ hr hS j) = _
  rw [total_col S hr hS j, total_col C hr hS j]

end Cert.PairLoss

end
-- ==== Proof.KValue.lean ====
/-
  The value of the idealized kernel's program.

  Grid point `t` leaves in the first result block, at row `p`, the sum over all 4096 columns of the loss entries of
  global row `128 t + p`, and in the second result block the number of nonzero ones as a sum of ones: both are the
  blocks of one function of the table the region finds and of the labels, and the 32 blocks cover the result arrays.
  The host operations after the region total the two arrays and divide.  The table the region finds is the host's row
  normalisation of the embeddings, so the program's result is the tile spelling of the loss of the normalised table.
-/
import proofs.«127660_j48911087567313_2_alg».proof.Proof.KBlocks
import proofs.«127660_j48911087567313_2_alg».proof.Proof.KPayload
import proofs.«127660_j48911087567313_2_alg».proof.Proof.HostPrefix
import proofs.«127660_j48911087567313_2_alg».proof.Proof.HostTail

set_option maxRecDepth 16384

noncomputable section

namespace Cert.KernelIdeal.Region

open Cert.KernelIdeal Cert.KernelIdeal.Gen Cert.KernelIdeal.Payload
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The grid's coordinate at point `t` names the same global rows as `t`. -/
theorem gRow_coords (t : Fin cfg0.N) (p : Fin 128) : gRow ((grid0.coords t) 0) p = rowAt t p := by
  apply Fin.ext
  show 128 * ((grid0.coords t) 0).val + p.val = 128 * t.val + p.val
  rw [(idx_facts t).1]

/-- The table the region finds and the labels, as the specification's arguments. -/
abbrev tabOf (c : Dev nD) : Cert.PairLoss.STab.Idx → EReal := (V m c main_v5 : S4096x256.Idx → EReal)
abbrev labOf (c : Dev nD) : Cert.PairLoss.SLab.Idx → BitVec 32 := m ((c : Thread nD τ).loc main_arg1)

/-- The two result arrays as functions of the table and the labels: row `r` holds the row's sum of loss entries,
    and the row's count of nonzero ones. -/
def Gsum (c : Dev nD) : S4096x1.Idx → EReal := fun i => Cert.PairLoss.rowSum (tabOf m c) (labOf m c) (i 0)
def Gcnt (c : Dev nD) : S4096x1.Idx → EReal := fun i => Cert.PairLoss.rowCnt (tabOf m c) (labOf m c) (i 0)

/-- What point `t` writes back into the first result array is block `t` of `Gsum`. -/
theorem flushed_sum_eq (c : Dev nD) (t : Fin cfg0.N) :
    (dats m 0 c).flushed 4 t = ((cfg0.win 4).blk t).view.read (Elt Ideal) (Gsum m c) := by
  show (cfg0.win 4).cut (grid0.coords t) ((dats m 0 c).after 4 t) = _
  rw [after0_4]
  unfold outSum
  rw [View.canon_unit_zero hz]
  simp only [View.ld_unit_zero (S := S128x256) hz, View.ld_unit_zero (S := S4096x256) hz, View.ld_unit_zero (S := S128x1) hz,
    View.ld_unit_zero (S := S1x4096) hz]
  funext j
  obtain ⟨p, z, rfl⟩ : ∃ (p : Fin 128) (z : Fin 1), j = ix2 p z := ⟨j 0, j 1, eq_ix2 j⟩
  obtain rfl : z = 0 := Subsingleton.elim _ _
  refine (pay_sum_apply (grid0.coords t) _ _ _ _ (tabOf m c) (labOf m c)
    (fun p k => by rw [gRow_coords]; exact blk_rows_apply m c t p k)
    (fun j k => blk_table_apply m c t j k)
    (fun p => by rw [gRow_coords]; exact (blk_col_apply m c t p 0).trans (entry_col_apply m c (rowAt t p) 0))
    (fun j => (blk_row_apply m c t 0 j).trans (entry_row_apply m c 0 j)) p).trans ?_
  rw [gRow_coords]
  show _ = Gsum m c (((cfg0.win 4).blk t).view.emb (ix2 p 0))
  unfold Gsum
  rw [emb_sum_row]

/-- What point `t` writes back into the second result array is block `t` of `Gcnt`. -/
theorem flushed_cnt_eq (c : Dev nD) (t : Fin cfg0.N) :
    (dats m 0 c).flushed 5 t = ((cfg0.win 5).blk t).view.read (Elt Ideal) (Gcnt m c) := by
  show (cfg0.win 5).cut (grid0.coords t) ((dats m 0 c).after 5 t) = _
  rw [after0_5]
  unfold outCnt
  rw [View.canon_unit_zero hz]
  simp only [View.ld_unit_zero (S := S128x256) hz, View.ld_unit_zero (S := S4096x256) hz, View.ld_unit_zero (S := S128x1) hz,
    View.ld_unit_zero (S := S1x4096) hz]
  funext j
  obtain ⟨p, z, rfl⟩ : ∃ (p : Fin 128) (z : Fin 1), j = ix2 p z := ⟨j 0, j 1, eq_ix2 j⟩
  obtain rfl : z = 0 := Subsingleton.elim _ _
  refine (pay_cnt_apply (grid0.coords t) _ _ _ _ (tabOf m c) (labOf m c)
    (fun p k => by rw [gRow_coords]; exact blk_rows_apply m c t p k)
    (fun j k => blk_table_apply m c t j k)
    (fun p => by rw [gRow_coords]; exact (blk_col_apply m c t p 0).trans (entry_col_apply m c (rowAt t p) 0))
    (fun j => (blk_row_apply m c t 0 j).trans (entry_row_apply m c 0 j)) p).trans ?_
  rw [gRow_coords]
  show _ = Gcnt m c (((cfg0.win 5).blk t).view.emb (ix2 p 0))
  unfold Gcnt
  rw [emb_cnt_row]

/-- The result arrays after the last point. -/
theorem final_sum (c : Dev nD) : (dats m 0 c).arrAt 4 cfg0.N = Gsum m c :=
  (dats m 0 c).arrAt_eq_of_cover 4 (Gsum m c) (fun t _ => flushed_sum_eq m c t) cover_sum
theorem final_cnt (c : Dev nD) : (dats m 0 c).arrAt 5 cfg0.N = Gcnt m c :=
  (dats m 0 c).arrAt_eq_of_cover 5 (Gcnt m c) (fun t _ => flushed_cnt_eq m c t) cover_cnt

/-- The table the region finds is the normalised table of the embeddings. -/
theorem table_eq (c : Dev nD) : tabOf m c = Cert.PairLoss.normed (m ((c : Thread nD τ).loc main_arg0)) := by
  show (V m c main_v5 : S4096x256.Idx → EReal) = _
  rw [entry_table]
  exact Cert.PairLoss.prefix_eq (m ((c : Thread nD τ).loc main_arg0)) reducesTo_S4096x256_S4096_d1 h_S_ bcast_S4096_S4096x1_0
    bcast_S_S4096x1 bcast_S4096x1_S4096x256_0_1

/-- THE PROGRAM'S RESULT: the tile spelling of the loss of the normalised table. -/
theorem result_eq (c : Dev nD) :
    (Vend m c main_v11 : S_.Idx → EReal)
      = fun _ => Cert.PairLoss.lossTile (Cert.PairLoss.normed (m ((c : Thread nD τ).loc main_arg0))) (m ((c : Thread nD τ).loc main_arg1)) := by
  rw [result_term, final_sum, final_cnt, Cert.PairLoss.tail_eq, ← table_eq]
  rfl

/-- The run, read: the result at the loss, the arguments unchanged. -/
theorem value_run : θ_run defs (onTc (τ := τ) (main (F := Ideal))) ⟨m, fun _ => 0, ρ⟩ (fun r => ∀ c : Dev nD,
      r.2.mem ((c.tc : Thread nD τ).loc main_v11)
        = (fun _ => Cert.PairLoss.lossTile (Cert.PairLoss.normed (m ((c.tc : Thread nD τ).loc main_arg0))) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(post_rest m r h c main_v11 (by decide) (by decide)).trans (result_eq m c),
     (post_rest m r h c main_arg0 (by decide) (by decide)).trans (Vend_main_arg0 m c),
     (post_rest m r h c main_arg1 (by decide) (by decide)).trans (Vend_main_arg1 m c)⟩) (run_main m ρ)

end Cert.KernelIdeal.Region

end
-- ==== Proof.LibStretchRead.lean ====
/-
  Reading one buffer after a long straight line of host operations, through the one stretch that writes it.

  `StableHlo.after ops V` folds every operation of `ops` over the buffer contents `V`. When the line is long, a buffer
  written early is read back through all the later operations one by one. If `Wr` lists, operation by operation, the
  one reference each operation may write (`WritesOnly ops Wr`), then:

  * a reference not in `Wr` is never written: `after ops V` still holds `V` there (`after_of_not_mem_writesOnly`);
  * a reference that none of the operations after position `a + n` writes is read off the stretch of `n` operations
    from position `a`, run from the contents the first `a` operations leave (`after_read_stretch`);
  * the first `a` operations leave every reference they do not write as it was (`after_take_of_not_mem`), and already
    leave in a reference no later operation writes what the whole line leaves (`after_take_eq`).

  Membership in `Wr` (a list of references) is decided in one pass, so each buffer of a program of hundreds of operations
  costs one short stretch instead of the whole fold.
-/
import Idealize.ShloMosaic.Lib.StableHlo.Run
import Mathlib.Data.List.Forall2

noncomputable section

namespace Idealize.ShloMosaic.StableHlo

variable {τ : Topo} {sig : RefSig} {Val : EltTy → Type}

/-- Two lines run one after the other: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `Wr` names, operation by operation, the one reference each operation of `ops` may write. -/
def WritesOnly (ops : List (HloOp τ sig Val)) (Wr : List (Ref sig .tc)) : Prop :=
  List.Forall₂ (fun op r => op.writes ⊆ ({Proc.devRef (τ := τ) .tc r} : Finset (DevRef τ sig))) ops Wr

/-- A reference none of the operations may write keeps its contents. -/
theorem after_of_not_mem_writesOnly {ops : List (HloOp τ sig Val)} {Wr : List (Ref sig .tc)} (h : WritesOnly ops Wr)
    (V : Valuation τ sig Val) (r : Ref sig .tc) (hr : r ∉ Wr) :
    after ops V (Proc.devRef .tc r) = V (Proc.devRef .tc r) := by
  refine after_of_forall_not_mem ops V ?_
  unfold WritesOnly at h
  induction h with
  | nil => intro op hop; exact absurd hop List.not_mem_nil
  | @cons op r₀ l W hop _ ih =>
    intro op' hop'
    rcases List.mem_cons.mp hop' with rfl | hmem
    · intro hb
      have := Finset.mem_singleton.mp (hop hb)
      exact hr (by rw [Proc.devRef_injective _ this]; exact List.mem_cons_self)
    · exact ih (fun hm => hr (List.mem_cons_of_mem _ hm)) op' hmem

/-- The first `a` operations leave a reference they may not write as it was. -/
theorem after_take_of_not_mem {ops : List (HloOp τ sig Val)} {Wr : List (Ref sig .tc)} (h : WritesOnly ops Wr) (a : Nat)
    (V : Valuation τ sig Val) (r : Ref sig .tc) (hr : r ∉ Wr.take a) :
    after (ops.take a) V (Proc.devRef .tc r) = V (Proc.devRef .tc r) :=
  after_of_not_mem_writesOnly (List.forall₂_take a h) V r hr

/-- A reference that no operation after position `a + n` may write is read, after the whole line, off the stretch of
    `n` operations from position `a`, run from what the first `a` operations leave. -/
theorem after_read_stretch {ops : List (HloOp τ sig Val)} {Wr : List (Ref sig .tc)} (h : WritesOnly ops Wr) (a n : Nat)
    (V : Valuation τ sig Val) (r : Ref sig .tc) (hr : r ∉ (Wr.drop a).drop n) :
    after ops V (Proc.devRef .tc r) = after ((ops.drop a).take n) (after (ops.take a) V) (Proc.devRef .tc r) := by
  have e : ops = ops.take a ++ ((ops.drop a).take n ++ (ops.drop a).drop n) := by
    rw [List.take_append_drop, List.take_append_drop]
  conv_lhs => rw [e]
  rw [after_append, after_append]
  exact after_of_not_mem_writesOnly (List.forall₂_drop n (List.forall₂_drop a h)) _ r hr

/-- The first `p` operations already leave, in a reference no later operation may write, what the whole line leaves. -/
theorem after_take_eq {ops : List (HloOp τ sig Val)} {Wr : List (Ref sig .tc)} (h : WritesOnly ops Wr) (p : Nat)
    (V : Valuation τ sig Val) (r : Ref sig .tc) (hr : r ∉ Wr.drop p) :
    after (ops.take p) V (Proc.devRef .tc r) = after ops V (Proc.devRef .tc r) := by
  conv_rhs => rw [← List.take_append_drop p ops]
  rw [after_append]
  exact (after_of_not_mem_writesOnly (List.forall₂_drop p h) _ r hr).symm

end Idealize.ShloMosaic.StableHlo

end
-- ==== Proof.RefRun.lean ====
/-
  The reference's run, read one buffer at a time.

  The reference is a straight line of 58 host operations, each writing one buffer of its own from the contents of
  buffers written before it.  Every weakly fair execution ends with each buffer at the fold of the operations over the
  launch contents (`raw_run`).  Because no buffer is written twice, what the whole line leaves in the buffer of
  operation `k` is that operation's function of what the whole line leaves in its operands' buffers
  (`after_nullary_at`, `after_unary_at`, `after_binary_at`), and the two arguments are left as they were.
-/
import proofs.«127660_j48911087567313_2_alg».proof.Proof.Gen.ReferenceIdeal
import proofs.«127660_j48911087567313_2_alg».proof.Proof.LibStretchRead
import Idealize.ShloMosaic.Lib.StableHlo.Run

noncomputable section

namespace Idealize.ShloMosaic.StableHlo

variable {τ : Topo} {sig : RefSig} {Val : EltTy → Type}

/-- Operation `k` of a line in which it alone writes `y`, a constant: the whole line leaves the constant in `y`. -/
theorem after_nullary_at {ops : List (HloOp τ sig Val)} {Wr : List (Ref sig .tc)} (h : WritesOnly ops Wr) (k : Nat)
    (V : Valuation τ sig Val) {y : Ref sig .tc} {v : y.ty.Contents Val} {hy}
    (hop : (ops.drop k).take 1 = [nullary (τ := τ) y v hy]) (hy' : y ∉ (Wr.drop k).drop 1) :
    after ops V (Proc.devRef .tc y) = v := by
  rw [after_read_stretch h k 1 V y hy', hop, after_cons, after_nil, nullary_result]

/-- Operation `k` of a line in which it alone writes `y` and nothing from `k` on writes its operand: the whole line
    leaves in `y` the operation's function of what it leaves in the operand. -/
theorem after_unary_at {ops : List (HloOp τ sig Val)} {Wr : List (Ref sig .tc)} (h : WritesOnly ops Wr) (k : Nat)
    (V : Valuation τ sig Val) {x y : Ref sig .tc} {f : x.ty.Contents Val → y.ty.Contents Val} {hx hy}
    (hop : (ops.drop k).take 1 = [unary (τ := τ) x y f hx hy]) (hy' : y ∉ (Wr.drop k).drop 1) (hx' : x ∉ Wr.drop k) :
    after ops V (Proc.devRef .tc y) = f (after ops V (Proc.devRef .tc x)) := by
  rw [after_read_stretch h k 1 V y hy', hop, after_cons, after_nil, unary_result, after_take_eq h k V x hx']

/-- The same for an operation of two operands. -/
theorem after_binary_at {ops : List (HloOp τ sig Val)} {Wr : List (Ref sig .tc)} (h : WritesOnly ops Wr) (k : Nat)
    (V : Valuation τ sig Val) {a b y : Ref sig .tc} {f : a.ty.Contents Val → b.ty.Contents Val → y.ty.Contents Val}
    {ha hb hy} (hop : (ops.drop k).take 1 = [binary (τ := τ) a b y f ha hb hy]) (hy' : y ∉ (Wr.drop k).drop 1)
    (ha' : a ∉ Wr.drop k) (hb' : b ∉ Wr.drop k) :
    after ops V (Proc.devRef .tc y) = f (after ops V (Proc.devRef .tc a)) (after ops V (Proc.devRef .tc b)) := by
  rw [after_read_stretch h k 1 V y hy', hop, after_cons, after_nil, binary_result, after_take_eq h k V a ha',
    after_take_eq h k V b hb']

end Idealize.ShloMosaic.StableHlo

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 58 operations, in order (a called function's operations stand in its call's place, spelt `TRef.…`). -/
abbrev ops : List (HloOp τ sig (Elt F)) :=
  [ TRef.binary (TRef.of (T := ⟨S4096x256, .f32⟩) main_arg0) (TRef.of (T := ⟨S4096x256, .f32⟩) main_arg0) (TRef.of (T := ⟨S4096x256, .f32⟩) main_call0_v0) mulf,
    TRef.nullary (TRef.of (T := ⟨S_, .f32⟩) main_call0_cst) (constant S_ .f32 0x00000000#32),
    TRef.binary (TRef.of (T := ⟨S4096x256, .f32⟩) main_call0_v0) (TRef.of (T := ⟨S_, .f32⟩) main_call0_cst) (TRef.of (T := ⟨S4096, .f32⟩) main_call0_v1) (fun x v => Host.reduceAdd x v reducesTo_S4096x256_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    nullary main_cst (constant S_ .f32 0x2B8CBCCC#32),
    unary main_cst main_v1 (broadcastInDim S4096x1 ![] bcast_S_S4096x1 : (⟨S_, .f32⟩ : BufTy).Contents (Elt F) → (⟨S4096x1, .f32⟩ : BufTy).Contents (Elt F)),
    binary main_v0 main_v1 main_v2 (maximumf : (⟨S4096x1, .f32⟩ : BufTy).Contents (Elt F) → (⟨S4096x1, .f32⟩ : BufTy).Contents (Elt F) → (⟨S4096x1, .f32⟩ : BufTy).Contents (Elt F)),
    unary main_v2 main_v3 (broadcastInDim S4096x256 ![0, 1] bcast_S4096x1_S4096x256_0_1 : (⟨S4096x1, .f32⟩ : BufTy).Contents (Elt F) → (⟨S4096x256, .f32⟩ : BufTy).Contents (Elt F)),
    binary main_arg0 main_v3 main_v4 (Host.divf : (⟨S4096x256, .f32⟩ : BufTy).Contents (Elt F) → (⟨S4096x256, .f32⟩ : BufTy).Contents (Elt F) → (⟨S4096x256, .f32⟩ : BufTy).Contents (Elt F)),
    unary main_v4 main_v5 ((transpose S256x4096 [1, 0] · transposes_S4096x256_S256x4096_1_0) : (⟨S4096x256, .f32⟩ : BufTy).Contents (Elt F) → (⟨S256x4096, .f32⟩ : BufTy).Contents (Elt F)),
    binary main_v4 main_v5 main_v6 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    unary main_arg1 main_v7 (broadcastInDim S4096x1 ![0] bcast_S4096_S4096x1_0 : (⟨S4096, .i32⟩ : BufTy).Contents (Elt F) → (⟨S4096x1, .i32⟩ : BufTy).Contents (Elt F)),
    unary main_arg1 main_v8 (broadcastInDim S1x4096 ![1] bcast_S4096_S1x4096_1 : (⟨S4096, .i32⟩ : BufTy).Contents (Elt F) → (⟨S1x4096, .i32⟩ : BufTy).Contents (Elt F)),
    unary main_v7 main_v9 (broadcastInDim S4096x4096 ![0, 1] bcast_S4096x1_S4096x4096_0_1 : (⟨S4096x1, .i32⟩ : BufTy).Contents (Elt F) → (⟨S4096x4096, .i32⟩ : BufTy).Contents (Elt F)),
    unary main_v8 main_v10 (broadcastInDim S4096x4096 ![0, 1] bcast_S1x4096_S4096x4096_0_1 : (⟨S1x4096, .i32⟩ : BufTy).Contents (Elt F) → (⟨S4096x4096, .i32⟩ : BufTy).Contents (Elt F)),
    binary main_v9 main_v10 main_v11 (cmpi .eq : (⟨S4096x4096, .i32⟩ : BufTy).Contents (Elt F) → (⟨S4096x4096, .i32⟩ : BufTy).Contents (Elt F) → (⟨S4096x4096, .i1⟩ : BufTy).Contents (Elt F)),
    unary main_v11 main_v12 (uitofp .f32 : (⟨S4096x4096, .i1⟩ : BufTy).Contents (Elt F) → (⟨S4096x4096, .f32⟩ : BufTy).Contents (Elt F)),
    nullary main_v13 (iotaInDim S4096x4096 32 0),
    nullary main_v14 (iotaInDim S4096x4096 32 1),
    nullary main_c (constantI S_ 32 0#32),
    unary main_c main_v15 (broadcastInDim S4096x4096 ![] bcast_S_S4096x4096 : (⟨S_, .i32⟩ : BufTy).Contents (Elt F) → (⟨S4096x4096, .i32⟩ : BufTy).Contents (Elt F)),
    binary main_v13 main_v15 main_v16 (addi : (⟨S4096x4096, .i32⟩ : BufTy).Contents (Elt F) → (⟨S4096x4096, .i32⟩ : BufTy).Contents (Elt F) → (⟨S4096x4096, .i32⟩ : BufTy).Contents (Elt F)),
    binary main_v16 main_v14 main_v17 (cmpi .eq : (⟨S4096x4096, .i32⟩ : BufTy).Contents (Elt F) → (⟨S4096x4096, .i32⟩ : BufTy).Contents (Elt F) → (⟨S4096x4096, .i1⟩ : BufTy).Contents (Elt F)),
    unary main_v17 main_v18 (uitofp .f32 : (⟨S4096x4096, .i1⟩ : BufTy).Contents (Elt F) → (⟨S4096x4096, .f32⟩ : BufTy).Contents (Elt F)),
    nullary main_cst_0 (constant S_ .f32 0x3F000000#32),
    unary main_cst_0 main_v19 (broadcastInDim S4096x4096 ![] bcast_S_S4096x4096 : (⟨S_, .f32⟩ : BufTy).Contents (Elt F) → (⟨S4096x4096, .f32⟩ : BufTy).Contents (Elt F)),
    binary main_v6 main_v19 main_v20 (Host.divf : (⟨S4096x4096, .f32⟩ : BufTy).Contents (Elt F) → (⟨S4096x4096, .f32⟩ : BufTy).Contents (Elt F) → (⟨S4096x4096, .f32⟩ : BufTy).Contents (Elt F)),
    unary main_v20 main_v21 (Host.exp : (⟨S4096x4096, .f32⟩ : BufTy).Contents (Elt F) → (⟨S4096x4096, .f32⟩ : BufTy).Contents (Elt F)),
    nullary main_cst_1 (constant S_ .f32 0x3F800000#32),
    unary main_cst_1 main_v22 (broadcastInDim S4096x4096 ![] bcast_S_S4096x4096 : (⟨S_, .f32⟩ : BufTy).Contents (Elt F) → (⟨S4096x4096, .f32⟩ : BufTy).Contents (Elt F)),
    binary main_v22 main_v18 main_v23 (subf : (⟨S4096x4096, .f32⟩ : BufTy).Contents (Elt F) → (⟨S4096x4096, .f32⟩ : BufTy).Contents (Elt F) → (⟨S4096x4096, .f32⟩ : BufTy).Contents (Elt F)),
    binary main_v21 main_v23 main_v24 (mulf : (⟨S4096x4096, .f32⟩ : BufTy).Contents (Elt F) → (⟨S4096x4096, .f32⟩ : BufTy).Contents (Elt F) → (⟨S4096x4096, .f32⟩ : BufTy).Contents (Elt F)),
    binary main_v12 main_v24 main_v25 (mulf : (⟨S4096x4096, .f32⟩ : BufTy).Contents (Elt F) → (⟨S4096x4096, .f32⟩ : BufTy).Contents (Elt F) → (⟨S4096x4096, .f32⟩ : BufTy).Contents (Elt F)),
    binary main_v24 main_v25 main_v26 (subf : (⟨S4096x4096, .f32⟩ : BufTy).Contents (Elt F) → (⟨S4096x4096, .f32⟩ : BufTy).Contents (Elt F) → (⟨S4096x4096, .f32⟩ : BufTy).Contents (Elt F)),
    nullary main_cst_2 (constant S_ .f32 0x00000000#32),
    binary main_v26 main_cst_2 main_v27 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v27 main_v28 (broadcastInDim S4096x1 ![0] bcast_S4096_S4096x1_0 : (⟨S4096, .f32⟩ : BufTy).Contents (Elt F) → (⟨S4096x1, .f32⟩ : BufTy).Contents (Elt F)),
    unary main_v28 main_v29 (broadcastInDim S4096x4096 ![0, 1] bcast_S4096x1_S4096x4096_0_1 : (⟨S4096x1, .f32⟩ : BufTy).Contents (Elt F) → (⟨S4096x4096, .f32⟩ : BufTy).Contents (Elt F)),
    binary main_v25 main_v29 main_v30 (addf : (⟨S4096x4096, .f32⟩ : BufTy).Contents (Elt F) → (⟨S4096x4096, .f32⟩ : BufTy).Contents (Elt F) → (⟨S4096x4096, .f32⟩ : BufTy).Contents (Elt F)),
    binary main_v25 main_v30 main_v31 (Host.divf : (⟨S4096x4096, .f32⟩ : BufTy).Contents (Elt F) → (⟨S4096x4096, .f32⟩ : BufTy).Contents (Elt F) → (⟨S4096x4096, .f32⟩ : BufTy).Contents (Elt F)),
    nullary main_cst_3 (constant S_ .f32 0x3F800000#32),
    unary main_cst_3 main_v32 (broadcastInDim S4096x4096 ![] bcast_S_S4096x4096 : (⟨S_, .f32⟩ : BufTy).Contents (Elt F) → (⟨S4096x4096, .f32⟩ : BufTy).Contents (Elt F)),
    binary main_v32 main_v12 main_v33 (subf : (⟨S4096x4096, .f32⟩ : BufTy).Contents (Elt F) → (⟨S4096x4096, .f32⟩ : BufTy).Contents (Elt F) → (⟨S4096x4096, .f32⟩ : BufTy).Contents (Elt F)),
    binary main_v33 main_v31 main_v34 (addf : (⟨S4096x4096, .f32⟩ : BufTy).Contents (Elt F) → (⟨S4096x4096, .f32⟩ : BufTy).Contents (Elt F) → (⟨S4096x4096, .f32⟩ : BufTy).Contents (Elt F)),
    binary main_v34 main_v18 main_v35 (addf : (⟨S4096x4096, .f32⟩ : BufTy).Contents (Elt F) → (⟨S4096x4096, .f32⟩ : BufTy).Contents (Elt F) → (⟨S4096x4096, .f32⟩ : BufTy).Contents (Elt F)),
    unary main_v35 main_v36 (Host.log : (⟨S4096x4096, .f32⟩ : BufTy).Contents (Elt F) → (⟨S4096x4096, .f32⟩ : BufTy).Contents (Elt F)),
    unary main_v36 main_v37 (Host.negf : (⟨S4096x4096, .f32⟩ : BufTy).Contents (Elt F) → (⟨S4096x4096, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096x4096, .f32⟩) main_call1_v0) (broadcastInDim S4096x4096 ![] bcast_S_S4096x4096),
    TRef.binary (TRef.of (T := ⟨S4096x4096, .f32⟩) main_v37) (TRef.of (T := ⟨S4096x4096, .f32⟩) main_call1_v0) (TRef.of (T := ⟨S4096x4096, .i1⟩) main_call1_v1) (cmpf .une),
    TRef.unary (TRef.of (T := ⟨S4096x4096, .i1⟩) main_call1_v1) (TRef.of (T := ⟨S4096x4096, .i32⟩) main_call1_v2) (extui 32 · natLt_1_32),
    TRef.nullary (TRef.of (T := ⟨S_, .i32⟩) main_call1_c) (constantI S_ 32 0#32),
    TRef.binary (TRef.of (T := ⟨S4096x4096, .i32⟩) main_call1_v2) (TRef.of (T := ⟨S_, .i32⟩) main_call1_c) (TRef.of (T := ⟨S_, .i32⟩) main_v38) (fun x v => Host.reduce IntOp.addi x v reducesTo_S4096x4096_S_d0_1 h_S_),
    unary main_v38 main_v39 (sitofp .f32 : (⟨S_, .i32⟩ : BufTy).Contents (Elt F) → (⟨S_, .f32⟩ : BufTy).Contents (Elt F)),
    nullary main_cst_4 (constant S_ .f32 0x00000000#32),
    binary main_v37 main_cst_4 main_v40 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    binary main_v40 main_v39 main_v41 (Host.divf : (⟨S_, .f32⟩ : BufTy).Contents (Elt F) → (⟨S_, .f32⟩ : BufTy).Contents (Elt F) → (⟨S_, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., unary_bufs_sub .., unary_bufs_sub .., unary_bufs_sub .., unary_bufs_sub .., binary_bufs_sub .., unary_bufs_sub .., nullary_bufs_sub .., nullary_bufs_sub .., nullary_bufs_sub .., unary_bufs_sub .., binary_bufs_sub .., binary_bufs_sub .., unary_bufs_sub .., nullary_bufs_sub .., unary_bufs_sub .., binary_bufs_sub .., unary_bufs_sub .., nullary_bufs_sub .., unary_bufs_sub .., binary_bufs_sub .., binary_bufs_sub .., binary_bufs_sub .., binary_bufs_sub .., nullary_bufs_sub .., binary_bufs_sub .., unary_bufs_sub .., unary_bufs_sub .., binary_bufs_sub .., binary_bufs_sub .., nullary_bufs_sub .., unary_bufs_sub .., binary_bufs_sub .., binary_bufs_sub .., binary_bufs_sub .., unary_bufs_sub .., unary_bufs_sub .., nullary_bufs_sub .., unary_bufs_sub .., binary_bufs_sub .., unary_bufs_sub .., nullary_bufs_sub .., binary_bufs_sub .., unary_bufs_sub .., nullary_bufs_sub .., binary_bufs_sub .., binary_bufs_sub ..⟩

/-- The buffer each operation writes, in order. -/
abbrev Wr : List (Ref sig .tc) :=
  [main_call0_v0, main_call0_cst, main_call0_v1, main_call0_v2, main_v0, main_cst, main_v1, main_v2, main_v3, main_v4, main_v5, main_v6, main_v7, main_v8, main_v9, main_v10, main_v11, main_v12, main_v13, main_v14, main_c, main_v15, main_v16, main_v17, main_v18, main_cst_0, main_v19, main_v20, main_v21, main_cst_1, main_v22, main_v23, main_v24, main_v25, main_v26, main_cst_2, main_v27, main_v28, main_v29, main_v30, main_v31, main_cst_3, main_v32, main_v33, main_v34, main_v35, main_v36, main_v37, main_call1_cst, main_call1_v0, main_call1_v1, main_call1_v2, main_call1_c, main_v38, main_v39, main_cst_4, main_v40, main_v41]

set_option maxRecDepth 8192 in
/-- Operation by operation, the one buffer it writes. -/
theorem writesOnly : WritesOnly (ops (F := F)) Wr := by
  unfold WritesOnly
  repeat (first | exact List.Forall₂.nil | refine List.Forall₂.cons (Finset.Subset.refl _) ?_)

/-- Every weakly fair execution of @main terminates with each buffer at the fold of the operations over the launch
    contents. -/
theorem raw_run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (ops (F := F)) (launchContents m c) (Proc.devRef .tc b) :=
  run_seq scopedRefs_eq scopedSems_eq defs main (fun _ => ops) main_eq (fun _ => ops_sub) m ρ

/-- The two arguments are written by no operation. -/
theorem at_main_arg0 (V : Valuation τ sig (Elt F)) :
    after (ops (F := F)) V (Proc.devRef .tc main_arg0) = V (Proc.devRef .tc main_arg0) :=
  after_of_not_mem_writesOnly writesOnly V main_arg0 (by decide)
theorem at_main_arg1 (V : Valuation τ sig (Elt F)) :
    after (ops (F := F)) V (Proc.devRef .tc main_arg1) = V (Proc.devRef .tc main_arg1) :=
  after_of_not_mem_writesOnly writesOnly V main_arg1 (by decide)

end Cert.ReferenceIdeal.RefValue

end
-- ==== Proof.RefChainA.lean ====
/-
  The reference's run, buffer by buffer (the first twenty operations): what the whole line of operations leaves in each buffer is the stage
  function of that buffer, applied to the two arguments' launch contents.  Each buffer costs one step: its operation's
  function of what the line leaves in the operands, which earlier steps have already named.
-/
import proofs.«127660_j48911087567313_2_alg».proof.Proof.RefRun
import proofs.«127660_j48911087567313_2_alg».proof.Proof.RefStages

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

theorem at_main_call0_v0 (V : Valuation τ sig (Elt F)) :
    after (ops (F := F)) V (Proc.devRef .tc main_call0_v0) = val_main_call0_v0 (F := F) (V (Proc.devRef .tc main_arg0)) := by
  rw [after_binary_at writesOnly 0 V (a := main_arg0) (b := main_arg0) (y := main_call0_v0) rfl (by decide) (by decide) (by decide),
    at_main_arg0 V]
  rfl

theorem at_main_call0_cst (V : Valuation τ sig (Elt F)) :
    after (ops (F := F)) V (Proc.devRef .tc main_call0_cst) = val_main_call0_cst (F := F) := by
  rw [after_nullary_at writesOnly 1 V (y := main_call0_cst) rfl (by decide)]
  rfl

theorem at_main_call0_v1 (V : Valuation τ sig (Elt F)) :
    after (ops (F := F)) V (Proc.devRef .tc main_call0_v1) = val_main_call0_v1 (F := F) (V (Proc.devRef .tc main_arg0)) := by
  rw [after_binary_at writesOnly 2 V (a := main_call0_v0) (b := main_call0_cst) (y := main_call0_v1) rfl (by decide) (by decide) (by decide),
    at_main_call0_v0 V,
    at_main_call0_cst V]
  rfl

theorem at_main_call0_v2 (V : Valuation τ sig (Elt F)) :
    after (ops (F := F)) V (Proc.devRef .tc main_call0_v2) = val_main_call0_v2 (F := F) (V (Proc.devRef .tc main_arg0)) := by
  rw [after_unary_at writesOnly 3 V (x := main_call0_v1) (y := main_call0_v2) rfl (by decide) (by decide),
    at_main_call0_v1 V]
  rfl

theorem at_main_v0 (V : Valuation τ sig (Elt F)) :
    after (ops (F := F)) V (Proc.devRef .tc main_v0) = val_main_v0 (F := F) (V (Proc.devRef .tc main_arg0)) := by
  rw [after_unary_at writesOnly 4 V (x := main_call0_v2) (y := main_v0) rfl (by decide) (by decide),
    at_main_call0_v2 V]
  rfl

theorem at_main_cst (V : Valuation τ sig (Elt F)) :
    after (ops (F := F)) V (Proc.devRef .tc main_cst) = val_main_cst (F := F) := by
  rw [after_nullary_at writesOnly 5 V (y := main_cst) rfl (by decide)]
  rfl

theorem at_main_v1 (V : Valuation τ sig (Elt F)) :
    after (ops (F := F)) V (Proc.devRef .tc main_v1) = val_main_v1 (F := F) := by
  rw [after_unary_at writesOnly 6 V (x := main_cst) (y := main_v1) rfl (by decide) (by decide),
    at_main_cst V]
  rfl

theorem at_main_v2 (V : Valuation τ sig (Elt F)) :
    after (ops (F := F)) V (Proc.devRef .tc main_v2) = val_main_v2 (F := F) (V (Proc.devRef .tc main_arg0)) := by
  rw [after_binary_at writesOnly 7 V (a := main_v0) (b := main_v1) (y := main_v2) rfl (by decide) (by decide) (by decide),
    at_main_v0 V,
    at_main_v1 V]
  rfl

theorem at_main_v3 (V : Valuation τ sig (Elt F)) :
    after (ops (F := F)) V (Proc.devRef .tc main_v3) = val_main_v3 (F := F) (V (Proc.devRef .tc main_arg0)) := by
  rw [after_unary_at writesOnly 8 V (x := main_v2) (y := main_v3) rfl (by decide) (by decide),
    at_main_v2 V]
  rfl

theorem at_main_v4 (V : Valuation τ sig (Elt F)) :
    after (ops (F := F)) V (Proc.devRef .tc main_v4) = val_main_v4 (F := F) (V (Proc.devRef .tc main_arg0)) := by
  rw [after_binary_at writesOnly 9 V (a := main_arg0) (b := main_v3) (y := main_v4) rfl (by decide) (by decide) (by decide),
    at_main_arg0 V,
    at_main_v3 V]
  rfl

theorem at_main_v5 (V : Valuation τ sig (Elt F)) :
    after (ops (F := F)) V (Proc.devRef .tc main_v5) = val_main_v5 (F := F) (V (Proc.devRef .tc main_arg0)) := by
  rw [after_unary_at writesOnly 10 V (x := main_v4) (y := main_v5) rfl (by decide) (by decide),
    at_main_v4 V]
  rfl

theorem at_main_v6 (V : Valuation τ sig (Elt F)) :
    after (ops (F := F)) V (Proc.devRef .tc main_v6) = val_main_v6 (F := F) (V (Proc.devRef .tc main_arg0)) := by
  rw [after_binary_at writesOnly 11 V (a := main_v4) (b := main_v5) (y := main_v6) rfl (by decide) (by decide) (by decide),
    at_main_v4 V,
    at_main_v5 V]
  rfl

theorem at_main_v7 (V : Valuation τ sig (Elt F)) :
    after (ops (F := F)) V (Proc.devRef .tc main_v7) = val_main_v7 (F := F) (V (Proc.devRef .tc main_arg1)) := by
  rw [after_unary_at writesOnly 12 V (x := main_arg1) (y := main_v7) rfl (by decide) (by decide),
    at_main_arg1 V]
  rfl

theorem at_main_v8 (V : Valuation τ sig (Elt F)) :
    after (ops (F := F)) V (Proc.devRef .tc main_v8) = val_main_v8 (F := F) (V (Proc.devRef .tc main_arg1)) := by
  rw [after_unary_at writesOnly 13 V (x := main_arg1) (y := main_v8) rfl (by decide) (by decide),
    at_main_arg1 V]
  rfl

theorem at_main_v9 (V : Valuation τ sig (Elt F)) :
    after (ops (F := F)) V (Proc.devRef .tc main_v9) = val_main_v9 (F := F) (V (Proc.devRef .tc main_arg1)) := by
  rw [after_unary_at writesOnly 14 V (x := main_v7) (y := main_v9) rfl (by decide) (by decide),
    at_main_v7 V]
  rfl

theorem at_main_v10 (V : Valuation τ sig (Elt F)) :
    after (ops (F := F)) V (Proc.devRef .tc main_v10) = val_main_v10 (F := F) (V (Proc.devRef .tc main_arg1)) := by
  rw [after_unary_at writesOnly 15 V (x := main_v8) (y := main_v10) rfl (by decide) (by decide),
    at_main_v8 V]
  rfl

theorem at_main_v11 (V : Valuation τ sig (Elt F)) :
    after (ops (F := F)) V (Proc.devRef .tc main_v11) = val_main_v11 (F := F) (V (Proc.devRef .tc main_arg1)) := by
  rw [after_binary_at writesOnly 16 V (a := main_v9) (b := main_v10) (y := main_v11) rfl (by decide) (by decide) (by decide),
    at_main_v9 V,
    at_main_v10 V]
  rfl

theorem at_main_v12 (V : Valuation τ sig (Elt F)) :
    after (ops (F := F)) V (Proc.devRef .tc main_v12) = val_main_v12 (F := F) (V (Proc.devRef .tc main_arg1)) := by
  rw [after_unary_at writesOnly 17 V (x := main_v11) (y := main_v12) rfl (by decide) (by decide),
    at_main_v11 V]
  rfl

theorem at_main_v13 (V : Valuation τ sig (Elt F)) :
    after (ops (F := F)) V (Proc.devRef .tc main_v13) = val_main_v13 (F := F) := by
  rw [after_nullary_at writesOnly 18 V (y := main_v13) rfl (by decide)]
  rfl

theorem at_main_v14 (V : Valuation τ sig (Elt F)) :
    after (ops (F := F)) V (Proc.devRef .tc main_v14) = val_main_v14 (F := F) := by
  rw [after_nullary_at writesOnly 19 V (y := main_v14) rfl (by decide)]
  rfl

end Cert.ReferenceIdeal.RefValue

end
-- ==== Proof.RefChainB.lean ====
/-
  The reference's run, buffer by buffer (operations twenty to thirty-nine): what the whole line of operations leaves in each buffer is the stage
  function of that buffer, applied to the two arguments' launch contents.  Each buffer costs one step: its operation's
  function of what the line leaves in the operands, which earlier steps have already named.
-/
import proofs.«127660_j48911087567313_2_alg».proof.Proof.RefChainA

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

theorem at_main_c (V : Valuation τ sig (Elt F)) :
    after (ops (F := F)) V (Proc.devRef .tc main_c) = val_main_c (F := F) := by
  rw [after_nullary_at writesOnly 20 V (y := main_c) rfl (by decide)]
  rfl

theorem at_main_v15 (V : Valuation τ sig (Elt F)) :
    after (ops (F := F)) V (Proc.devRef .tc main_v15) = val_main_v15 (F := F) := by
  rw [after_unary_at writesOnly 21 V (x := main_c) (y := main_v15) rfl (by decide) (by decide),
    at_main_c V]
  rfl

theorem at_main_v16 (V : Valuation τ sig (Elt F)) :
    after (ops (F := F)) V (Proc.devRef .tc main_v16) = val_main_v16 (F := F) := by
  rw [after_binary_at writesOnly 22 V (a := main_v13) (b := main_v15) (y := main_v16) rfl (by decide) (by decide) (by decide),
    at_main_v13 V,
    at_main_v15 V]
  rfl

theorem at_main_v17 (V : Valuation τ sig (Elt F)) :
    after (ops (F := F)) V (Proc.devRef .tc main_v17) = val_main_v17 (F := F) := by
  rw [after_binary_at writesOnly 23 V (a := main_v16) (b := main_v14) (y := main_v17) rfl (by decide) (by decide) (by decide),
    at_main_v16 V,
    at_main_v14 V]
  rfl

theorem at_main_v18 (V : Valuation τ sig (Elt F)) :
    after (ops (F := F)) V (Proc.devRef .tc main_v18) = val_main_v18 (F := F) := by
  rw [after_unary_at writesOnly 24 V (x := main_v17) (y := main_v18) rfl (by decide) (by decide),
    at_main_v17 V]
  rfl

theorem at_main_cst_0 (V : Valuation τ sig (Elt F)) :
    after (ops (F := F)) V (Proc.devRef .tc main_cst_0) = val_main_cst_0 (F := F) := by
  rw [after_nullary_at writesOnly 25 V (y := main_cst_0) rfl (by decide)]
  rfl

theorem at_main_v19 (V : Valuation τ sig (Elt F)) :
    after (ops (F := F)) V (Proc.devRef .tc main_v19) = val_main_v19 (F := F) := by
  rw [after_unary_at writesOnly 26 V (x := main_cst_0) (y := main_v19) rfl (by decide) (by decide),
    at_main_cst_0 V]
  rfl

theorem at_main_v20 (V : Valuation τ sig (Elt F)) :
    after (ops (F := F)) V (Proc.devRef .tc main_v20) = val_main_v20 (F := F) (V (Proc.devRef .tc main_arg0)) := by
  rw [after_binary_at writesOnly 27 V (a := main_v6) (b := main_v19) (y := main_v20) rfl (by decide) (by decide) (by decide),
    at_main_v6 V,
    at_main_v19 V]
  rfl

theorem at_main_v21 (V : Valuation τ sig (Elt F)) :
    after (ops (F := F)) V (Proc.devRef .tc main_v21) = val_main_v21 (F := F) (V (Proc.devRef .tc main_arg0)) := by
  rw [after_unary_at writesOnly 28 V (x := main_v20) (y := main_v21) rfl (by decide) (by decide),
    at_main_v20 V]
  rfl

theorem at_main_cst_1 (V : Valuation τ sig (Elt F)) :
    after (ops (F := F)) V (Proc.devRef .tc main_cst_1) = val_main_cst_1 (F := F) := by
  rw [after_nullary_at writesOnly 29 V (y := main_cst_1) rfl (by decide)]
  rfl

theorem at_main_v22 (V : Valuation τ sig (Elt F)) :
    after (ops (F := F)) V (Proc.devRef .tc main_v22) = val_main_v22 (F := F) := by
  rw [after_unary_at writesOnly 30 V (x := main_cst_1) (y := main_v22) rfl (by decide) (by decide),
    at_main_cst_1 V]
  rfl

theorem at_main_v23 (V : Valuation τ sig (Elt F)) :
    after (ops (F := F)) V (Proc.devRef .tc main_v23) = val_main_v23 (F := F) := by
  rw [after_binary_at writesOnly 31 V (a := main_v22) (b := main_v18) (y := main_v23) rfl (by decide) (by decide) (by decide),
    at_main_v22 V,
    at_main_v18 V]
  rfl

theorem at_main_v24 (V : Valuation τ sig (Elt F)) :
    after (ops (F := F)) V (Proc.devRef .tc main_v24) = val_main_v24 (F := F) (V (Proc.devRef .tc main_arg0)) := by
  rw [after_binary_at writesOnly 32 V (a := main_v21) (b := main_v23) (y := main_v24) rfl (by decide) (by decide) (by decide),
    at_main_v21 V,
    at_main_v23 V]
  rfl

theorem at_main_v25 (V : Valuation τ sig (Elt F)) :
    after (ops (F := F)) V (Proc.devRef .tc main_v25) = val_main_v25 (F := F) (V (Proc.devRef .tc main_arg0)) (V (Proc.devRef .tc main_arg1)) := by
  rw [after_binary_at writesOnly 33 V (a := main_v12) (b := main_v24) (y := main_v25) rfl (by decide) (by decide) (by decide),
    at_main_v12 V,
    at_main_v24 V]
  rfl

theorem at_main_v26 (V : Valuation τ sig (Elt F)) :
    after (ops (F := F)) V (Proc.devRef .tc main_v26) = val_main_v26 (F := F) (V (Proc.devRef .tc main_arg0)) (V (Proc.devRef .tc main_arg1)) := by
  rw [after_binary_at writesOnly 34 V (a := main_v24) (b := main_v25) (y := main_v26) rfl (by decide) (by decide) (by decide),
    at_main_v24 V,
    at_main_v25 V]
  rfl

theorem at_main_cst_2 (V : Valuation τ sig (Elt F)) :
    after (ops (F := F)) V (Proc.devRef .tc main_cst_2) = val_main_cst_2 (F := F) := by
  rw [after_nullary_at writesOnly 35 V (y := main_cst_2) rfl (by decide)]
  rfl

theorem at_main_v27 (V : Valuation τ sig (Elt F)) :
    after (ops (F := F)) V (Proc.devRef .tc main_v27) = val_main_v27 (F := F) (V (Proc.devRef .tc main_arg0)) (V (Proc.devRef .tc main_arg1)) := by
  rw [after_binary_at writesOnly 36 V (a := main_v26) (b := main_cst_2) (y := main_v27) rfl (by decide) (by decide) (by decide),
    at_main_v26 V,
    at_main_cst_2 V]
  rfl

theorem at_main_v28 (V : Valuation τ sig (Elt F)) :
    after (ops (F := F)) V (Proc.devRef .tc main_v28) = val_main_v28 (F := F) (V (Proc.devRef .tc main_arg0)) (V (Proc.devRef .tc main_arg1)) := by
  rw [after_unary_at writesOnly 37 V (x := main_v27) (y := main_v28) rfl (by decide) (by decide),
    at_main_v27 V]
  rfl

theorem at_main_v29 (V : Valuation τ sig (Elt F)) :
    after (ops (F := F)) V (Proc.devRef .tc main_v29) = val_main_v29 (F := F) (V (Proc.devRef .tc main_arg0)) (V (Proc.devRef .tc main_arg1)) := by
  rw [after_unary_at writesOnly 38 V (x := main_v28) (y := main_v29) rfl (by decide) (by decide),
    at_main_v28 V]
  rfl

theorem at_main_v30 (V : Valuation τ sig (Elt F)) :
    after (ops (F := F)) V (Proc.devRef .tc main_v30) = val_main_v30 (F := F) (V (Proc.devRef .tc main_arg0)) (V (Proc.devRef .tc main_arg1)) := by
  rw [after_binary_at writesOnly 39 V (a := main_v25) (b := main_v29) (y := main_v30) rfl (by decide) (by decide) (by decide),
    at_main_v25 V,
    at_main_v29 V]
  rfl

end Cert.ReferenceIdeal.RefValue

end
-- ==== Proof.RefChainC.lean ====
/-
  The reference's run, buffer by buffer (the last eighteen operations): what the whole line of operations leaves in each buffer is the stage
  function of that buffer, applied to the two arguments' launch contents.  Each buffer costs one step: its operation's
  function of what the line leaves in the operands, which earlier steps have already named.
-/
import proofs.«127660_j48911087567313_2_alg».proof.Proof.RefChainB

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

theorem at_main_v31 (V : Valuation τ sig (Elt F)) :
    after (ops (F := F)) V (Proc.devRef .tc main_v31) = val_main_v31 (F := F) (V (Proc.devRef .tc main_arg0)) (V (Proc.devRef .tc main_arg1)) := by
  rw [after_binary_at writesOnly 40 V (a := main_v25) (b := main_v30) (y := main_v31) rfl (by decide) (by decide) (by decide),
    at_main_v25 V,
    at_main_v30 V]
  rfl

theorem at_main_cst_3 (V : Valuation τ sig (Elt F)) :
    after (ops (F := F)) V (Proc.devRef .tc main_cst_3) = val_main_cst_3 (F := F) := by
  rw [after_nullary_at writesOnly 41 V (y := main_cst_3) rfl (by decide)]
  rfl

theorem at_main_v32 (V : Valuation τ sig (Elt F)) :
    after (ops (F := F)) V (Proc.devRef .tc main_v32) = val_main_v32 (F := F) := by
  rw [after_unary_at writesOnly 42 V (x := main_cst_3) (y := main_v32) rfl (by decide) (by decide),
    at_main_cst_3 V]
  rfl

theorem at_main_v33 (V : Valuation τ sig (Elt F)) :
    after (ops (F := F)) V (Proc.devRef .tc main_v33) = val_main_v33 (F := F) (V (Proc.devRef .tc main_arg1)) := by
  rw [after_binary_at writesOnly 43 V (a := main_v32) (b := main_v12) (y := main_v33) rfl (by decide) (by decide) (by decide),
    at_main_v32 V,
    at_main_v12 V]
  rfl

theorem at_main_v34 (V : Valuation τ sig (Elt F)) :
    after (ops (F := F)) V (Proc.devRef .tc main_v34) = val_main_v34 (F := F) (V (Proc.devRef .tc main_arg0)) (V (Proc.devRef .tc main_arg1)) := by
  rw [after_binary_at writesOnly 44 V (a := main_v33) (b := main_v31) (y := main_v34) rfl (by decide) (by decide) (by decide),
    at_main_v33 V,
    at_main_v31 V]
  rfl

theorem at_main_v35 (V : Valuation τ sig (Elt F)) :
    after (ops (F := F)) V (Proc.devRef .tc main_v35) = val_main_v35 (F := F) (V (Proc.devRef .tc main_arg0)) (V (Proc.devRef .tc main_arg1)) := by
  rw [after_binary_at writesOnly 45 V (a := main_v34) (b := main_v18) (y := main_v35) rfl (by decide) (by decide) (by decide),
    at_main_v34 V,
    at_main_v18 V]
  rfl

theorem at_main_v36 (V : Valuation τ sig (Elt F)) :
    after (ops (F := F)) V (Proc.devRef .tc main_v36) = val_main_v36 (F := F) (V (Proc.devRef .tc main_arg0)) (V (Proc.devRef .tc main_arg1)) := by
  rw [after_unary_at writesOnly 46 V (x := main_v35) (y := main_v36) rfl (by decide) (by decide),
    at_main_v35 V]
  rfl

theorem at_main_v37 (V : Valuation τ sig (Elt F)) :
    after (ops (F := F)) V (Proc.devRef .tc main_v37) = val_main_v37 (F := F) (V (Proc.devRef .tc main_arg0)) (V (Proc.devRef .tc main_arg1)) := by
  rw [after_unary_at writesOnly 47 V (x := main_v36) (y := main_v37) rfl (by decide) (by decide),
    at_main_v36 V]
  rfl

theorem at_main_call1_cst (V : Valuation τ sig (Elt F)) :
    after (ops (F := F)) V (Proc.devRef .tc main_call1_cst) = val_main_call1_cst (F := F) := by
  rw [after_nullary_at writesOnly 48 V (y := main_call1_cst) rfl (by decide)]
  rfl

theorem at_main_call1_v0 (V : Valuation τ sig (Elt F)) :
    after (ops (F := F)) V (Proc.devRef .tc main_call1_v0) = val_main_call1_v0 (F := F) := by
  rw [after_unary_at writesOnly 49 V (x := main_call1_cst) (y := main_call1_v0) rfl (by decide) (by decide),
    at_main_call1_cst V]
  rfl

theorem at_main_call1_v1 (V : Valuation τ sig (Elt F)) :
    after (ops (F := F)) V (Proc.devRef .tc main_call1_v1) = val_main_call1_v1 (F := F) (V (Proc.devRef .tc main_arg0)) (V (Proc.devRef .tc main_arg1)) := by
  rw [after_binary_at writesOnly 50 V (a := main_v37) (b := main_call1_v0) (y := main_call1_v1) rfl (by decide) (by decide) (by decide),
    at_main_v37 V,
    at_main_call1_v0 V]
  rfl

theorem at_main_call1_v2 (V : Valuation τ sig (Elt F)) :
    after (ops (F := F)) V (Proc.devRef .tc main_call1_v2) = val_main_call1_v2 (F := F) (V (Proc.devRef .tc main_arg0)) (V (Proc.devRef .tc main_arg1)) := by
  rw [after_unary_at writesOnly 51 V (x := main_call1_v1) (y := main_call1_v2) rfl (by decide) (by decide),
    at_main_call1_v1 V]
  rfl

theorem at_main_call1_c (V : Valuation τ sig (Elt F)) :
    after (ops (F := F)) V (Proc.devRef .tc main_call1_c) = val_main_call1_c (F := F) := by
  rw [after_nullary_at writesOnly 52 V (y := main_call1_c) rfl (by decide)]
  rfl

/-- The integer sum of the zero-extended bits is the stage's sum of the same array from the same initial value. -/
theorem at_main_v38 (V : Valuation τ sig (Elt F)) :
    after (ops (F := F)) V (Proc.devRef .tc main_v38) = val_main_v38 (F := F) (V (Proc.devRef .tc main_arg0)) (V (Proc.devRef .tc main_arg1)) := by
  rw [after_binary_at writesOnly 53 V (a := main_call1_v2) (b := main_call1_c) (y := main_v38) rfl (by decide) (by decide) (by decide),
    at_main_call1_v2 V,
    at_main_call1_c V]
  unfold val_main_v38
  show _ = (fun x v => Host.reduce IntOp.addi x v reducesTo_S4096x4096_S_d0_1 h_S_) _ _
  generalize (fun x v => Host.reduce IntOp.addi x v reducesTo_S4096x4096_S_d0_1 h_S_ :
    (⟨S4096x4096, .i32⟩ : BufTy).Contents (Elt F) → (⟨S_, .i32⟩ : BufTy).Contents (Elt F) →
      (⟨S_, .i32⟩ : BufTy).Contents (Elt F)) = R
  rfl

theorem at_main_v39 (V : Valuation τ sig (Elt F)) :
    after (ops (F := F)) V (Proc.devRef .tc main_v39) = val_main_v39 (F := F) (V (Proc.devRef .tc main_arg0)) (V (Proc.devRef .tc main_arg1)) := by
  rw [after_unary_at writesOnly 54 V (x := main_v38) (y := main_v39) rfl (by decide) (by decide),
    at_main_v38 V]
  rfl

theorem at_main_cst_4 (V : Valuation τ sig (Elt F)) :
    after (ops (F := F)) V (Proc.devRef .tc main_cst_4) = val_main_cst_4 (F := F) := by
  rw [after_nullary_at writesOnly 55 V (y := main_cst_4) rfl (by decide)]
  rfl

theorem at_main_v40 (V : Valuation τ sig (Elt F)) :
    after (ops (F := F)) V (Proc.devRef .tc main_v40) = val_main_v40 (F := F) (V (Proc.devRef .tc main_arg0)) (V (Proc.devRef .tc main_arg1)) := by
  rw [after_binary_at writesOnly 56 V (a := main_v37) (b := main_cst_4) (y := main_v40) rfl (by decide) (by decide) (by decide),
    at_main_v37 V,
    at_main_cst_4 V]
  rfl

theorem at_main_v41 (V : Valuation τ sig (Elt F)) :
    after (ops (F := F)) V (Proc.devRef .tc main_v41) = val_main_v41 (F := F) (V (Proc.devRef .tc main_arg0)) (V (Proc.devRef .tc main_arg1)) := by
  rw [after_binary_at writesOnly 57 V (a := main_v40) (b := main_v39) (y := main_v41) rfl (by decide) (by decide) (by decide),
    at_main_v40 V,
    at_main_v39 V]
  rfl

end Cert.ReferenceIdeal.RefValue

end
-- ==== Proof.RefMathA.lean ====
/-
  The reference's stages, read entry by entry (first part): the normalised table, the similarities, the label mask and
  the identity matrix.

  Row `r` of the table is divided by the larger of its Euclidean norm and the floor; the similarity of rows `r` and `j` is
  the contraction of the normalised table with its transpose; the mask is the 0/1 value of "labels equal" and the
  identity matrix the 0/1 value of "row index equals column index" (two indices below `4096` are equal as 32-bit words
  only if they are equal).
-/
import proofs.«127660_j48911087567313_2_alg».proof.Proof.RefStages
import proofs.«127660_j48911087567313_2_alg».proof.Proof.Spec
import Idealize.ShloMosaic.Lib.Affine

noncomputable section

open scoped BigOperators

namespace Cert.ReferenceIdeal.RefValue

open Cert.ReferenceIdeal Cert.ReferenceIdeal.ReadP Cert.PairLoss Idealize.ShloMosaic Idealize.ShloMosaic.ValueIdx

/-! ## Constants and one-bit words -/

/-- The word `0x3F800000` denotes `1`. -/
theorem ofBits_one : Ideal.ofBits .f32 0x3F800000#32 = 1 := by
  simp [Ideal.ofBits, Ideal.ieee]
  rw [← EReal.coe_mul, ← EReal.coe_one]
  exact congrArg _ (by norm_num)

/-- The word `0x3F000000` denotes `1/2`. -/
theorem ofBits_half : Ideal.ofBits .f32 0x3F000000#32 = half := by
  unfold half
  simp [Ideal.ofBits, Ideal.ieee]
  rw [← EReal.coe_mul]
  exact congrArg _ (by norm_num)

/-- A one-bit word is `0` or `1`. -/
theorem i1_cases (b : BitVec 1) : b = 0#1 ∨ b = 1#1 := by revert b; decide

/-- A one-bit word read unsigned as a float is `1` or `0`. -/
theorem uitofp_i1 (b : BitVec 1) :
    (FloatOps.uitofp (F := Ideal) .f32 b : EReal) = if b = 1#1 then (1 : EReal) else 0 := by
  have e : (FloatOps.uitofp (F := Ideal) .f32 b : EReal) = ((b.toNat : ℝ) : EReal) := rfl
  rw [e]
  rcases i1_cases b with rfl | rfl <;> simp

/-- Two indices below `4096` are equal as 32-bit words only if they are equal. -/
theorem ofNat_eq_iff (a b : Fin 4096) : BitVec.ofNat 32 a.val = BitVec.ofNat 32 b.val ↔ a = b := by
  constructor
  · intro h
    have h' := congrArg BitVec.toNat h
    have ha := a.isLt
    have hb := b.isLt
    rw [BitVec.toNat_ofNat, BitVec.toNat_ofNat, Nat.mod_eq_of_lt (by omega), Nat.mod_eq_of_lt (by omega)] at h'
    exact Fin.ext h'
  · rintro rfl; rfl

/-! ## The normalised table -/

theorem idx_norm (i : S4096x256.Idx) (k : Fin 256) :
    idx_main_call0_v1 (idx_main_call0_v2 (idx_main_v3 i)) k = ix2 (i 0) k :=
  funext fun a => Fin.ext (by match a with | ⟨0, _⟩ => rfl | ⟨1, _⟩ => rfl)

/-- The divided table is the normalised table. -/
theorem v4_eq (x : (⟨S4096x256, .f32⟩ : BufTy).Contents (Elt Ideal)) (i : S4096x256.Idx) :
    val_main_v4 (F := Ideal) x i = normed x i := by
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, idx_norm, Ideal.hostDivf_def, Ideal.maximumf_def, Ideal.hostUnary_sqrt_def,
    Ideal.ofBits_def, Ideal.mulf_def, Ideal.ofBits_zero_f32, zero_add]
  rfl

theorem v4_fun (x : (⟨S4096x256, .f32⟩ : BufTy).Contents (Elt Ideal)) : val_main_v4 (F := Ideal) x = normed x :=
  funext (v4_eq x)

/-! ## The similarities -/

theorem lidx_sim (i : S4096x4096.Idx) (k : Fin 256) : lidx_main_v6 i k = ix2 (i 0) k :=
  funext fun a => Fin.ext (by match a with | ⟨0, _⟩ => rfl | ⟨1, _⟩ => rfl)
theorem ridx_sim (i : S4096x4096.Idx) (k : Fin 256) : idx_main_v5 (ridx_main_v6 i k) = ix2 (i 1) k :=
  funext fun a => Fin.ext (by match a with | ⟨0, _⟩ => rfl | ⟨1, _⟩ => rfl)

/-- The contraction of the normalised table with its transpose is the similarity. -/
theorem v6_eq (x : (⟨S4096x256, .f32⟩ : BufTy).Contents (Elt Ideal)) (i : S4096x4096.Idx) :
    val_main_v6 (F := Ideal) x i = sim (normed x) (i 0) (i 1) := by
  rw [val_main_v6_apply]
  unfold sim
  refine Finset.sum_congr rfl fun k _ => ?_
  rw [val_main_v5_apply, v4_fun, lidx_sim, ridx_sim]
  rfl

/-! ## The label mask -/

theorem idx_col (i : S4096x4096.Idx) : idx_main_v7 (idx_main_v9 i) = ix1 (i 0) :=
  funext fun a => Fin.ext (by match a with | ⟨0, _⟩ => rfl)
theorem idx_row (i : S4096x4096.Idx) : idx_main_v8 (idx_main_v10 i) = ix1 (i 1) :=
  funext fun a => Fin.ext (by match a with | ⟨0, _⟩ => rfl)

/-- The converted comparison of the two broadcast label arrays is the mask. -/
theorem v12_eq (L : (⟨S4096, .i32⟩ : BufTy).Contents (Elt Ideal)) (i : S4096x4096.Idx) :
    val_main_v12 (F := Ideal) L i = mask L (i 0) (i 1) := by
  rw [val_main_v12_apply, val_main_v11_apply, val_main_v9_apply, val_main_v10_apply, val_main_v7_apply,
    val_main_v8_apply, idx_col, idx_row, uitofp_i1]
  unfold mask
  by_cases h : L (ix1 (i 0)) = L (ix1 (i 1))
  · exact (if_pos (IntOp.cmpi_eq.2 h)).trans (if_pos h).symm
  · exact (if_neg (fun hc => h (IntOp.cmpi_eq.1 hc))).trans (if_neg h).symm

/-! ## The identity matrix -/

/-- The converted comparison of the two iotas is the identity matrix. -/
theorem v18_eq (i : S4096x4096.Idx) : val_main_v18 (F := Ideal) i = eye (i 0) (i 1) := by
  rw [val_main_v18_apply, val_main_v17_apply, val_main_v16_apply, val_main_v13_apply, val_main_v14_apply,
    val_main_v15_apply, val_main_c_apply, uitofp_i1]
  unfold eye
  by_cases h : (i 0 : Fin 4096) = i 1
  · exact (if_pos (IntOp.cmpi_eq.2 ((BitVec.add_zero _).trans ((ofNat_eq_iff (i 0) (i 1)).2 h)))).trans (if_pos h).symm
  · exact (if_neg (fun hc => h ((ofNat_eq_iff (i 0) (i 1)).1
      ((BitVec.add_zero _).symm.trans (IntOp.cmpi_eq.1 hc))))).trans (if_neg h).symm

end Cert.ReferenceIdeal.RefValue

end
-- ==== Proof.CountFold.lean ====
/-
  Counting by an integer sum.

  A reduction by 32-bit addition, from zero, of the zero-extensions of one-bit words is the word of the number of
  ones (addition of words is addition of naturals modulo `2^32`, so no bound is needed for this); when that number is
  below `2^31` its signed reading is the number itself.  The rank-2 index set of a square is the product of its two
  coordinate ranges, so the count over it is the count over the pairs.
-/
import Idealize.ShloMosaic.PureOps.Ideal
import Idealize.ShloMosaic.PureOps.Reduce
import Idealize.ShloMosaic.Lib.ValueIdx

noncomputable section

open scoped BigOperators

namespace Cert.PairLoss

open Idealize.ShloMosaic Idealize.ShloMosaic.ValueIdx

/-- A fold by 32-bit addition from zero is the word of the sum of the values. -/
theorem fold_addi_eq_ofNat {ι : Type} (S : Finset ι) (x : ι → BitVec 32) :
    S.fold IntOp.addi 0#32 x = BitVec.ofNat 32 (∑ i ∈ S, (x i).toNat) := by
  induction S using Finset.cons_induction with
  | empty => simp
  | cons a S ha ih =>
    rw [Finset.fold_cons, Finset.sum_cons, ih]
    show x a + BitVec.ofNat 32 _ = _
    rw [BitVec.ofNat_add, BitVec.ofNat_toNat, BitVec.setWidth_eq]

/-- The zero-extension of a one-bit word has value 1 or 0. -/
theorem toNat_setWidth_one (c : BitVec 1) : (c.setWidth 32).toNat = if c = 1#1 then 1 else 0 := by
  revert c; decide

/-- A reduction over all axes by 32-bit addition, from zero, of zero-extended one-bit words: the word of the number of
    ones. -/
theorem reduce_addi_count {s u : Shape} {axes : List (Fin s.rank)} (c : s.Idx → BitVec 1) (init : u.Idx → BitVec 32)
    (hinit : ∀ k, init k = 0#32) (h : s.ReducesTo axes ⟨0, ![]⟩) (hu : 0 < u.numel) (j : (⟨0, ![]⟩ : Shape).Idx) :
    Host.reduce IntOp.addi (fun i => (c i).setWidth 32) init h hu j
      = BitVec.ofNat 32 (Finset.univ.filter fun i => c i = 1#1).card := by
  rw [Host.reduce_eq_fold, hinit,
    Finset.filter_true_of_mem (fun i _ => funext fun b => b.elim0), fold_addi_eq_ofNat, Finset.card_filter]
  simp only [toNat_setWidth_one]

/-- The signed reading of the word of a number below `2^31` is the number. -/
theorem toInt_ofNat_small (n : Nat) (hn : n < 2 ^ 31) : (BitVec.ofNat 32 n).toInt = (n : Int) := by
  have h1 : (BitVec.ofNat 32 n).toNat = n := by
    rw [BitVec.toNat_ofNat]; exact Nat.mod_eq_of_lt (by omega)
  rw [BitVec.toInt_eq_toNat_cond, h1]
  split_ifs <;> omega

/-- The square's index set has `4096 * 4096` elements. -/
theorem card_square : Fintype.card (⟨2, ![4096, 4096]⟩ : Shape).Idx = 4096 * 4096 := by
  rw [Fintype.card_congr (idxEquiv2 (n0 := 4096) (n1 := 4096)), Fintype.card_prod, Fintype.card_fin]

/-- A count over the square's index set is the count over the pairs of coordinates. -/
theorem card_filter_square (p : Fin 4096 → Fin 4096 → Prop)
    [DecidablePred fun i : (⟨2, ![4096, 4096]⟩ : Shape).Idx => p (i 0) (i 1)]
    [DecidablePred fun q : Fin 4096 × Fin 4096 => p q.1 q.2] :
    (Finset.univ.filter fun i : (⟨2, ![4096, 4096]⟩ : Shape).Idx => p (i 0) (i 1)).card
      = (Finset.univ.filter fun q : Fin 4096 × Fin 4096 => p q.1 q.2).card := by
  rw [Finset.card_filter, Finset.card_filter, sum_idx2, Fintype.sum_prod_type]
  refine Finset.sum_congr rfl fun a _ => Finset.sum_congr rfl fun b _ => ?_
  split_ifs <;> rfl

/-- The count as the program computes it, read as a real number: the signed reading of the word of the count. -/
theorem count_real (p : Fin 4096 → Fin 4096 → Prop)
    {_ : DecidablePred fun i : (⟨2, ![4096, 4096]⟩ : Shape).Idx => p (i 0) (i 1)}
    {_ : DecidablePred fun q : Fin 4096 × Fin 4096 => p q.1 q.2} :
    (((BitVec.ofNat 32 (Finset.univ.filter fun i : (⟨2, ![4096, 4096]⟩ : Shape).Idx => p (i 0) (i 1)).card).toInt : ℝ) : EReal)
      = (((Finset.univ.filter fun q : Fin 4096 × Fin 4096 => p q.1 q.2).card : ℝ) : EReal) := by
  rw [toInt_ofNat_small, card_filter_square]
  · norm_cast
  · calc (Finset.univ.filter fun i : (⟨2, ![4096, 4096]⟩ : Shape).Idx => p (i 0) (i 1)).card
        ≤ Fintype.card (⟨2, ![4096, 4096]⟩ : Shape).Idx := Finset.card_le_univ _
      _ = 4096 * 4096 := card_square
      _ < 2 ^ 31 := by norm_num

end Cert.PairLoss

end
-- ==== Proof.RefMathB.lean ====
/-
  The reference's stages, read entry by entry (second part): the exponentials with the diagonal zeroed, the positives,
  the negatives' row sums, the loss entries, their total, the count of the nonzero ones, and the quotient.

  Each stage is, entry by entry, the matrix spelling of the loss at the normalised table.  The count is the one stage
  that is not elementwise: it is an integer sum of the 0/1 values of "entry is not zero", which is the number of such
  entries, converted to a float.
-/
import proofs.«127660_j48911087567313_2_alg».proof.Proof.RefMathA
import proofs.«127660_j48911087567313_2_alg».proof.Proof.CountFold

noncomputable section

open scoped BigOperators

namespace Cert.ReferenceIdeal.RefValue

open Cert.ReferenceIdeal Cert.ReferenceIdeal.Gen Cert.ReferenceIdeal.ReadP Cert.PairLoss Idealize.ShloMosaic Idealize.ShloMosaic.ValueIdx

/-- The exponentials with the diagonal zeroed. -/
theorem v24_eq (x : (⟨S4096x256, .f32⟩ : BufTy).Contents (Elt Ideal)) (i : S4096x4096.Idx) :
    val_main_v24 (F := Ideal) x i = expM (normed x) (i 0) (i 1) := by
  rw [val_main_v24_apply, val_main_v21_apply, val_main_v20_apply, v6_eq, val_main_v19_apply, val_main_cst_0_apply,
    val_main_v23_apply, val_main_v22_apply, val_main_cst_1_apply, v18_eq]
  simp only [Ideal.mulf_def, Ideal.hostUnary_exp_def, Ideal.hostDivf_def, Ideal.subf_def, Ideal.ofBits_def, ofBits_half,
    ofBits_one]
  rfl

/-- The positives. -/
theorem v25_eq (x : (⟨S4096x256, .f32⟩ : BufTy).Contents (Elt Ideal)) (L : (⟨S4096, .i32⟩ : BufTy).Contents (Elt Ideal)) (i : S4096x4096.Idx) :
    val_main_v25 (F := Ideal) x L i = posM (normed x) L (i 0) (i 1) := by
  rw [val_main_v25_apply, v12_eq, v24_eq]
  rfl

/-- The negatives' sum of a row. -/
theorem v27_eq (x : (⟨S4096x256, .f32⟩ : BufTy).Contents (Elt Ideal)) (L : (⟨S4096, .i32⟩ : BufTy).Contents (Elt Ideal)) (r : S4096.Idx) :
    val_main_v27 (F := Ideal) x L r = negM (normed x) L (r 0) := by
  rw [val_main_v27_apply, val_main_cst_2_apply]
  simp only [Ideal.ofBits_def, Ideal.ofBits_zero_f32, zero_add]
  unfold negM
  refine Finset.sum_congr rfl fun k _ => ?_
  rw [val_main_v26_apply, v24_eq, v25_eq]
  rfl

/-- The loss entry. -/
theorem v37_eq (x : (⟨S4096x256, .f32⟩ : BufTy).Contents (Elt Ideal)) (L : (⟨S4096, .i32⟩ : BufTy).Contents (Elt Ideal)) (i : S4096x4096.Idx) :
    val_main_v37 (F := Ideal) x L i = lossM (normed x) L (i 0) (i 1) := by
  rw [val_main_v37_apply, val_main_v36_apply, val_main_v35_apply, val_main_v34_apply, val_main_v33_apply,
    val_main_v32_apply, val_main_cst_3_apply, v12_eq, val_main_v31_apply, val_main_v30_apply, v25_eq,
    val_main_v29_apply, val_main_v28_apply, v27_eq, v18_eq]
  simp only [Ideal.hostNegf_def, Ideal.negf_def, Ideal.hostUnary_log_def, Ideal.addf_def, Ideal.subf_def,
    Ideal.hostDivf_def, Ideal.ofBits_def, ofBits_one]
  rfl

/-- The total of the loss entries. -/
theorem v40_eq (x : (⟨S4096x256, .f32⟩ : BufTy).Contents (Elt Ideal)) (L : (⟨S4096, .i32⟩ : BufTy).Contents (Elt Ideal)) (i : S_.Idx) :
    val_main_v40 (F := Ideal) x L i = ∑ r : Fin 4096, ∑ j : Fin 4096, lossM (normed x) L r j := by
  rw [val_main_v40_apply, val_main_cst_4_apply]
  simp only [Ideal.ofBits_def, Ideal.ofBits_zero_f32, zero_add]
  rw [sum_idx2]
  exact Finset.sum_congr rfl fun a _ => Finset.sum_congr rfl fun b _ => v37_eq x L (ix2 a b)

/-- An entry's 0/1 value of "is not zero" is 1 exactly when the entry is not zero. -/
theorem call1_v1_eq_one (x : (⟨S4096x256, .f32⟩ : BufTy).Contents (Elt Ideal)) (L : (⟨S4096, .i32⟩ : BufTy).Contents (Elt Ideal)) (j : S4096x4096.Idx) :
    val_main_call1_v1 (F := Ideal) x L j = 1#1 ↔ lossM (normed x) L (j 0) (j 1) ≠ 0 := by
  rw [val_main_call1_v1_apply, v37_eq, val_main_call1_v0_apply, val_main_call1_cst_apply]
  simp only [Ideal.cmpf_def, Ideal.ofBits_def, Ideal.ofBits_zero_f32]
  unfold Ideal.cmp
  by_cases h : lossM (normed x) L (j 0) (j 1) = 0
  · simp [h]
  · simp [h]

/-- The count of the nonzero entries, as the program computes it. -/
theorem v39_eq (x : (⟨S4096x256, .f32⟩ : BufTy).Contents (Elt Ideal)) (L : (⟨S4096, .i32⟩ : BufTy).Contents (Elt Ideal)) (i : S_.Idx) :
    val_main_v39 (F := Ideal) x L i = cntM (normed x) L := by
  have h38 : val_main_v38 (F := Ideal) x L i
      = BitVec.ofNat 32 (Finset.univ.filter fun j => val_main_call1_v1 (F := Ideal) x L j = 1#1).card :=
    reduce_addi_count (val_main_call1_v1 (F := Ideal) x L) (val_main_call1_c (F := Ideal)) (fun _ => rfl)
      Facts₀.reducesTo_S4096x4096_S_d0_1 Facts₀.h_S_ i
  have hf : (Finset.univ.filter fun j => val_main_call1_v1 (F := Ideal) x L j = 1#1)
      = Finset.univ.filter fun j : S4096x4096.Idx => lossM (normed x) L (j 0) (j 1) ≠ 0 :=
    Finset.filter_congr fun j _ => call1_v1_eq_one x L j
  rw [val_main_v39_apply, h38, hf]
  unfold cntM
  exact count_real (fun a b => lossM (normed x) L a b ≠ 0)

/-- The reference's result: the matrix spelling of the loss at the normalised table. -/
theorem result_eq (x : (⟨S4096x256, .f32⟩ : BufTy).Contents (Elt Ideal)) (L : (⟨S4096, .i32⟩ : BufTy).Contents (Elt Ideal)) :
    val_main_v41 (F := Ideal) x L = fun _ => lossMatrix (normed x) L := by
  funext i
  rw [val_main_v41_apply, v40_eq, v39_eq]
  rfl

end Cert.ReferenceIdeal.RefValue

end
-- ==== Proof.RefRead.lean ====
/-
  The reference's run: every weakly fair execution of the reference terminates with its result buffer holding, at its
  one index, the matrix spelling of the pairwise loss at the row-normalised table and the labels, and with the two
  arguments unchanged.

  The run leaves each buffer at the fold of the operations over the launch contents; read buffer by buffer that fold is
  the last stage's function of the two arguments, and entry by entry that stage is the loss.
-/
import proofs.«127660_j48911087567313_2_alg».proof.Proof.RefChainC
import proofs.«127660_j48911087567313_2_alg».proof.Proof.RefMathB

noncomputable section

namespace Cert.ReferenceIdeal.RefValue

open Cert.ReferenceIdeal Cert.ReferenceIdeal.Gen Cert.ReferenceIdeal.ReadP Cert.PairLoss Idealize.ShloMosaic Idealize.ShloMosaic.TcCoe Idealize.SL.Sem Idealize.ShloMosaic.StableHlo

/-- What the whole line of operations leaves in the result buffer, from contents `V`: the loss at `V`'s arguments. -/
theorem after_result (V : Valuation τ sig (Elt Ideal)) :
    after (ops (F := Ideal)) V (Proc.devRef .tc main_v41)
      = fun _ => lossMatrix (normed (V (Proc.devRef .tc main_arg0))) (V (Proc.devRef .tc main_arg1)) :=
  (at_main_v41 V).trans (result_eq _ _)

/-- The reference's run. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41)
          = (fun _ => lossMatrix (normed (m ((c.tc : Thread nD τ).loc main_arg0))) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v41).trans (after_result (launchContents m c)),
      (h c main_arg0).trans (at_main_arg0 (launchContents m c)),
      (h c main_arg1).trans (at_main_arg1 (launchContents m c))⟩)
    (raw_run m ρ)

end Cert.ReferenceIdeal.RefValue

end
-- ==== Proof.LibFiniteAll.lean ====
/-
  `all (|a| < +inf)` at the ideal values: every entry of `a` is a real number.

  At the ideal values an entry of a float array is an extended real, `|a|` is `max a (-a)` and the f32 word
  `0x7F800000` is `+inf`.  So `|a| < +inf` excludes exactly the two infinities, and what is left is a real number.
  A reduction by `and` from `true` over all axes is `true` only if every entry is, which gives the statement for a
  whole array of any shape (`all_real`), in the form a precondition "every float input is finite" prints it: the
  comparison of `abs a` against the scalar `0x7F800000` broadcast to `a`'s shape, reduced to a rank-0 result.
-/
import Idealize.ShloMosaic.PureOps.Ideal
import Idealize.ShloMosaic.Lib.ReduceAll
import Idealize.ShloMosaic.Lib.ValueIdx
import Idealize.ShloMosaic.Lib.Pipeline.Value

noncomputable section

namespace Idealize.ShloMosaic.FiniteAll

open Idealize.ShloMosaic

/-- The word `0x7F800000` denotes `+inf`. -/
theorem inf_word : Ideal.ofBits .f32 0x7F800000#32 = ⊤ := by
  simp [Ideal.ofBits, Ideal.ieee]

/-- An extended real whose absolute value is below `+inf` is a real number. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

/-- A rank-0 array has one index. -/
instance subsingleton_idx0 : Subsingleton (⟨0, ![]⟩ : Shape).Idx := ⟨fun _ _ => funext fun d => d.elim0⟩

/-- One array: if `all (|a| < +inf)` is `true` then every entry of `a` is a real number. -/
theorem all_real {s : Shape} {axes : List (Fin s.rank)} (a : FVec Ideal s .f32)
    (bc : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (cmpf .olt (Host.absf a) (broadcastInDim s ![] bc (constant ⟨0, ![]⟩ .f32 0x7F800000#32)))
          init hr hu ValueIdx.ix0 = 1#1)
    (i : s.Idx) : ∃ r : ℝ, a i = r := by
  have h := Host.reduce_andi_all _ init hr hu ValueIdx.ix0 e i
  refine real_of_abs_lt_inf (a i) ?_
  have hb : broadcastInDim s ![] bc (constant (F := Ideal) ⟨0, ![]⟩ .f32 0x7F800000#32) i
      = Ideal.ofBits .f32 0x7F800000#32 :=
    broadcastInDim_apply _ bc _ i ValueIdx.ix0 (fun a => a.elim0)
  rw [← hb]
  exact h

end Idealize.ShloMosaic.FiniteAll

end
-- ==== Proof.PreDecode.lean ====
/-
  The printed precondition, decoded into two plain facts.

  The precondition is the conjunction of `all (|x| < +inf)` with `any (L[:,None] != L[None,:])`.  The first conjunct is
  an AND-reduction from `true` over every entry; it says that every entry of `x` is a real number.  The second is an
  OR-reduction from `false` over all pairs; a left fold by `or` from `false` that is `true` met a `true`, so there are two
  positions whose labels differ, and then every row has a row of another label (one of the two positions serves).
-/
import proofs.«127660_j48911087567313_2_alg».proof.Pre_finite_inputs
import proofs.«127660_j48911087567313_2_alg».proof.Proof.Spec
import proofs.«127660_j48911087567313_2_alg».proof.Proof.LibFiniteAll
import Idealize.ShloMosaic.Lib.ReduceAll
import Idealize.ShloMosaic.Lib.Pipeline.Value

noncomputable section

namespace Cert.PairLoss

open Idealize.ShloMosaic Idealize.ShloMosaic.ValueIdx

/-- An `or` of two `i1` words is 1 only if one of them is. -/
theorem ori_eq_one {c d : BitVec 1} : IntOp.ori c d = 1#1 ↔ c = 1#1 ∨ d = 1#1 := by revert c d; decide

/-- A column broadcast to the square, read at an index: the vector at the index's row. -/
theorem bcast_col_apply {α : Type} (b1 : (⟨1, ![4096]⟩ : Shape).BroadcastsInDim ⟨2, ![4096, 1]⟩ ![0])
    (b2 : (⟨2, ![4096, 1]⟩ : Shape).BroadcastsInDim ⟨2, ![4096, 4096]⟩ ![0, 1]) (v : (⟨1, ![4096]⟩ : Shape).Idx → α)
    (i : (⟨2, ![4096, 4096]⟩ : Shape).Idx) :
    broadcastInDim ⟨2, ![4096, 4096]⟩ ![0, 1] b2 (broadcastInDim ⟨2, ![4096, 1]⟩ ![0] b1 v) i = v (ix1 (i 0)) := by
  rw [broadcastInDim_apply _ b2 _ i (ix2 (i 0) 0) (by intro a; fin_cases a <;> rfl),
    broadcastInDim_apply _ b1 _ (ix2 (i 0) 0) (ix1 (i 0)) (by intro a; fin_cases a; rfl)]

/-- A row broadcast to the square, read at an index: the vector at the index's column. -/
theorem bcast_row_apply {α : Type} (b1 : (⟨1, ![4096]⟩ : Shape).BroadcastsInDim ⟨2, ![1, 4096]⟩ ![1])
    (b2 : (⟨2, ![1, 4096]⟩ : Shape).BroadcastsInDim ⟨2, ![4096, 4096]⟩ ![0, 1]) (v : (⟨1, ![4096]⟩ : Shape).Idx → α)
    (i : (⟨2, ![4096, 4096]⟩ : Shape).Idx) :
    broadcastInDim ⟨2, ![4096, 4096]⟩ ![0, 1] b2 (broadcastInDim ⟨2, ![1, 4096]⟩ ![1] b1 v) i = v (ix1 (i 1)) := by
  rw [broadcastInDim_apply _ b2 _ i (ix2 0 (i 1)) (by intro a; fin_cases a <;> rfl),
    broadcastInDim_apply _ b1 _ (ix2 0 (i 1)) (ix1 (i 1)) (by intro a; fin_cases a; rfl)]

/-- A left fold by `or` over `i1` words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases ori_eq_one.1 h1 with hi | ha
      · exact Or.inl hi
      · exact Or.inr ⟨a, List.mem_cons_self, ha⟩
    · exact Or.inr ⟨n, List.mem_cons_of_mem _ hn, hf⟩

/-- `any`: a reduce by `or` from 0 that is 1 had a 1 at some operand index. -/
theorem reduce_ori_any {s t u : Shape} {axes : List (Fin s.rank)} (x : s.Idx → BitVec 1) (init : u.Idx → BitVec 1)
    (h : s.ReducesTo axes t) (hu : 0 < u.numel) (hinit : ∀ k, init k = 0#1) (j : t.Idx)
    (e : Host.reduce IntOp.ori x init h hu j = 1#1) : ∃ i : s.Idx, x i = 1#1 := by
  rw [Host.reduce_eq_foldl] at e
  rcases foldl_ori_eq_one x _ _ e with h0 | ⟨i, _, hi⟩
  · rw [hinit] at h0; exact absurd h0 (by decide)
  · exact ⟨i, hi⟩

variable [Cert.Pre_finite_inputs.Facts]

/-- The two conjuncts of the precondition, each equal to 1. -/
theorem pre_split (x : FVec Ideal Cert.Pre_finite_inputs.S4096x256 .f32) (L : IVec Cert.Pre_finite_inputs.S4096 32)
    (h : Cert.Pre_finite_inputs.fn (F := Ideal) x L = fun _ => 1#1) :
    Host.reduce IntOp.andi
        (cmpf .olt (Host.absf x) (broadcastInDim Cert.Pre_finite_inputs.S4096x256 ![]
          Cert.Pre_finite_inputs.Facts.bcast_S_S4096x256 (constant Cert.Pre_finite_inputs.S_ .f32 0x7F800000#32)))
        (constantI Cert.Pre_finite_inputs.S_ 1 1#1) Cert.Pre_finite_inputs.Facts.reducesTo_S4096x256_S_d0_1
        Cert.Pre_finite_inputs.Facts.h_S_ ix0 = 1#1
    ∧ Host.reduce IntOp.ori
        (cmpi .ne
          (broadcastInDim Cert.Pre_finite_inputs.S4096x4096 ![0, 1] Cert.Pre_finite_inputs.Facts.bcast_S4096x1_S4096x4096_0_1
            (broadcastInDim Cert.Pre_finite_inputs.S4096x1 ![0] Cert.Pre_finite_inputs.Facts.bcast_S4096_S4096x1_0 L))
          (broadcastInDim Cert.Pre_finite_inputs.S4096x4096 ![0, 1] Cert.Pre_finite_inputs.Facts.bcast_S1x4096_S4096x4096_0_1
            (broadcastInDim Cert.Pre_finite_inputs.S1x4096 ![1] Cert.Pre_finite_inputs.Facts.bcast_S4096_S1x4096_1 L)))
        (constantI Cert.Pre_finite_inputs.S_ 1 0#1) Cert.Pre_finite_inputs.Facts.reducesTo_S4096x4096_S_d0_1
        Cert.Pre_finite_inputs.Facts.h_S_ ix0 = 1#1 := by
  have h0 := congrFun h ix0
  dsimp only [Cert.Pre_finite_inputs.fn] at h0
  exact IntOp.andi_eq_one.1 h0

/-- Every entry of the table is a real number. -/
theorem real_of_pre (x : FVec Ideal Cert.Pre_finite_inputs.S4096x256 .f32) (L : IVec Cert.Pre_finite_inputs.S4096 32)
    (h : Cert.Pre_finite_inputs.fn (F := Ideal) x L = fun _ => 1#1) : ∀ i, ∃ r : ℝ, x i = (r : EReal) :=
  fun i => Idealize.ShloMosaic.FiniteAll.all_real x _ _ _ _ (pre_split x L h).1 i

/-- The labels are not all equal. -/
theorem notAllEqual_of_pre (x : FVec Ideal Cert.Pre_finite_inputs.S4096x256 .f32) (L : IVec Cert.Pre_finite_inputs.S4096 32)
    (h : Cert.Pre_finite_inputs.fn (F := Ideal) x L = fun _ => 1#1) : Cert.PairLoss.NotAllEqual L := by
  obtain ⟨i, hi⟩ := reduce_ori_any _ _ _ _ (fun _ => rfl) ix0 (pre_split x L h).2
  have hne := IntOp.cmpi_ne.1 hi
  rw [bcast_col_apply, bcast_row_apply] at hne
  intro r
  by_cases hr : L (ix1 (i 0)) = L (ix1 r)
  · exact ⟨i 1, fun e => hne (hr.trans e.symm)⟩
  · exact ⟨i 0, hr⟩

end Cert.PairLoss

end
-- ==== Proof.Algebra2.lean ====
/-
  The pairwise loss of a table of real numbers, read in the reals.  With `s` the inner product of two rows,
  `e = exp (2 s)` and `N` the sum of `e` over the rows of another label, both spellings have the entry
  `log (e + N) - 2 s` at a positive pair and `0` elsewhere: the tile spelling by definition, the matrix spelling
  because `-log (e / (e + N)) = log (e + N) - log e` and `log e = 2 s`.
-/
import proofs.«127660_j48911087567313_2_alg».proof.Proof.Algebra1

noncomputable section

open scoped BigOperators

namespace Cert.PairLoss

open Idealize.ShloMosaic Idealize.ShloMosaic.ValueIdx

variable (X' : STab.Idx → ℝ) (L : SLab.Idx → BitVec 32)

/-- The inner product of rows `r` and `j` of a real table. -/
def simR (r j : Fin 4096) : ℝ := ∑ k : Fin 256, X' (ix2 r k) * X' (ix2 j k)

/-- `e^(2·sim)` in the reals. -/
def eR (r j : Fin 4096) : ℝ := Real.exp (simR X' r j * 2)

/-- The sum of `e^(2·sim)` over the rows of another label than row `r`'s. -/
def negR (r : Fin 4096) : ℝ := ∑ j : Fin 4096, if L (ix1 r) = L (ix1 j) then 0 else eR X' r j

theorem eR_pos (r j : Fin 4096) : 0 < eR X' r j := Real.exp_pos _

theorem log_eR (r j : Fin 4096) : Real.log (eR X' r j) = simR X' r j * 2 := Real.log_exp _

/-- When the labels are not all equal, every row has a positive sum over the rows of another label. -/
theorem negR_pos (hL : NotAllEqual L) (r : Fin 4096) : 0 < negR X' L r := by
  obtain ⟨j, hj⟩ := hL r
  unfold negR
  refine Finset.sum_pos' (fun i _ => ?_) ⟨j, Finset.mem_univ j, ?_⟩
  · by_cases h : L (ix1 r) = L (ix1 i)
    · rw [if_pos h]
    · rw [if_neg h]; exact (eR_pos X' r i).le
  · rw [if_neg (fun h => hj h.symm)]; exact eR_pos X' r j

/-- Row sum minus positives' sum, term by term: what is left is the term of a row of another label. -/
theorem term_eq (r j : Fin 4096) :
    (if r = j then 0 else eR X' r j) - (if IsPos L r j then eR X' r j else 0)
      = if L (ix1 r) = L (ix1 j) then 0 else eR X' r j := by
  by_cases hrj : r = j
  · subst hrj
    have hp : ¬ IsPos L r r := fun h => h.2 rfl
    rw [if_pos (rfl : r = r), if_neg hp, if_pos (rfl : L (ix1 r) = L (ix1 r)), sub_zero]
  · by_cases hl : L (ix1 r) = L (ix1 j)
    · have hp : IsPos L r j := ⟨hl, hrj⟩
      rw [if_neg hrj, if_pos hp, if_pos hl, sub_self]
    · have hp : ¬ IsPos L r j := fun h => hl h.1
      rw [if_neg hrj, if_neg hp, if_neg hl, sub_zero]

theorem sim_coe (r j : Fin 4096) : sim (fun i => (X' i : EReal)) r j = (simR X' r j : EReal) := by
  unfold sim simR
  rw [coe_sum]
  exact Finset.sum_congr rfl fun k _ => (EReal.coe_mul _ _).symm

theorem expT_coe (r j : Fin 4096) :
    expT (fun i => (X' i : EReal)) r j = ((if r = j then 0 else eR X' r j : ℝ) : EReal) := by
  unfold expT
  by_cases hrj : r = j
  · rw [if_pos hrj, if_pos hrj, EReal.coe_zero]
  · rw [if_neg hrj, if_neg hrj, sim_coe, two, ← EReal.coe_mul, Ideal.exp_coe]; rfl

theorem expM_coe (r j : Fin 4096) :
    expM (fun i => (X' i : EReal)) r j = ((if r = j then 0 else eR X' r j : ℝ) : EReal) := by
  unfold expM eye half
  rw [sim_coe, Ideal.div_coe (by norm_num : (1 / 2 : ℝ) ≠ 0), ← EReal.coe_mul, Ideal.exp_coe]
  by_cases hrj : r = j
  · rw [if_pos hrj, if_pos hrj, ← EReal.coe_one, ← EReal.coe_sub, sub_self, ← EReal.coe_mul, mul_zero]
  · rw [if_neg hrj, if_neg hrj, sub_zero, mul_one]
    have h2 : (1 / (1 / 2 : ℝ)) = 2 := by norm_num
    rw [h2]; rfl

theorem posM_coe (r j : Fin 4096) :
    posM (fun i => (X' i : EReal)) L r j = ((if IsPos L r j then eR X' r j else 0 : ℝ) : EReal) := by
  unfold posM mask
  rw [expM_coe]
  by_cases hrj : r = j
  · subst hrj
    have hp : ¬ IsPos L r r := fun h => h.2 rfl
    rw [if_pos (rfl : L (ix1 r) = L (ix1 r)), if_pos (rfl : r = r), if_neg hp, one_mul]
  · by_cases hl : L (ix1 r) = L (ix1 j)
    · have hp : IsPos L r j := ⟨hl, hrj⟩
      rw [if_pos hl, if_neg hrj, if_pos hp, one_mul]
    · have hp : ¬ IsPos L r j := fun h => hl h.1
      rw [if_neg hl, if_neg hp, zero_mul, EReal.coe_zero]

theorem negM_coe (r : Fin 4096) : negM (fun i => (X' i : EReal)) L r = (negR X' L r : EReal) := by
  unfold negM negR
  rw [coe_sum]
  refine Finset.sum_congr rfl fun j _ => ?_
  rw [posM_coe, expM_coe, ← EReal.coe_sub, term_eq]

theorem negT_coe (r : Fin 4096) : negT (fun i => (X' i : EReal)) L r = (negR X' L r : EReal) := by
  have h1 : (∑ j : Fin 4096, expT (fun i => (X' i : EReal)) r j)
      = ((∑ j : Fin 4096, (if r = j then 0 else eR X' r j) : ℝ) : EReal) := by
    rw [coe_sum]; exact Finset.sum_congr rfl fun j _ => expT_coe X' r j
  have h2 : (∑ j : Fin 4096, if IsPos L r j then expT (fun i => (X' i : EReal)) r j else 0)
      = ((∑ j : Fin 4096, (if IsPos L r j then eR X' r j else 0) : ℝ) : EReal) := by
    rw [coe_sum]; refine Finset.sum_congr rfl fun j _ => ?_
    by_cases hp : IsPos L r j
    · rw [if_pos hp, if_pos hp, expT_coe, if_neg hp.2]
    · rw [if_neg hp, if_neg hp, EReal.coe_zero]
  unfold negT negR
  rw [h1, h2, ← EReal.coe_sub, ← Finset.sum_sub_distrib]
  exact congrArg _ (Finset.sum_congr rfl fun j _ => term_eq X' L r j)

/-- The entry of the tile spelling, in the reals. -/
theorem lossT_coe (hL : NotAllEqual L) (r j : Fin 4096) :
    lossT (fun i => (X' i : EReal)) L r j
      = ((if IsPos L r j then Real.log (eR X' r j + negR X' L r) - simR X' r j * 2 else 0 : ℝ) : EReal) := by
  unfold lossT
  by_cases hp : IsPos L r j
  · rw [if_pos hp, if_pos hp, expT_coe, if_neg hp.2, negT_coe, sim_coe, two, ← EReal.coe_add, Ideal.log_coe,
      if_neg (not_le.mpr (add_pos (eR_pos X' r j) (negR_pos X' L hL r))), ← EReal.coe_mul, ← EReal.coe_sub]
  · rw [if_neg hp, if_neg hp, EReal.coe_zero]

/-- The expression under the matrix spelling's logarithm, at real mask, positive term, negatives' sum and diagonal. -/
theorem entry_coe (mE dE : EReal) (m p n d : ℝ) (hm : mE = (m : EReal)) (hd : dE = (d : EReal)) (hpn : p + n ≠ 0)
    (hpos : 0 < (1 - m) + p * (1 / (p + n)) + d) :
    - Ideal.log (((1 - mE) + Ideal.div (p : EReal) ((p : EReal) + (n : EReal))) + dE)
      = ((-(Real.log ((1 - m) + p * (1 / (p + n)) + d)) : ℝ) : EReal) := by
  subst hm hd
  rw [← EReal.coe_add p n, Ideal.div_coe hpn, ← EReal.coe_mul, ← EReal.coe_one, ← EReal.coe_sub, ← EReal.coe_add,
    ← EReal.coe_add, Ideal.log_coe, if_neg (not_le.mpr hpos), ← EReal.coe_neg]

/-- The entry of the matrix spelling, in the reals. -/
theorem lossM_coe (hL : NotAllEqual L) (r j : Fin 4096) :
    lossM (fun i => (X' i : EReal)) L r j
      = ((if IsPos L r j then Real.log (eR X' r j + negR X' L r) - simR X' r j * 2 else 0 : ℝ) : EReal) := by
  have hN := negR_pos X' L hL r
  have hE := eR_pos X' r j
  unfold lossM
  rw [posM_coe, negM_coe]
  by_cases hrj : r = j
  · have hp : ¬ IsPos L r j := fun h => h.2 hrj
    have hl : L (ix1 r) = L (ix1 j) := by rw [hrj]
    rw [if_neg hp, if_neg hp,
      entry_coe (mask L r j) (eye r j) 1 0 (negR X' L r) 1 (by unfold mask; rw [if_pos hl, EReal.coe_one])
        (by unfold eye; rw [if_pos hrj, EReal.coe_one]) (by linarith) (by norm_num)]
    refine congrArg _ ?_
    norm_num
  · by_cases hl : L (ix1 r) = L (ix1 j)
    · have hp : IsPos L r j := ⟨hl, hrj⟩
      rw [if_pos hp, if_pos hp,
        entry_coe (mask L r j) (eye r j) 1 (eR X' r j) (negR X' L r) 0 (by unfold mask; rw [if_pos hl, EReal.coe_one])
          (by unfold eye; rw [if_neg hrj, EReal.coe_zero]) (by linarith)
          (by have : 0 < eR X' r j * (1 / (eR X' r j + negR X' L r)) := by positivity
              linarith)]
      refine congrArg _ ?_
      have h3 : (1 - 1 : ℝ) + eR X' r j * (1 / (eR X' r j + negR X' L r)) + 0
          = eR X' r j / (eR X' r j + negR X' L r) := by ring
      rw [h3, Real.log_div hE.ne' (add_pos hE hN).ne', log_eR]
      ring
    · have hp : ¬ IsPos L r j := fun h => hl h.1
      rw [if_neg hp, if_neg hp,
        entry_coe (mask L r j) (eye r j) 0 0 (negR X' L r) 0 (by unfold mask; rw [if_neg hl, EReal.coe_zero])
          (by unfold eye; rw [if_neg hrj, EReal.coe_zero]) (by linarith) (by norm_num)]
      refine congrArg _ ?_
      norm_num

end Cert.PairLoss

end
-- ==== Proof.Algebra3.lean ====
/-
  The two spellings of the pairwise loss agree on a table of real numbers whose labels are not all equal: entry by
  entry, hence in the total of the entries, and the number of nonzero entries is the total of the rows' counts.
-/
import proofs.«127660_j48911087567313_2_alg».proof.Proof.Algebra2

noncomputable section

open scoped BigOperators

namespace Cert.PairLoss

open Idealize.ShloMosaic Idealize.ShloMosaic.ValueIdx

/-- The two spellings have the same entries. -/
theorem lossM_eq_lossT (X : STab.Idx → EReal) (L : SLab.Idx → BitVec 32) (hX : RealTable X) (hL : NotAllEqual L)
    (r j : Fin 4096) : lossM X L r j = lossT X L r j := by
  choose X' hX' using hX
  have hXe : X = fun i => (X' i : EReal) := funext hX'
  subst hXe
  rw [lossM_coe X' L hL, lossT_coe X' L hL]

/-- The number of nonzero entries is the double sum of the indicator of a nonzero entry. -/
theorem cntM_eq (X : STab.Idx → EReal) (L : SLab.Idx → BitVec 32) :
    cntM X L = ∑ r : Fin 4096, ∑ j : Fin 4096, if lossM X L r j ≠ 0 then (1 : EReal) else 0 := by
  unfold cntM
  rw [Finset.card_filter, Nat.cast_sum, coe_sum, Fintype.sum_prod_type]
  refine Finset.sum_congr rfl fun r _ => Finset.sum_congr rfl fun j _ => ?_
  by_cases h : lossM X L r j ≠ 0
  · rw [if_pos h, if_pos h, Nat.cast_one, EReal.coe_one]
  · rw [if_neg h, if_neg h, Nat.cast_zero, EReal.coe_zero]

/-- The matrix spelling of the loss is the tile spelling. -/
theorem lossMatrix_eq_lossTile (X : STab.Idx → EReal) (L : SLab.Idx → BitVec 32) (hX : RealTable X)
    (hL : NotAllEqual L) : lossMatrix X L = lossTile X L := by
  have hfun : ∀ r j, lossM X L r j = lossT X L r j := lossM_eq_lossT X L hX hL
  unfold lossMatrix lossTile
  rw [cntM_eq]
  unfold rowSum rowCnt
  have hnum : (∑ r : Fin 4096, ∑ j : Fin 4096, lossM X L r j) = ∑ r : Fin 4096, ∑ j : Fin 4096, lossT X L r j :=
    Finset.sum_congr rfl fun r _ => Finset.sum_congr rfl fun j _ => hfun r j
  have hden : (∑ r : Fin 4096, ∑ j : Fin 4096, if lossM X L r j ≠ 0 then (1 : EReal) else 0)
      = ∑ r : Fin 4096, ∑ j : Fin 4096, if lossT X L r j ≠ 0 then (1 : EReal) else 0 :=
    Finset.sum_congr rfl fun r _ => Finset.sum_congr rfl fun j _ => by rw [hfun r j]
  rw [hnum, hden]

end Cert.PairLoss

end
-- ==== Proof.Algebra.lean ====
/-
  The algebra of the pairwise loss over the extended reals, gathered: the row normalisation of a real table is a real
  table (`normed_real`), and on a real table whose labels are not all equal the matrix spelling of the loss is the tile
  spelling (`lossM_eq_lossT` entry by entry, `lossMatrix_eq_lossTile` for the loss).
-/
import proofs.«127660_j48911087567313_2_alg».proof.Proof.Algebra3
-- ==== Proof.lean ====
/-
  A pairwise contrastive loss over 4096 embedding rows, tiled by 128 rows against the whole table in a kernel, is the
  same number as the matrix form a plain reference computes — over the extended reals, for real-valued embeddings and
  labels that are not all equal.

  Both programs first divide every row by the larger of its norm and a floor.  The kernel then, for each block of 128
  rows, forms the rows' inner products with all 4096 rows, exponentiates twice the products with the diagonal zeroed,
  and for every pair of distinct rows with one label takes `log (e + neg) - 2·sim`, where `neg` is the row's sum over
  the rows of another label; it writes each row's sum of these entries and the count of the nonzero ones, and the host
  divides the total of the sums by the total of the counts.  The reference builds the 4096 × 4096 matrix of
  `-log ((1 - mask) + pos / (pos + neg) + eye)` and divides its sum by its number of nonzero entries.  Entry by entry
  the two agree because `-log (e / (e + neg)) = log (e + neg) - log e` and `log e = 2·sim`; this needs `neg > 0` in every
  row, that is, labels that are not all equal — with all labels equal the reference's own diagonal is `0 / 0`.

  The frames: the kernel reads the normalised table through two windows on one array; its buffer is dealt in two half
  shares at the region's entry and joined at its exit, and the host operations after the region run on the joined
  buffers.  The reference is a straight line of host operations.
-/
import proofs.«127660_j48911087567313_2_alg».proof.Defs
import proofs.«127660_j48911087567313_2_alg».proof.Proof.Gen.Kernel
import proofs.«127660_j48911087567313_2_alg».proof.Proof.Gen.KernelIdeal
import proofs.«127660_j48911087567313_2_alg».proof.Proof.Gen.ReferenceIdeal
import proofs.«127660_j48911087567313_2_alg».proof.Proof.Gen.Pre_finite_inputs
import proofs.«127660_j48911087567313_2_alg».proof.Proof.BKept
import proofs.«127660_j48911087567313_2_alg».proof.Proof.KValue
import proofs.«127660_j48911087567313_2_alg».proof.Proof.RefRead
import proofs.«127660_j48911087567313_2_alg».proof.Proof.PreDecode
import proofs.«127660_j48911087567313_2_alg».proof.Proof.Algebra
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Region.frame m ρ

/-- So does its idealization. -/
theorem frame_ideal : Cert.frame_KernelIdeal := fun m ρ _ => Cert.KernelIdeal.Region.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- The kernel's result is the tile spelling of the loss of the normalised table, the reference's the matrix
    spelling; under the precondition the table is real-valued and the labels are not all equal, so the two are equal. -/
theorem algebraic : Cert.algebraic_KernelIdeal_ReferenceIdeal := by
  intro m ρ m' ρ' hpre hagree
  refine ⟨_, Cert.KernelIdeal.Region.value_run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  funext _
  exact Cert.PairLoss.lossMatrix_eq_lossTile _ _
    (Cert.PairLoss.normed_real _ (Cert.PairLoss.real_of_pre _ _ (hpre c)))
    (Cert.PairLoss.notAllEqual_of_pre _ _ (hpre c))

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
